-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x64 : Shape := ⟨4, ![16, 64, 64, 64]⟩
abbrev S64x64 : Shape := ⟨2, ![64, 64]⟩
abbrev S64 : Shape := ⟨1, ![64]⟩
abbrev S_ : Shape := ⟨0, ![]⟩

class Facts : Prop where
  bcast_S_S16x64x64x64 : S_.BroadcastsInDim S16x64x64x64 (![] : Fin 0 → Fin S16x64x64x64.rank)
  reducesTo_S16x64x64x64_S_d0_1_2_3 : S16x64x64x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S16x64x64x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S16x64x64x64 .f32 := Host.absf main_arg0
  let main_cst : FVec F S_ .f32 := constant S_ .f32 0x7F800000#32
  let main_v1 : FVec F S16x64x64x64 .f32 := broadcastInDim S16x64x64x64 ![] bcast_S_S16x64x64x64 main_cst
  let main_v2 : IVec S16x64x64x64 1 := cmpf .olt main_v0 main_v1
  let main_c : IVec S_ 1 := constantI S_ 1 1#1
  let main_v3 : IVec S_ 1 := (fun x v => Host.reduce IntOp.andi x v reducesTo_S16x64x64x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S16x64x64x64 : Shape := ⟨4, ![16, 64, 64, 64]⟩
abbrev S64x64 : Shape := ⟨2, ![64, 64]⟩
abbrev S64 : Shape := ⟨1, ![64]⟩
abbrev S16x64x4096 : Shape := ⟨3, ![16, 64, 4096]⟩
abbrev S1x64 : Shape := ⟨2, ![1, 64]⟩
abbrev S64x1 : Shape := ⟨2, ![64, 1]⟩
abbrev S16x4096x64 : Shape := ⟨3, ![16, 4096, 64]⟩
abbrev S1x64x2048 : Shape := ⟨3, ![1, 64, 2048]⟩
abbrev S1x2048x64 : Shape := ⟨3, ![1, 2048, 64]⟩
abbrev S64x2048 : Shape := ⟨2, ![64, 2048]⟩
abbrev S2048x64 : Shape := ⟨2, ![2048, 64]⟩
abbrev S1x512x64 : Shape := ⟨3, ![1, 512, 64]⟩
abbrev S1x1024x64 : Shape := ⟨3, ![1, 1024, 64]⟩
abbrev S1x64x512 : Shape := ⟨3, ![1, 64, 512]⟩
abbrev S512x1 : Shape := ⟨2, ![512, 1]⟩
abbrev S512x64 : Shape := ⟨2, ![512, 64]⟩
abbrev S1024x64 : Shape := ⟨2, ![1024, 64]⟩
abbrev S512x1024 : Shape := ⟨2, ![512, 1024]⟩
abbrev S512 : Shape := ⟨1, ![512]⟩
abbrev S64x512 : Shape := ⟨2, ![64, 512]⟩

abbrev nBuf : Space → Nat
  | .hbm => 19
  | .vmem => 27
  | .smem => 0
  | _ => 0

abbrev bufTy : (tb : Table) → Fin (tcTables nBuf tb) → BufTy
  | .hbm, ⟨0, _⟩ => ⟨S16x64x64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S16x64x4096, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S64x1, .f32⟩
  | .hbm, ⟨14, _⟩ => ⟨S16x4096x64, .bf16⟩
  | .hbm, ⟨15, _⟩ => ⟨S16x4096x64, .bf16⟩
  | .hbm, ⟨16, _⟩ => ⟨S16x4096x64, .bf16⟩
  | .hbm, ⟨17, _⟩ => ⟨S16x64x4096, .f32⟩
  | .hbm, ⟨18, _⟩ => ⟨S16x64x64x64, .f32⟩
  | .local _ .vmem, ⟨0, _⟩ => ⟨S1x64x2048, .f32⟩
  | .local _ .vmem, ⟨1, _⟩ => ⟨S1x64x2048, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1x1024x64, .bf16⟩
  | .local _ .vmem, ⟨19, _⟩ => ⟨S1x1024x64, .bf16⟩
  | .local _ .vmem, ⟨20, _⟩ => ⟨S64x64, .f32⟩
  | .local _ .vmem, ⟨21, _⟩ => ⟨S64x1, .f32⟩
  | .local _ .vmem, ⟨22, _⟩ => ⟨S1x64x512, .f32⟩
  | .local _ .vmem, ⟨23, _⟩ => ⟨S1x64x512, .f32⟩
  | .local _ .vmem, ⟨24, _⟩ => ⟨S512x1, .f32⟩
  | .local _ .vmem, ⟨25, _⟩ => ⟨S512x1, .f32⟩
  | .local _ .vmem, ⟨26, _⟩ => ⟨S512x64, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![16, 8, 4], ![false, false, false]⟩

def k1_cond2 (i : grid1.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_27 : BitVec 32 := 0#32
  let v46 : BitVec 1 := Scalar.cmpi .ne v45 c0_i32_27
  v46

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x64x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S16x64x64x64_S16x64x4096 : S16x64x64x64.ShapeCasts S16x64x4096
  shapeCasts_S64_S1x64 : S64.ShapeCasts S1x64
  shapeCasts_S64_S64x1 : S64.ShapeCasts S64x1
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  transposes_S64x2048_p1_0_S2048x64 : S64x2048.Transposes [1, 0] S2048x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S512x1024_S512 : S512x1024.Reduces [1] S512
  shapeCasts_S512_S512x1 : S512.ShapeCasts S512x1
  broadcasts_S512x1_S512x1024 : S512x1.Broadcasts S512x1024
  broadcasts_S512x1_S512x64 : S512x1.Broadcasts S512x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x512 : S64x1.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  shapeCasts_S16x64x4096_S16x64x64x64 : S16x64x4096.ShapeCasts S16x64x64x64
  dot_S2048x64_S64x64_S2048x64_1_1_0_0_n_n_wf : DotDims.WF S2048x64 S64x64 S2048x64 [1] [1] [0] [0] [] []
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  dot_S64x64_S512x64_S64x512_1_1_0_0_n_n_wf : DotDims.WF S64x64 S512x64 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S16x64x4096.size a
  hwx0_0 : ∀ i : grid0.Coords, EltTy.bits .f32 = 32 ∨ (Rect.block (s := S16x64x4096) S1x64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x64.size a ≤ S16x4096x64.size a
  hwx0_7 : ∀ i : grid0.Coords, EltTy.bits .bf16 = 32 ∨ (Rect.block (s := S16x4096x64) S1x2048x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x64.size a ≤ S16x4096x64.size a
  hwx0_8 : ∀ i : grid0.Coords, EltTy.bits .bf16 = 32 ∨ (Rect.block (s := S16x4096x64) S1x2048x64.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x64.size a ≤ S16x4096x64.size a
  hwx0_9 : ∀ i : grid0.Coords, EltTy.bits .bf16 = 32 ∨ (Rect.block (s := S16x4096x64) S1x2048x64.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S16x4096x64.size a
  hwx1_0 : ∀ i : grid1.Coords, EltTy.bits .bf16 = 32 ∨ (Rect.block (s := S16x4096x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S16x4096x64.size a
  hwx1_1 : ∀ i : grid1.Coords, EltTy.bits .bf16 = 32 ∨ (Rect.block (s := S16x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S16x4096x64.size a
  hwx1_2 : ∀ i : grid1.Coords, EltTy.bits .bf16 = 32 ∨ (Rect.block (s := S16x4096x64) S1x1024x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x512.size a ≤ S16x64x4096.size a
  hwx1_5 : ∀ i : grid1.Coords, EltTy.bits .f32 = 32 ∨ (Rect.block (s := S16x64x4096) S1x64x512.size (cc1_transform_5 i) (hinb1_5 i)).WholeWords (EltTy.packing .f32)

variable [Facts₀]

def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S64x64_S512x64_S64x512_1_1_0_0_n_n : DotDims S64x64 S512x64 S64x512 where
  lhsContracting := [1]
  rhsContracting := [1]
  lhsNonContracting := [0]
  rhsNonContracting := [0]
  lhsBatch := []
  rhsBatch := []
  wf := dot_S64x64_S512x64_S64x512_1_1_0_0_n_n_wf

abbrev win0_0 : Pipeline.Window sig grid0 :=
  Pipeline.Window.ofSpec (Memref.whole main_v0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S1x2048x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S1x2048x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_2) S1x2048x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x64x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16x64x64x64 : Shape := ⟨4, ![16, 64, 64, 64]⟩
abbrev S64x64 : Shape := ⟨2, ![64, 64]⟩
abbrev S64 : Shape := ⟨1, ![64]⟩
abbrev S16x64x4096 : Shape := ⟨3, ![16, 64, 4096]⟩
abbrev S16x4096x64 : Shape := ⟨3, ![16, 4096, 64]⟩
abbrev S1x1x64 : Shape := ⟨3, ![1, 1, 64]⟩
abbrev S_ : Shape := ⟨0, ![]⟩
abbrev S16x4096x4096 : Shape := ⟨3, ![16, 4096, 4096]⟩
abbrev S16x4096 : Shape := ⟨2, ![16, 4096]⟩
abbrev S16x4096x1 : Shape := ⟨3, ![16, 4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S16x64x64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S16x64x4096, .f32⟩
  | .hbm, ⟨10, _⟩ => ⟨S16x4096x64, .f32⟩
  | .hbm, ⟨11, _⟩ => ⟨S16x4096x64, .f32⟩
  | .hbm, ⟨12, _⟩ => ⟨S1x1x64, .f32⟩
  | .hbm, ⟨13, _⟩ => ⟨S16x4096x64, .f32⟩
  | .hbm, ⟨14, _⟩ => ⟨S16x4096x64, .f32⟩
  | .hbm, ⟨15, _⟩ => ⟨S16x4096x64, .f32⟩
  | .hbm, ⟨16, _⟩ => ⟨S1x1x64, .f32⟩
  | .hbm, ⟨17, _⟩ => ⟨S16x4096x64, .f32⟩
  | .hbm, ⟨18, _⟩ => ⟨S16x4096x64, .f32⟩
  | .hbm, ⟨19, _⟩ => ⟨S16x4096x64, .f32⟩
  | .hbm, ⟨20, _⟩ => ⟨S1x1x64, .f32⟩
  | .hbm, ⟨21, _⟩ => ⟨S16x4096x64, .f32⟩
  | .hbm, ⟨22, _⟩ => ⟨S16x4096x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S16x4096, .f32⟩
  | .hbm, ⟨32, _⟩ => ⟨S_, .f32⟩
  | .hbm, ⟨33, _⟩ => ⟨S16x4096, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .f32⟩
  | .hbm, ⟨44, _⟩ => ⟨S16x4096x64, .f32⟩
  | .hbm, ⟨45, _⟩ => ⟨S16x4096x64, .f32⟩
  | .hbm, ⟨46, _⟩ => ⟨S1x1x64, .f32⟩
  | .hbm, ⟨47, _⟩ => ⟨S16x4096x64, .f32⟩
  | .hbm, ⟨48, _⟩ => ⟨S16x4096x64, .f32⟩
  | .hbm, ⟨49, _⟩ => ⟨S16x64x4096, .f32⟩
  | .hbm, ⟨50, _⟩ => ⟨S16x64x64x64, .f32⟩
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  shapeCasts_S16x64x64x64_S16x64x4096 : S16x64x64x64.ShapeCasts S16x64x4096
  transposes_S16x64x4096_S16x4096x64_0_2_1 : S16x64x4096.Transposes [0, 2, 1] S16x4096x64
  bcast_S64_S1x1x64_2 : S64.BroadcastsInDim S1x1x64 (![2] : Fin 1 → Fin S1x1x64.rank)
  bcast_S1x1x64_S16x4096x64_0_1_2 : S1x1x64.BroadcastsInDim S16x4096x64 (![0, 1, 2] : Fin 3 → Fin S16x4096x64.rank)
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  transposes_S16x4096x64_S16x64x4096_0_2_1 : S16x4096x64.Transposes [0, 2, 1] S16x64x4096
  shapeCasts_S16x64x4096_S16x64x64x64 : S16x64x4096.ShapeCasts S16x64x64x64
  dot_S16x4096x64_S64x64_S16x4096x64_2_1_01_0_n_n_wf : DotDims.WF S16x4096x64 S64x64 S16x4096x64 [2] [1] [0, 1] [0] [] []
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S16x4096x64_S64x64_S16x4096x64_2_1_01_0_n_n : DotDims S16x4096x64 S64x64 S16x4096x64 where
  lhsContracting := [2]
  rhsContracting := [1]
  lhsNonContracting := [0, 1]
  rhsNonContracting := [0]
  lhsBatch := []
  rhsBatch := []
  wf := dot_S16x4096x64_S64x64_S16x4096x64_2_1_01_0_n_n_wf
def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.K.Region0.lean ====
import proofs.«141329_j15582141350418_2_alg».proof.Proof.Gen.Kernel.Launch
import proofs.«141329_j15582141350418_2_alg».proof.Proof.Gen.Kernel.Skeleton
import proofs.«141329_j15582141350418_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the three projections

The first region of the program computes, for each batch entry and each half of the 4096 positions,
the three projections of a block `x` (64 channels by 2048 positions): for a weight matrix `w`
(64 by 64) and a bias row `b`, the block `xᵀ·wᵀ + b` (2048 positions by 64 channels), rounded to the
narrow format. The body loads the block of `x` and the three (weight, bias) pairs, and stores each of
the three results over the whole of its output buffer in one store. So what the body leaves in each
output buffer is a function of three loaded blocks only, and what it finds in an input buffer is that
input's block at the grid point, whether or not the block was moved in at that very point (the
weights and biases have one block for the whole grid, moved in once).

This module states that: the blocks (`iblk0`), the three results (`out0_7`, `out0_8`, `out0_9`), the
body's triple on arbitrary whole buffers (`sound_kernel0`), the per-point proof data (`dat0`) and the
body's obligation at every grid point (`body_obligation0`), for any float instance and any contents
of the arrays at the region's entry.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes: each is the whole of its buffer -/

abbrev rX : Rect S1x64x2048 := Rect.unit (s := S1x64x2048) ![0, 0, 0] S1x64x2048.size inb_S1x64x2048_S1x64x2048_0_0_0
abbrev rW : Rect S64x64 := Rect.unit (s := S64x64) ![0, 0] S64x64.size inb_S64x64_S64x64_0_0
abbrev rB : Rect S1x64 := Rect.unit (s := S1x64) ![0, 0] S1x64.size inb_S1x64_S1x64_0_0
abbrev rO : Rect S1x2048x64 := Rect.unit (s := S1x2048x64) ![0, 0, 0] S1x2048x64.size inb_S1x2048x64_S1x2048x64_0_0_0

/-! ## What the body leaves in each output buffer -/

/-- The first projection's buffer after the body: its one store, of the product of the block of `x`
    with the first weight plus the first bias, over the whole buffer. -/
def out0_7 (x0 : Vec F S1x64x2048 .f32) (x1 : Vec F S64x64 .f32) (x2 : Vec F S1x64 .f32) : Vec F S1x2048x64 .bf16 :=
  View.canon [⟨rO, k0_pay4 (View.ld x0 rX) (View.ld x1 rW) (View.ld x2 rB)⟩]

/-- The second projection's buffer after the body: second weight, second bias. -/
def out0_8 (x0 : Vec F S1x64x2048 .f32) (x3 : Vec F S64x64 .f32) (x4 : Vec F S1x64 .f32) : Vec F S1x2048x64 .bf16 :=
  View.canon [⟨rO, k0_pay5 (View.ld x0 rX) (View.ld x3 rW) (View.ld x4 rB)⟩]

/-- The third projection's buffer after the body: third weight, third bias. -/
def out0_9 (x0 : Vec F S1x64x2048 .f32) (x5 : Vec F S64x64 .f32) (x6 : Vec F S1x64 .f32) : Vec F S1x2048x64 .bf16 :=
  View.canon [⟨rO, k0_pay1 (k0_pay3 (View.ld x0 rX) (View.ld x5 rW) (View.ld x6 rB))⟩]

/-- One store through the whole-buffer rectangle covers the buffer. -/
theorem cover0 (p0 : Vec F S1x2048x64 .bf16) (y : S1x2048x64.Idx) :
    ∃ pc ∈ ([⟨rO, p0⟩] : List (View.Piece (Elt F) S1x2048x64 .bf16)), y ∈ pc.1.set :=
  View.cover_of_tiled [⟨rO, p0⟩] S1x2048x64.size (by rfl) y

/-! ## The body's triple -/

set_option maxHeartbeats 1000000 in
/-- The body on whole buffers, the inputs' holding `x0 … x6` and the outputs' anything, runs to the
    continuation with the inputs' as they were and each output's holding its projection. (The body
    also loads each output buffer once before storing it; the loaded value is never used.) -/
theorem sound_kernel0 (c : Dev nD) (E : Set ℕ) (i : grid0.Coords) (arg2 : Memref sig .tc .vmem S1x64x2048 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x2048x64 .bf16) (harg9 : arg9.IsWhole) (arg10 : Memref sig .tc .vmem S1x2048x64 .bf16) (harg10 : arg10.IsWhole) (arg11 : Memref sig .tc .vmem S1x2048x64 .bf16) (harg11 : arg11.IsWhole)
    (x0 : Vec F S1x64x2048 .f32) (x1 : Vec F S64x64 .f32) (x2 : Vec F S1x64 .f32) (x3 : Vec F S64x64 .f32) (x4 : Vec F S1x64 .f32) (x5 : Vec F S64x64 .f32) (x6 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## What the body finds in each input buffer: that window's block, moved in at this point or not -/

/-- Input window 0's current buffer holds its block at every grid point, for any proof data whose array
    is the entry contents and whose body leaves the block in place: where the block was not moved in at
    the point, its index has not changed since the point before, and the buffer still holds it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every grid point, for any proof data whose array
    is the entry contents and whose body leaves the block in place: where the block was not moved in at
    the point, its index has not changed since the point before, and the buffer still holds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every grid point, for any proof data whose array
    is the entry contents and whose body leaves the block in place: where the block was not moved in at
    the point, its index has not changed since the point before, and the buffer still holds it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every grid point, for any proof data whose array
    is the entry contents and whose body leaves the block in place: where the block was not moved in at
    the point, its index has not changed since the point before, and the buffer still holds it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every grid point, for any proof data whose array
    is the entry contents and whose body leaves the block in place: where the block was not moved in at
    the point, its index has not changed since the point before, and the buffer still holds it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every grid point, for any proof data whose array
    is the entry contents and whose body leaves the block in place: where the block was not moved in at
    the point, its index has not changed since the point before, and the buffer still holds it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every grid point, for any proof data whose array
    is the entry contents and whose body leaves the block in place: where the block was not moved in at
    the point, its index has not changed since the point before, and the buffer still holds it. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The proof data of the region's pipeline -/

/-- The proof data on core `c`: the arrays as the region finds them; after the body at point `t` each
    input's buffer still at its block and each output's at its projection of the input blocks; the
    invariant is the rest of the core's scoped memory and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body's obligation, at a generic grid point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
/- Region 1 (the flash-attention kernel): what its three case runs share. The grid is 16 x 8 x 4, the last axis
   the key/value tile; the body branches on that coordinate only. The conditions in closed form, where the output
   window is idle, the staging memrefs at a point, the three carried buffers (running maximum, running denominator,
   running numerator) as memrefs, and the region invariant with those three buffers exposed. -/
import proofs.«141329_j15582141350418_2_alg».proof.Proof.Gen.Kernel.Launch
import proofs.«141329_j15582141350418_2_alg».proof.Proof.Gen.Kernel.Skeleton
import proofs.«141329_j15582141350418_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: unfetched, the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, in closed form -/

/-- The first `scf.if`: the key/value coordinate is 0 (the carried buffers are initialised). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second `scf.if`: the key/value coordinate is 3 (the output block is computed and stored). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Off the last key/value tile the output window is idle and not written back; on it, live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64x512 .f32 := win1_5.stage (cfg1.slots t 5)
abbrev hs1_5 (t : Fin cfg1.N) : (ms1_5 t).IsWhole := hstage1_5 ((cfg1.slots t 5).cast nbuf1_5)
/-- The three carried buffers: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2

/-! ## The region invariant with the carried buffers exposed -/

/-- A scoped buffer of the core that this region never touches, at some contents. -/
abbrev anyAt1 (c : Dev nD) (b : Ref sig .tc) : sProp 𝕄 :=
  iprop(∃ f : Buf (Elt F) ((c : Thread nD τ).loc b), ((c : Thread nD τ).loc b) ↦{fullShare} f)

/-- The other region's staging buffers, each at some contents, in front of `Q`. -/
def rest1 (c : Dev nD) (Q : sProp 𝕄) : sProp 𝕄 :=
  iprop(anyAt1 c cc0_stg0_0 ∗ anyAt1 c cc0_stg0_1 ∗ anyAt1 c cc0_stg1_0 ∗ anyAt1 c cc0_stg2_0 ∗ anyAt1 c cc0_stg3_0 ∗ anyAt1 c cc0_stg4_0 ∗ anyAt1 c cc0_stg5_0 ∗ anyAt1 c cc0_stg6_0 ∗ anyAt1 c cc0_stg7_0 ∗ anyAt1 c cc0_stg7_1 ∗ anyAt1 c cc0_stg8_0 ∗ anyAt1 c cc0_stg8_1 ∗ anyAt1 c cc0_stg9_0 ∗ anyAt1 c cc0_stg9_1 ∗ Q)

theorem rest1_mono (c : Dev nD) {Q Q' : sProp 𝕄} (h : Q ⊢ Q') : rest1 (F := F) c Q ⊢ rest1 c Q' := by
  unfold rest1
  iintro ⟨R0, R1, R2, R3, R4, R5, R6, R7, R8, R9, R10, R11, R12, R13, HQ⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iapply h
  iexact HQ

/-- The region invariant the launch hands over, with the three carried buffers as memrefs owned at some contents. -/
theorem PhiA1_eq (c : Dev nD) :
    (Pipeline.ΦA spec1 c : sProp 𝕄)
      = iprop(rest1 c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA rest1; rw [scopedRest1_eq]; simp only [scM1_0, scM1_1, scM1_2, owns_whole]; try rfl

/-! ## One step of the online softmax, as the body computes it -/

theorem hz1_2 : (![0, 0] : Fin 2 → ℕ) = fun _ => 0 := by funext a; fin_cases a <;> rfl
theorem hz1_3 : (![0, 0, 0] : Fin 3 → ℕ) = fun _ => 0 := by funext a; fin_cases a <;> rfl

/-- The carried triple (running maximum, running denominator, running numerator). -/
abbrev Scr1 (F : FTy → Type) : Type := Vec F S512x1 .f32 × Vec F S512x1 .f32 × Vec F S512x64 .f32

/-- What the first key/value tile starts from: maximum -inf, denominator 0, numerator 0. -/
def init1 : Scr1 F := (k1_pay4, k1_pay5, k1_pay6)

/-- One key/value tile folded into the carried triple: the new maximum; the old denominator rescaled plus the
    tile's row sums; the old numerator rescaled plus the tile's weighted values. Every factor is computed from
    the OLD maximum `s.1` (the body loads it before it stores the new one). -/
def upd1 (q : Vec F S1x512x64 .bf16) (k v : Vec F S1x1024x64 .bf16) (s : Scr1 F) : Scr1 F :=
  (k1_pay2 (k1_pay9 q k s.1), k1_pay12 q k s.1 s.1 s.2.1, k1_pay1 (k1_pay7 v) (k1_pay10 q k s.1 s.1) (k1_pay11 q k s.1) s.2.2)

/-- The output block from the final numerator and denominator and the projection's weight and bias column. -/
def fin1 (acc : Vec F S512x64 .f32) (l : Vec F S512x1 .f32) (ow : Vec F S64x64 .f32) (ob : Vec F S64x1 .f32) : Vec F S1x64x512 .f32 :=
  k1_pay3 acc l ow ob

/-- One whole-buffer store covers the buffer. -/
theorem cover1 {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-- A buffer whose LAST store was a whole-buffer store of `w` reads `w`, whatever was stored before. -/
theorem read_last1 {κ : Kind} {sp : Space} {S : Shape} {e : EltTy} (v : View sig κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (cover1 h inb w L)).trans (View.canon_cons_unit_zero h inb w L)

end Cert.Kernel.Hand

end
-- ==== Proof.K.Region1RunB.lean ====
/- Region 1, the run of the body at a middle key/value tile (coordinate 1 or 2): neither branch is taken; one
   online-softmax step is folded into the carried triple; the output buffer is handed back as found. -/
import proofs.«141329_j15582141350418_2_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at contents `x·`, the output buffer at `xi5`, the carried triple at `xs·` — the body
    runs to the continuation with the inputs and the output buffer as they were and the carried triple at one step
    (`upd1`) from `xs·`. -/
theorem kernelRun1_B (c : Dev nD) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S64x64 .f32) (harg6 : arg6.IsWhole) (arg7 : Memref sig .tc .vmem S64x1 .f32) (harg7 : arg7.IsWhole) (arg8 : Memref sig .tc .vmem S1x64x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : ¬cond1_1 i)
    (x0 : Vec F S1x512x64 .bf16) (x1 : Vec F S1x1024x64 .bf16) (x2 : Vec F S1x1024x64 .bf16) (x3 : Vec F S64x64 .f32) (x4 : Vec F S64x1 .f32) (xs0 : Vec F S512x1 .f32) (xs1 : Vec F S512x1 .f32) (xs2 : Vec F S512x64 .f32)
    (xi5 : Vec F S1x64x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (upd1 x0 x1 x2 (xs0, xs1, xs2)).1 ∗ owns (c : Thread nD τ) arg10 fullShare (upd1 x0 x1 x2 (xs0, xs1, xs2)).2.1 ∗ owns (c : Thread nD τ) arg11 fullShare (upd1 x0 x1 x2 (xs0, xs1, xs2)).2.2) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  subst hf0 hf1 hf2 hf3 hf4 hf5 hfs0 hfs1 hfs2
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [HS0]
  · iexists _; isplitr
    swap; · iexact HS0
    ipureintro
    refine (read_last1 _ _ hz1_2 _ _ _).trans ?_
    sl_unfold_run_names
    simp only [View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  isplitl [HS1]
  · iexists _; isplitr
    swap; · iexact HS1
    ipureintro
    refine (read_last1 _ _ hz1_2 _ _ _).trans ?_
    sl_unfold_run_names
    simp only [View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  iexists _; isplitr
  swap; · iexact HS2
  ipureintro
  refine (read_last1 _ _ hz1_2 _ _ _).trans ?_
  sl_unfold_run_names
  simp only [View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
  rfl

end Cert.Kernel.Hand

end
-- ==== Proof.K.Region1RunA.lean ====
/- Region 1, the run of the body at the first key/value tile (coordinate 0): the first branch stores the initial
   triple (maximum -inf, denominator 0, numerator 0) over whatever the three carried buffers held, then one
   online-softmax step is folded in; the second branch is not taken and the output buffer is handed back as found. -/
import proofs.«141329_j15582141350418_2_alg».proof.Proof.K.Region1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at contents `x·`, the output buffer at `xi5`, the carried buffers at ANY contents — the
    body runs to the continuation with the inputs and the output buffer as they were and the carried triple at one
    step (`upd1`) from the initial triple `init1`. -/
theorem kernelRun1_A (c : Dev nD) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S64x64 .f32) (harg6 : arg6.IsWhole) (arg7 : Memref sig .tc .vmem S64x1 .f32) (harg7 : arg7.IsWhole) (arg8 : Memref sig .tc .vmem S1x64x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : ¬cond1_1 i)
    (x0 : Vec F S1x512x64 .bf16) (x1 : Vec F S1x1024x64 .bf16) (x2 : Vec F S1x1024x64 .bf16) (x3 : Vec F S64x64 .f32) (x4 : Vec F S64x1 .f32) (xi5 : Vec F S1x64x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (upd1 x0 x1 x2 init1).1 ∗ owns (c : Thread nD τ) arg10 fullShare (upd1 x0 x1 x2 init1).2.1 ∗ owns (c : Thread nD τ) arg11 fullShare (upd1 x0 x1 x2 init1).2.2) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
  subst hf0 hf1 hf2 hf3 hf4 hf5
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [HS0]
  · iexists _; isplitr
    swap; · iexact HS0
    ipureintro
    sl_unfold_run_names
    refine (read_last1 _ _ hz1_2 _ _ _).trans ?_
    simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  isplitl [HS1]
  · iexists _; isplitr
    swap; · iexact HS1
    ipureintro
    sl_unfold_run_names
    refine (read_last1 _ _ hz1_2 _ _ _).trans ?_
    simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  iexists _; isplitr
  swap; · iexact HS2
  ipureintro
  sl_unfold_run_names
  refine (read_last1 _ _ hz1_2 _ _ _).trans ?_
  simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
  rfl

end Cert.Kernel.Hand

end
-- ==== Proof.K.Region1RunC.lean ====
/- Region 1, the run of the body at the last key/value tile (coordinate 3): the first branch is not taken; one
   online-softmax step is folded into the carried triple; then the second branch reads the numerator and the
   denominator back and stores the whole output block. -/
import proofs.«141329_j15582141350418_2_alg».proof.Proof.K.Region1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at contents `x·`, the output buffer at ANY contents, the carried triple at `xs·` — the
    body runs to the continuation with the inputs as they were, the carried triple at one step (`upd1`) from `xs·`, and
    the output buffer at `fin1` of the new numerator and denominator and the projection's weight and bias blocks. -/
theorem kernelRun1_C (c : Dev nD) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S64x64 .f32) (harg6 : arg6.IsWhole) (arg7 : Memref sig .tc .vmem S64x1 .f32) (harg7 : arg7.IsWhole) (arg8 : Memref sig .tc .vmem S1x64x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i)
    (x0 : Vec F S1x512x64 .bf16) (x1 : Vec F S1x1024x64 .bf16) (x2 : Vec F S1x1024x64 .bf16) (x3 : Vec F S64x64 .f32) (x4 : Vec F S64x1 .f32) (xs0 : Vec F S512x1 .f32) (xs1 : Vec F S512x1 .f32) (xs2 : Vec F S512x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (fin1 (upd1 x0 x1 x2 (xs0, xs1, xs2)).2.2 (upd1 x0 x1 x2 (xs0, xs1, xs2)).2.1 x3 x4) ∗ owns (c : Thread nD τ) arg9 fullShare (upd1 x0 x1 x2 (xs0, xs1, xs2)).1 ∗ owns (c : Thread nD τ) arg10 fullShare (upd1 x0 x1 x2 (xs0, xs1, xs2)).2.1 ∗ owns (c : Thread nD τ) arg11 fullShare (upd1 x0 x1 x2 (xs0, xs1, xs2)).2.2) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
  subst hf0 hf1 hf2 hf3 hf4 hfs0 hfs1 hfs2
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    sl_unfold_run_names
    refine (read_last1 _ _ hz1_3 _ _ _).trans ?_
    simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  isplitl [HS0]
  · iexists _; isplitr
    swap; · iexact HS0
    ipureintro
    sl_unfold_run_names
    refine (read_last1 _ _ hz1_2 _ _ _).trans ?_
    simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  isplitl [HS1]
  · iexists _; isplitr
    swap; · iexact HS1
    ipureintro
    sl_unfold_run_names
    refine (read_last1 _ _ hz1_2 _ _ _).trans ?_
    simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  iexists _; isplitr
  swap; · iexact HS2
  ipureintro
  sl_unfold_run_names
  refine (read_last1 _ _ hz1_2 _ _ _).trans ?_
  simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
  rfl

end Cert.Kernel.Hand

end
-- ==== Proof.K.Region1.lean ====
/- Region 1 (the flash-attention kernel), the body obligation at any region-entry contents `V`.
   The three carried buffers after point `n` (`scrAt1`): the points come in runs of four along the key/value axis;
   the first point of a run starts from the initial triple, every later one from what the point before left, each
   folding its key/value tile in by one online-softmax step. The output block (`outAt1`) is the finalisation of the
   triple the point leaves; only the last point of a run stores it and writes it back. The region invariant after a
   point holds the three carried buffers at `scrAt1`'s components. -/
import proofs.«141329_j15582141350418_2_alg».proof.Proof.K.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the carried buffers and the output buffer hold after each point -/

/-- The carried triple (maximum, denominator, numerator) after the body at point `n`. -/
def scrAt1 (c : Dev nD) : (n : ℕ) → n < cfg1.N → Vec F S512x1 .f32 × Vec F S512x1 .f32 × Vec F S512x64 .f32
  | 0, hn => upd1 (iblk1 V c 0 ⟨0, hn⟩) (iblk1 V c 1 ⟨0, hn⟩) (iblk1 V c 2 ⟨0, hn⟩) init1
  | n + 1, hn =>
    if (n + 1) % 4 = 0 then
      upd1 (iblk1 V c 0 ⟨n + 1, hn⟩) (iblk1 V c 1 ⟨n + 1, hn⟩) (iblk1 V c 2 ⟨n + 1, hn⟩) init1
    else
      upd1 (iblk1 V c 0 ⟨n + 1, hn⟩) (iblk1 V c 1 ⟨n + 1, hn⟩) (iblk1 V c 2 ⟨n + 1, hn⟩) (scrAt1 c n (Nat.lt_of_succ_lt hn))

/-- At the first key/value tile of a run: one step from the initial triple. -/
theorem scrAt1_first (c : Dev nD) (t : Fin cfg1.N) (h : t.val % 4 = 0) :
    scrAt1 V c t.val t.isLt = upd1 (iblk1 V c 0 t) (iblk1 V c 1 t) (iblk1 V c 2 t) init1 := by
  obtain ⟨n, hn⟩ := t
  cases n with
  | zero => rfl
  | succ n => exact if_pos h

/-- At a later tile: one step from what the point before left. -/
theorem scrAt1_next (c : Dev nD) (t : Fin cfg1.N) (h : t.val % 4 ≠ 0) :
    scrAt1 V c t.val t.isLt = upd1 (iblk1 V c 0 t) (iblk1 V c 1 t) (iblk1 V c 2 t) (scrAt1 V c (t.val - 1) (Nat.lt_of_le_of_lt (Nat.sub_le _ _) t.isLt)) := by
  obtain ⟨n, hn⟩ := t
  cases n with
  | zero => exact absurd (Nat.zero_mod _) h
  | succ n => exact if_neg h

/-- What the output window's current staging buffer holds after point `n`, where the body stores it (the last tile of a
    run): the finalisation of the triple that point leaves. At the other points the window is idle and not written
    back, and nothing reads this value there. -/
def outAt1 (c : Dev nD) : (n : ℕ) → n < cfg1.N → Vec F S1x64x512 .f32 :=
  fun n hn => fin1 (scrAt1 V c n hn).2.2 (scrAt1 V c n hn).2.1 (iblk1 V c 3 ⟨n, hn⟩) (iblk1 V c 4 ⟨n, hn⟩)

theorem outAt1_last (c : Dev nD) (t : Fin cfg1.N) (h : t.val % 4 = 3) :
    outAt1 V c t.val t.isLt = fin1 (scrAt1 V c t.val t.isLt).2.2 (scrAt1 V c t.val t.isLt).2.1 (iblk1 V c 3 t) (iblk1 V c 4 t) := rfl

/-! ## The region invariant -/

/-- Before the first point what the launch hands over; afterwards the three carried buffers OWNED at what the point
    before left, beside the other region's staging buffers and the generator register at some state. -/
def PhiS1 (c : Dev nD) : (n : ℕ) → n ≤ cfg1.N → sProp 𝕄
  | 0, _ => Pipeline.ΦA spec1 c
  | n + 1, hn => iprop(rest1 c iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ (∃ r, prngReg c r)) := rfl

theorem PhiS1_pos (c : Dev nD) (n : ℕ) (h : n ≤ cfg1.N) (hz : n ≠ 0) :
    PhiS1 V c n h = iprop(rest1 c iprop(owns (c : Thread nD τ) scM1_0 fullShare (scrAt1 V c (n - 1) (by omega)).1 ∗ owns (c : Thread nD τ) scM1_1 fullShare (scrAt1 V c (n - 1) (by omega)).2.1 ∗ owns (c : Thread nD τ) scM1_2 fullShare (scrAt1 V c (n - 1) (by omega)).2.2) ∗ (∃ r, prngReg c r)) := by
  cases n with
  | zero => exact absurd rfl hz
  | succ n => rfl

/-! ## The pipeline's proof data -/

/-- The proof data of the region on core `c`: the arrays as the region finds them; after the body each input's buffer at
    its block and the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the point's position in its run of four says which
    case it is in; the invariant hands the body the carried buffers at what the point before left (at anything at the
    region's first point) and takes them back at this point's triple; off the last tile the output buffer goes back
    as it came, on it at the finalisation. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 512 := lt_of_lt_of_eq t.isLt (show cfg1.N = 512 from N_1)
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [scrAt1_first V c t h0]
    by_cases hz : t.val = 0
    · rw [PhiS1_castSucc V c t, PhiS1_zero V c _ _ hz, PhiA1_eq]
      unfold rest1
      iintro ⟨⟨⟨R0, R1, R2, R3, R4, R5, R6, R7, R8, R9, R10, R11, R12, R13, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [R0 R1 R2 R3 R4 R5 R6 R7 R8 R9 R10 R11 R12 R13 HS0 HS1 HS2 Hg]
      · isplitl [R0 R1 R2 R3 R4 R5 R6 R7 R8 R9 R10 R11 R12 R13 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      unfold rest1
      iintro ⟨⟨⟨R0, R1, R2, R3, R4, R5, R6, R7, R8, R9, R10, R11, R12, R13, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, HS0, HS1, HS2⟩
      isplitl [R0 R1 R2 R3 R4 R5 R6 R7 R8 R9 R10 R11 R12 R13 HS0 HS1 HS2 Hg]
      · isplitl [R0 R1 R2 R3 R4 R5 R6 R7 R8 R9 R10 R11 R12 R13 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by omega)
    rw [scrAt1_next V c t h0]
    rw [PhiS1_castSucc V c t, PhiS1_pos V c _ _ hz]
    unfold rest1
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outAt1_last V c t h1, scrAt1_next V c t h0]
      iintro ⟨⟨⟨R0, R1, R2, R3, R4, R5, R6, R7, R8, R9, R10, R11, R12, R13, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [R0 R1 R2 R3 R4 R5 R6 R7 R8 R9 R10 R11 R12 R13 HS0 HS1 HS2 Hg]
      · isplitl [R0 R1 R2 R3 R4 R5 R6 R7 R8 R9 R10 R11 R12 R13 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      iintro ⟨⟨⟨R0, R1, R2, R3, R4, R5, R6, R7, R8, R9, R10, R11, R12, R13, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [R0 R1 R2 R3 R4 R5 R6 R7 R8 R9 R10 R11 R12 R13 HS0 HS1 HS2 Hg]
      · isplitl [R0 R1 R2 R3 R4 R5 R6 R7 R8 R9 R10 R11 R12 R13 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the carried buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rest1
  iintro ⟨⟨R0, R1, R2, R3, R4, R5, R6, R7, R8, R9, R10, R11, R12, R13, HS0, HS1, HS2⟩, Hg⟩
  isplitl [R0 R1 R2 R3 R4 R5 R6 R7 R8 R9 R10 R11 R12 R13 HS0 HS1 HS2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 512 := N_1; omega)

end

end Cert.Kernel.Hand

end
-- ==== Proof.K.Run.lean ====
/-
  The whole program of the tiled attention kernel as four items run one after the other — five reshapes, the
  projection kernel, the attention kernel, one reshape — with the contents of every buffer named at each boundary,
  so that its run ends with every buffer at a named function of the launch memory.
-/
import proofs.«141329_j15582141350418_2_alg».proof.Proof.Gen.Kernel.Launch
import proofs.«141329_j15582141350418_2_alg».proof.Proof.Gen.Kernel.Skeleton
import proofs.«141329_j15582141350418_2_alg».proof.Proof.Gen.Kernel.Points
import proofs.«141329_j15582141350418_2_alg».proof.Proof.K.Region0
import proofs.«141329_j15582141350418_2_alg».proof.Proof.K.Region1
import proofs.«141329_j15582141350418_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the program -/

/-- Core c's buffers when the program starts. -/
abbrev W0 : Dev nD → Valuation τ sig (Elt F) := fun c b => (s₀ m ρ).mem ((c : Dev nD), b)
/-- After the five reshapes that precede the first kernel. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its three result arrays hold what its write-backs leave, every other buffer is as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention kernel: its result array holds what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the closing reshape. -/
abbrev W4 : Dev nD → Valuation τ sig (Elt F) := fun c => StableHlo.after hostOps2 (W3 m ρ c)

/-! ## The proof data of both kernels, and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- The generator register at some state and the core owing nothing: carried through every item unchanged. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents. -/
abbrev Tₙ (c : Dev nD) : sProp 𝕄 := StableHlo.held (c : Thread nD τ) (Pipeline.ucRefs τ sig) (W4 m ρ c)

/-! ## The two kernels as items of the program -/

set_option backward.isDefEq.respectTransparency.types false in
/-- The projection kernel: entered with every unscoped buffer at W1, left with them at W2. Its ten arrays are split
    out of the buffers and put back at their final contents; the generator register goes into the kernel's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered with every unscoped buffer at W2, left with them at W3. Its invariant starts from
    the scoped buffers and the generator register at anything and gives the same back at the end (in between it holds
    the three running buffers at the contents the point before left). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of the program ends, nothing faulting, with every
    unscoped buffer at the contents W4 names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      dsimp only [Tₙ]
      unfold StableHlo.held
      iintro ⟨Hh, HSI⟩
      imodintro
      iapply (pointsTo_read_all (Pipeline.ucRefs τ sig) (fun b => (((c : Thread nD τ)).1, b)) (W4 m ρ c) s')
      isplitl [Hh] <;> iassumption)
    (hQ := fun s h => h)

end Cert.Kernel.Hand

end
-- ==== Proof.K.Final.lean ====
/-
  What the run of the tiled attention program leaves: each of the nine arguments as it started (the frame), and the
  result buffer at the closing reshape of the attention kernel's array.
-/
import proofs.«141329_j15582141350418_2_alg».proof.Proof.Gen.Kernel.Launch
import proofs.«141329_j15582141350418_2_alg».proof.Proof.Gen.Kernel.Skeleton
import proofs.«141329_j15582141350418_2_alg».proof.Proof.Gen.Kernel.Points
import proofs.«141329_j15582141350418_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as they started

No reshape writes an argument, and a kernel either reads it through an input window (whose array the pipeline
leaves as it found it) or does not touch it. -/

theorem W4_of (c : Dev nD) (b : Ref sig .tc) (h : b ∉ hostOps2_W) :
    W4 m ρ c (Proc.devRef .tc b) = W3 m ρ c (Proc.devRef .tc b) :=
  StableHlo.after_of_writes_sub hostOps2 _ hostOps2_writes h
theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
/-- An input window of the projection kernel keeps its array. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An input window of the attention kernel keeps its array. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <|
    (W2_in m ρ c 1 rfl).trans <| (W1_of m ρ c main_arg1 (by decide)).trans rfl
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <|
    (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of m ρ c main_arg3 (by decide)).trans <| (W3_of_ne m ρ c main_arg3 (by decide)).trans <|
    (W2_in m ρ c 3 rfl).trans <| (W1_of m ρ c main_arg3 (by decide)).trans rfl
theorem W4_main_arg4 (c : Dev nD) : W4 m ρ c (Proc.devRef .tc main_arg4) = m ((c : Thread nD τ).loc main_arg4) :=
  (W4_of m ρ c main_arg4 (by decide)).trans <| (W3_of_ne m ρ c main_arg4 (by decide)).trans <|
    (W2_of_ne m ρ c main_arg4 (by decide)).trans <| (W1_of m ρ c main_arg4 (by decide)).trans rfl
theorem W4_main_arg5 (c : Dev nD) : W4 m ρ c (Proc.devRef .tc main_arg5) = m ((c : Thread nD τ).loc main_arg5) :=
  (W4_of m ρ c main_arg5 (by decide)).trans <| (W3_of_ne m ρ c main_arg5 (by decide)).trans <|
    (W2_in m ρ c 5 rfl).trans <| (W1_of m ρ c main_arg5 (by decide)).trans rfl
theorem W4_main_arg6 (c : Dev nD) : W4 m ρ c (Proc.devRef .tc main_arg6) = m ((c : Thread nD τ).loc main_arg6) :=
  (W4_of m ρ c main_arg6 (by decide)).trans <| (W3_of_ne m ρ c main_arg6 (by decide)).trans <|
    (W2_of_ne m ρ c main_arg6 (by decide)).trans <| (W1_of m ρ c main_arg6 (by decide)).trans rfl
theorem W4_main_arg7 (c : Dev nD) : W4 m ρ c (Proc.devRef .tc main_arg7) = m ((c : Thread nD τ).loc main_arg7) :=
  (W4_of m ρ c main_arg7 (by decide)).trans <| (W3_in m ρ c 3 rfl).trans <|
    (W2_of_ne m ρ c main_arg7 (by decide)).trans <| (W1_of m ρ c main_arg7 (by decide)).trans rfl
theorem W4_main_arg8 (c : Dev nD) : W4 m ρ c (Proc.devRef .tc main_arg8) = m ((c : Thread nD τ).loc main_arg8) :=
  (W4_of m ρ c main_arg8 (by decide)).trans <| (W3_of_ne m ρ c main_arg8 (by decide)).trans <|
    (W2_of_ne m ρ c main_arg8 (by decide)).trans <| (W1_of m ρ c main_arg8 (by decide)).trans rfl

/-! ## The result buffer: the attention kernel's array, reshaped -/

/-- The result buffer ends at the closing reshape of what the attention kernel's write-backs leave. -/
theorem W4_main_v7 (c : Dev nD) :
    (W4 m ρ c (Proc.devRef .tc main_v7) : S16x64x64x64.Idx → Elt F .f32)
      = shapeCast S16x64x64x64 ((dat1 (V2 m ρ) c).arrAt 5 cfg1.N : S16x64x4096.Idx → Elt F .f32) shapeCasts_S16x64x4096_S16x64x64x64 := by
  rw [← W3_arr m ρ c 5]
  show StableHlo.after hostOps2 (W3 m ρ c) (Proc.devRef .tc main_v7) = _
  after_results
  rfl

/-! ## The frame and the value of the run -/

/-- The program runs to its end from any memory, and its nine arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

/-- The same run with the result buffer named: the closing reshape of the attention kernel's array. -/
theorem run_value : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨h c _ (mem_uc main_v7 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.Kernel.Hand

end
-- ==== Proof.KI.Region0.lean ====
import proofs.«141329_j15582141350418_2_alg».proof.Proof.Gen.KernelIdeal.Launch
import proofs.«141329_j15582141350418_2_alg».proof.Proof.Gen.KernelIdeal.Skeleton
import proofs.«141329_j15582141350418_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the three projections

The first region of the program computes, for each batch entry and each half of the 4096 positions,
the three projections of a block `x` (64 channels by 2048 positions): for a weight matrix `w`
(64 by 64) and a bias row `b`, the block `xᵀ·wᵀ + b` (2048 positions by 64 channels), rounded to the
narrow format. The body loads the block of `x` and the three (weight, bias) pairs, and stores each of
the three results over the whole of its output buffer in one store. So what the body leaves in each
output buffer is a function of three loaded blocks only, and what it finds in an input buffer is that
input's block at the grid point, whether or not the block was moved in at that very point (the
weights and biases have one block for the whole grid, moved in once).

This module states that: the blocks (`iblk0`), the three results (`out0_7`, `out0_8`, `out0_9`), the
body's triple on arbitrary whole buffers (`sound_kernel0`), the per-point proof data (`dat0`) and the
body's obligation at every grid point (`body_obligation0`), for any float instance and any contents
of the arrays at the region's entry.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes: each is the whole of its buffer -/

abbrev rX : Rect S1x64x2048 := Rect.unit (s := S1x64x2048) ![0, 0, 0] S1x64x2048.size inb_S1x64x2048_S1x64x2048_0_0_0
abbrev rW : Rect S64x64 := Rect.unit (s := S64x64) ![0, 0] S64x64.size inb_S64x64_S64x64_0_0
abbrev rB : Rect S1x64 := Rect.unit (s := S1x64) ![0, 0] S1x64.size inb_S1x64_S1x64_0_0
abbrev rO : Rect S1x2048x64 := Rect.unit (s := S1x2048x64) ![0, 0, 0] S1x2048x64.size inb_S1x2048x64_S1x2048x64_0_0_0

/-! ## What the body leaves in each output buffer -/

/-- The first projection's buffer after the body: its one store, of the product of the block of `x`
    with the first weight plus the first bias, over the whole buffer. -/
def out0_7 (x0 : Vec F S1x64x2048 .f32) (x1 : Vec F S64x64 .f32) (x2 : Vec F S1x64 .f32) : Vec F S1x2048x64 .bf16 :=
  View.canon [⟨rO, k0_pay4 (View.ld x0 rX) (View.ld x1 rW) (View.ld x2 rB)⟩]

/-- The second projection's buffer after the body: second weight, second bias. -/
def out0_8 (x0 : Vec F S1x64x2048 .f32) (x3 : Vec F S64x64 .f32) (x4 : Vec F S1x64 .f32) : Vec F S1x2048x64 .bf16 :=
  View.canon [⟨rO, k0_pay5 (View.ld x0 rX) (View.ld x3 rW) (View.ld x4 rB)⟩]

/-- The third projection's buffer after the body: third weight, third bias. -/
def out0_9 (x0 : Vec F S1x64x2048 .f32) (x5 : Vec F S64x64 .f32) (x6 : Vec F S1x64 .f32) : Vec F S1x2048x64 .bf16 :=
  View.canon [⟨rO, k0_pay1 (k0_pay3 (View.ld x0 rX) (View.ld x5 rW) (View.ld x6 rB))⟩]

/-- One store through the whole-buffer rectangle covers the buffer. -/
theorem cover0 (p0 : Vec F S1x2048x64 .bf16) (y : S1x2048x64.Idx) :
    ∃ pc ∈ ([⟨rO, p0⟩] : List (View.Piece (Elt F) S1x2048x64 .bf16)), y ∈ pc.1.set :=
  View.cover_of_tiled [⟨rO, p0⟩] S1x2048x64.size (by rfl) y

/-! ## The body's triple -/

set_option maxHeartbeats 1000000 in
/-- The body on whole buffers, the inputs' holding `x0 … x6` and the outputs' anything, runs to the
    continuation with the inputs' as they were and each output's holding its projection. (The body
    also loads each output buffer once before storing it; the loaded value is never used.) -/
theorem sound_kernel0 (c : Dev nD) (E : Set ℕ) (i : grid0.Coords) (arg2 : Memref sig .tc .vmem S1x64x2048 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x2048x64 .bf16) (harg9 : arg9.IsWhole) (arg10 : Memref sig .tc .vmem S1x2048x64 .bf16) (harg10 : arg10.IsWhole) (arg11 : Memref sig .tc .vmem S1x2048x64 .bf16) (harg11 : arg11.IsWhole)
    (x0 : Vec F S1x64x2048 .f32) (x1 : Vec F S64x64 .f32) (x2 : Vec F S1x64 .f32) (x3 : Vec F S64x64 .f32) (x4 : Vec F S1x64 .f32) (x5 : Vec F S64x64 .f32) (x6 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## What the body finds in each input buffer: that window's block, moved in at this point or not -/

/-- Input window 0's current buffer holds its block at every grid point, for any proof data whose array
    is the entry contents and whose body leaves the block in place: where the block was not moved in at
    the point, its index has not changed since the point before, and the buffer still holds it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every grid point, for any proof data whose array
    is the entry contents and whose body leaves the block in place: where the block was not moved in at
    the point, its index has not changed since the point before, and the buffer still holds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every grid point, for any proof data whose array
    is the entry contents and whose body leaves the block in place: where the block was not moved in at
    the point, its index has not changed since the point before, and the buffer still holds it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every grid point, for any proof data whose array
    is the entry contents and whose body leaves the block in place: where the block was not moved in at
    the point, its index has not changed since the point before, and the buffer still holds it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every grid point, for any proof data whose array
    is the entry contents and whose body leaves the block in place: where the block was not moved in at
    the point, its index has not changed since the point before, and the buffer still holds it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every grid point, for any proof data whose array
    is the entry contents and whose body leaves the block in place: where the block was not moved in at
    the point, its index has not changed since the point before, and the buffer still holds it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every grid point, for any proof data whose array
    is the entry contents and whose body leaves the block in place: where the block was not moved in at
    the point, its index has not changed since the point before, and the buffer still holds it. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The proof data of the region's pipeline -/

/-- The proof data on core `c`: the arrays as the region finds them; after the body at point `t` each
    input's buffer still at its block and each output's at its projection of the input blocks; the
    invariant is the rest of the core's scoped memory and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body's obligation, at a generic grid point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/- Region 1 (the flash-attention kernel): what its three case runs share. The grid is 16 x 8 x 4, the last axis
   the key/value tile; the body branches on that coordinate only. The conditions in closed form, where the output
   window is idle, the staging memrefs at a point, the three carried buffers (running maximum, running denominator,
   running numerator) as memrefs, and the region invariant with those three buffers exposed. -/
import proofs.«141329_j15582141350418_2_alg».proof.Proof.Gen.KernelIdeal.Launch
import proofs.«141329_j15582141350418_2_alg».proof.Proof.Gen.KernelIdeal.Skeleton
import proofs.«141329_j15582141350418_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: unfetched, the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, in closed form -/

/-- The first `scf.if`: the key/value coordinate is 0 (the carried buffers are initialised). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second `scf.if`: the key/value coordinate is 3 (the output block is computed and stored). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Off the last key/value tile the output window is idle and not written back; on it, live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64x512 .f32 := win1_5.stage (cfg1.slots t 5)
abbrev hs1_5 (t : Fin cfg1.N) : (ms1_5 t).IsWhole := hstage1_5 ((cfg1.slots t 5).cast nbuf1_5)
/-- The three carried buffers: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2

/-! ## The region invariant with the carried buffers exposed -/

/-- A scoped buffer of the core that this region never touches, at some contents. -/
abbrev anyAt1 (c : Dev nD) (b : Ref sig .tc) : sProp 𝕄 :=
  iprop(∃ f : Buf (Elt F) ((c : Thread nD τ).loc b), ((c : Thread nD τ).loc b) ↦{fullShare} f)

/-- The other region's staging buffers, each at some contents, in front of `Q`. -/
def rest1 (c : Dev nD) (Q : sProp 𝕄) : sProp 𝕄 :=
  iprop(anyAt1 c cc0_stg0_0 ∗ anyAt1 c cc0_stg0_1 ∗ anyAt1 c cc0_stg1_0 ∗ anyAt1 c cc0_stg2_0 ∗ anyAt1 c cc0_stg3_0 ∗ anyAt1 c cc0_stg4_0 ∗ anyAt1 c cc0_stg5_0 ∗ anyAt1 c cc0_stg6_0 ∗ anyAt1 c cc0_stg7_0 ∗ anyAt1 c cc0_stg7_1 ∗ anyAt1 c cc0_stg8_0 ∗ anyAt1 c cc0_stg8_1 ∗ anyAt1 c cc0_stg9_0 ∗ anyAt1 c cc0_stg9_1 ∗ Q)

theorem rest1_mono (c : Dev nD) {Q Q' : sProp 𝕄} (h : Q ⊢ Q') : rest1 (F := F) c Q ⊢ rest1 c Q' := by
  unfold rest1
  iintro ⟨R0, R1, R2, R3, R4, R5, R6, R7, R8, R9, R10, R11, R12, R13, HQ⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iapply h
  iexact HQ

/-- The region invariant the launch hands over, with the three carried buffers as memrefs owned at some contents. -/
theorem PhiA1_eq (c : Dev nD) :
    (Pipeline.ΦA spec1 c : sProp 𝕄)
      = iprop(rest1 c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA rest1; rw [scopedRest1_eq]; simp only [scM1_0, scM1_1, scM1_2, owns_whole]; try rfl

/-! ## One step of the online softmax, as the body computes it -/

theorem hz1_2 : (![0, 0] : Fin 2 → ℕ) = fun _ => 0 := by funext a; fin_cases a <;> rfl
theorem hz1_3 : (![0, 0, 0] : Fin 3 → ℕ) = fun _ => 0 := by funext a; fin_cases a <;> rfl

/-- The carried triple (running maximum, running denominator, running numerator). -/
abbrev Scr1 (F : FTy → Type) : Type := Vec F S512x1 .f32 × Vec F S512x1 .f32 × Vec F S512x64 .f32

/-- What the first key/value tile starts from: maximum -inf, denominator 0, numerator 0. -/
def init1 : Scr1 F := (k1_pay4, k1_pay5, k1_pay6)

/-- One key/value tile folded into the carried triple: the new maximum; the old denominator rescaled plus the
    tile's row sums; the old numerator rescaled plus the tile's weighted values. Every factor is computed from
    the OLD maximum `s.1` (the body loads it before it stores the new one). -/
def upd1 (q : Vec F S1x512x64 .bf16) (k v : Vec F S1x1024x64 .bf16) (s : Scr1 F) : Scr1 F :=
  (k1_pay2 (k1_pay9 q k s.1), k1_pay12 q k s.1 s.1 s.2.1, k1_pay1 (k1_pay7 v) (k1_pay10 q k s.1 s.1) (k1_pay11 q k s.1) s.2.2)

/-- The output block from the final numerator and denominator and the projection's weight and bias column. -/
def fin1 (acc : Vec F S512x64 .f32) (l : Vec F S512x1 .f32) (ow : Vec F S64x64 .f32) (ob : Vec F S64x1 .f32) : Vec F S1x64x512 .f32 :=
  k1_pay3 acc l ow ob

/-- One whole-buffer store covers the buffer. -/
theorem cover1 {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-- A buffer whose LAST store was a whole-buffer store of `w` reads `w`, whatever was stored before. -/
theorem read_last1 {κ : Kind} {sp : Space} {S : Shape} {e : EltTy} (v : View sig κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (cover1 h inb w L)).trans (View.canon_cons_unit_zero h inb w L)

end Cert.KernelIdeal.Hand

end
-- ==== Proof.KI.Region1RunB.lean ====
/- Region 1, the run of the body at a middle key/value tile (coordinate 1 or 2): neither branch is taken; one
   online-softmax step is folded into the carried triple; the output buffer is handed back as found. -/
import proofs.«141329_j15582141350418_2_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at contents `x·`, the output buffer at `xi5`, the carried triple at `xs·` — the body
    runs to the continuation with the inputs and the output buffer as they were and the carried triple at one step
    (`upd1`) from `xs·`. -/
theorem kernelRun1_B (c : Dev nD) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S64x64 .f32) (harg6 : arg6.IsWhole) (arg7 : Memref sig .tc .vmem S64x1 .f32) (harg7 : arg7.IsWhole) (arg8 : Memref sig .tc .vmem S1x64x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : ¬cond1_1 i)
    (x0 : Vec F S1x512x64 .bf16) (x1 : Vec F S1x1024x64 .bf16) (x2 : Vec F S1x1024x64 .bf16) (x3 : Vec F S64x64 .f32) (x4 : Vec F S64x1 .f32) (xs0 : Vec F S512x1 .f32) (xs1 : Vec F S512x1 .f32) (xs2 : Vec F S512x64 .f32)
    (xi5 : Vec F S1x64x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (upd1 x0 x1 x2 (xs0, xs1, xs2)).1 ∗ owns (c : Thread nD τ) arg10 fullShare (upd1 x0 x1 x2 (xs0, xs1, xs2)).2.1 ∗ owns (c : Thread nD τ) arg11 fullShare (upd1 x0 x1 x2 (xs0, xs1, xs2)).2.2) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  subst hf0 hf1 hf2 hf3 hf4 hf5 hfs0 hfs1 hfs2
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [HS0]
  · iexists _; isplitr
    swap; · iexact HS0
    ipureintro
    refine (read_last1 _ _ hz1_2 _ _ _).trans ?_
    sl_unfold_run_names
    simp only [View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  isplitl [HS1]
  · iexists _; isplitr
    swap; · iexact HS1
    ipureintro
    refine (read_last1 _ _ hz1_2 _ _ _).trans ?_
    sl_unfold_run_names
    simp only [View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  iexists _; isplitr
  swap; · iexact HS2
  ipureintro
  refine (read_last1 _ _ hz1_2 _ _ _).trans ?_
  sl_unfold_run_names
  simp only [View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
  rfl

end Cert.KernelIdeal.Hand

end
-- ==== Proof.KI.Region1RunA.lean ====
/- Region 1, the run of the body at the first key/value tile (coordinate 0): the first branch stores the initial
   triple (maximum -inf, denominator 0, numerator 0) over whatever the three carried buffers held, then one
   online-softmax step is folded in; the second branch is not taken and the output buffer is handed back as found. -/
import proofs.«141329_j15582141350418_2_alg».proof.Proof.KI.Region1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at contents `x·`, the output buffer at `xi5`, the carried buffers at ANY contents — the
    body runs to the continuation with the inputs and the output buffer as they were and the carried triple at one
    step (`upd1`) from the initial triple `init1`. -/
theorem kernelRun1_A (c : Dev nD) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S64x64 .f32) (harg6 : arg6.IsWhole) (arg7 : Memref sig .tc .vmem S64x1 .f32) (harg7 : arg7.IsWhole) (arg8 : Memref sig .tc .vmem S1x64x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : cond1_0 i) (hc1 : ¬cond1_1 i)
    (x0 : Vec F S1x512x64 .bf16) (x1 : Vec F S1x1024x64 .bf16) (x2 : Vec F S1x1024x64 .bf16) (x3 : Vec F S64x64 .f32) (x4 : Vec F S64x1 .f32) (xi5 : Vec F S1x64x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (upd1 x0 x1 x2 init1).1 ∗ owns (c : Thread nD τ) arg10 fullShare (upd1 x0 x1 x2 init1).2.1 ∗ owns (c : Thread nD τ) arg11 fullShare (upd1 x0 x1 x2 init1).2.2) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
  subst hf0 hf1 hf2 hf3 hf4 hf5
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [HS0]
  · iexists _; isplitr
    swap; · iexact HS0
    ipureintro
    sl_unfold_run_names
    refine (read_last1 _ _ hz1_2 _ _ _).trans ?_
    simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  isplitl [HS1]
  · iexists _; isplitr
    swap; · iexact HS1
    ipureintro
    sl_unfold_run_names
    refine (read_last1 _ _ hz1_2 _ _ _).trans ?_
    simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  iexists _; isplitr
  swap; · iexact HS2
  ipureintro
  sl_unfold_run_names
  refine (read_last1 _ _ hz1_2 _ _ _).trans ?_
  simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
  rfl

end Cert.KernelIdeal.Hand

end
-- ==== Proof.KI.Region1RunC.lean ====
/- Region 1, the run of the body at the last key/value tile (coordinate 3): the first branch is not taken; one
   online-softmax step is folded into the carried triple; then the second branch reads the numerator and the
   denominator back and stores the whole output block. -/
import proofs.«141329_j15582141350418_2_alg».proof.Proof.KI.Region1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at contents `x·`, the output buffer at ANY contents, the carried triple at `xs·` — the
    body runs to the continuation with the inputs as they were, the carried triple at one step (`upd1`) from `xs·`, and
    the output buffer at `fin1` of the new numerator and denominator and the projection's weight and bias blocks. -/
theorem kernelRun1_C (c : Dev nD) (i : grid1.Coords) (arg3 : Memref sig .tc .vmem S1x512x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S64x64 .f32) (harg6 : arg6.IsWhole) (arg7 : Memref sig .tc .vmem S64x1 .f32) (harg7 : arg7.IsWhole) (arg8 : Memref sig .tc .vmem S1x64x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole) (hc0 : ¬cond1_0 i) (hc1 : cond1_1 i)
    (x0 : Vec F S1x512x64 .bf16) (x1 : Vec F S1x1024x64 .bf16) (x2 : Vec F S1x1024x64 .bf16) (x3 : Vec F S64x64 .f32) (x4 : Vec F S64x1 .f32) (xs0 : Vec F S512x1 .f32) (xs1 : Vec F S512x1 .f32) (xs2 : Vec F S512x64 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (fin1 (upd1 x0 x1 x2 (xs0, xs1, xs2)).2.2 (upd1 x0 x1 x2 (xs0, xs1, xs2)).2.1 x3 x4) ∗ owns (c : Thread nD τ) arg9 fullShare (upd1 x0 x1 x2 (xs0, xs1, xs2)).1 ∗ owns (c : Thread nD τ) arg10 fullShare (upd1 x0 x1 x2 (xs0, xs1, xs2)).2.1 ∗ owns (c : Thread nD τ) arg11 fullShare (upd1 x0 x1 x2 (xs0, xs1, xs2)).2.2) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
  subst hf0 hf1 hf2 hf3 hf4 hfs0 hfs1 hfs2
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    sl_unfold_run_names
    refine (read_last1 _ _ hz1_3 _ _ _).trans ?_
    simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  isplitl [HS0]
  · iexists _; isplitr
    swap; · iexact HS0
    ipureintro
    sl_unfold_run_names
    refine (read_last1 _ _ hz1_2 _ _ _).trans ?_
    simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  isplitl [HS1]
  · iexists _; isplitr
    swap; · iexact HS1
    ipureintro
    sl_unfold_run_names
    refine (read_last1 _ _ hz1_2 _ _ _).trans ?_
    simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
    rfl
  iexists _; isplitr
  swap; · iexact HS2
  ipureintro
  sl_unfold_run_names
  refine (read_last1 _ _ hz1_2 _ _ _).trans ?_
  simp only [View.readCov_unit_zero (S := S512x1) (h := hz1_2), View.readCov_unit_zero (S := S512x64) (h := hz1_2), View.readAt_eq_ld, View.ld_unit_zero (S := S512x1) hz1_2, View.ld_unit_zero (S := S512x64) hz1_2, View.ld_unit_zero (S := S64x64) hz1_2, View.ld_unit_zero (S := S64x1) hz1_2, View.ld_unit_zero (S := S1x512x64) hz1_3, View.ld_unit_zero (S := S1x1024x64) hz1_3, View.ld_unit_zero (S := S1x64x512) hz1_3]
  rfl

end Cert.KernelIdeal.Hand

end
-- ==== Proof.KI.Region1.lean ====
/- Region 1 (the flash-attention kernel), the body obligation at any region-entry contents `V`.
   The three carried buffers after point `n` (`scrAt1`): the points come in runs of four along the key/value axis;
   the first point of a run starts from the initial triple, every later one from what the point before left, each
   folding its key/value tile in by one online-softmax step. The output block (`outAt1`) is the finalisation of the
   triple the point leaves; only the last point of a run stores it and writes it back. The region invariant after a
   point holds the three carried buffers at `scrAt1`'s components. -/
import proofs.«141329_j15582141350418_2_alg».proof.Proof.KI.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the carried buffers and the output buffer hold after each point -/

/-- The carried triple (maximum, denominator, numerator) after the body at point `n`. -/
def scrAt1 (c : Dev nD) : (n : ℕ) → n < cfg1.N → Vec F S512x1 .f32 × Vec F S512x1 .f32 × Vec F S512x64 .f32
  | 0, hn => upd1 (iblk1 V c 0 ⟨0, hn⟩) (iblk1 V c 1 ⟨0, hn⟩) (iblk1 V c 2 ⟨0, hn⟩) init1
  | n + 1, hn =>
    if (n + 1) % 4 = 0 then
      upd1 (iblk1 V c 0 ⟨n + 1, hn⟩) (iblk1 V c 1 ⟨n + 1, hn⟩) (iblk1 V c 2 ⟨n + 1, hn⟩) init1
    else
      upd1 (iblk1 V c 0 ⟨n + 1, hn⟩) (iblk1 V c 1 ⟨n + 1, hn⟩) (iblk1 V c 2 ⟨n + 1, hn⟩) (scrAt1 c n (Nat.lt_of_succ_lt hn))

/-- At the first key/value tile of a run: one step from the initial triple. -/
theorem scrAt1_first (c : Dev nD) (t : Fin cfg1.N) (h : t.val % 4 = 0) :
    scrAt1 V c t.val t.isLt = upd1 (iblk1 V c 0 t) (iblk1 V c 1 t) (iblk1 V c 2 t) init1 := by
  obtain ⟨n, hn⟩ := t
  cases n with
  | zero => rfl
  | succ n => exact if_pos h

/-- At a later tile: one step from what the point before left. -/
theorem scrAt1_next (c : Dev nD) (t : Fin cfg1.N) (h : t.val % 4 ≠ 0) :
    scrAt1 V c t.val t.isLt = upd1 (iblk1 V c 0 t) (iblk1 V c 1 t) (iblk1 V c 2 t) (scrAt1 V c (t.val - 1) (Nat.lt_of_le_of_lt (Nat.sub_le _ _) t.isLt)) := by
  obtain ⟨n, hn⟩ := t
  cases n with
  | zero => exact absurd (Nat.zero_mod _) h
  | succ n => exact if_neg h

/-- What the output window's current staging buffer holds after point `n`, where the body stores it (the last tile of a
    run): the finalisation of the triple that point leaves. At the other points the window is idle and not written
    back, and nothing reads this value there. -/
def outAt1 (c : Dev nD) : (n : ℕ) → n < cfg1.N → Vec F S1x64x512 .f32 :=
  fun n hn => fin1 (scrAt1 V c n hn).2.2 (scrAt1 V c n hn).2.1 (iblk1 V c 3 ⟨n, hn⟩) (iblk1 V c 4 ⟨n, hn⟩)

theorem outAt1_last (c : Dev nD) (t : Fin cfg1.N) (h : t.val % 4 = 3) :
    outAt1 V c t.val t.isLt = fin1 (scrAt1 V c t.val t.isLt).2.2 (scrAt1 V c t.val t.isLt).2.1 (iblk1 V c 3 t) (iblk1 V c 4 t) := rfl

/-! ## The region invariant -/

/-- Before the first point what the launch hands over; afterwards the three carried buffers OWNED at what the point
    before left, beside the other region's staging buffers and the generator register at some state. -/
def PhiS1 (c : Dev nD) : (n : ℕ) → n ≤ cfg1.N → sProp 𝕄
  | 0, _ => Pipeline.ΦA spec1 c
  | n + 1, hn => iprop(rest1 c iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ (∃ r, prngReg c r)) := rfl

theorem PhiS1_pos (c : Dev nD) (n : ℕ) (h : n ≤ cfg1.N) (hz : n ≠ 0) :
    PhiS1 V c n h = iprop(rest1 c iprop(owns (c : Thread nD τ) scM1_0 fullShare (scrAt1 V c (n - 1) (by omega)).1 ∗ owns (c : Thread nD τ) scM1_1 fullShare (scrAt1 V c (n - 1) (by omega)).2.1 ∗ owns (c : Thread nD τ) scM1_2 fullShare (scrAt1 V c (n - 1) (by omega)).2.2) ∗ (∃ r, prngReg c r)) := by
  cases n with
  | zero => exact absurd rfl hz
  | succ n => rfl

/-! ## The pipeline's proof data -/

/-- The proof data of the region on core `c`: the arrays as the region finds them; after the body each input's buffer at
    its block and the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the point's position in its run of four says which
    case it is in; the invariant hands the body the carried buffers at what the point before left (at anything at the
    region's first point) and takes them back at this point's triple; off the last tile the output buffer goes back
    as it came, on it at the finalisation. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 512 := lt_of_lt_of_eq t.isLt (show cfg1.N = 512 from N_1)
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [scrAt1_first V c t h0]
    by_cases hz : t.val = 0
    · rw [PhiS1_castSucc V c t, PhiS1_zero V c _ _ hz, PhiA1_eq]
      unfold rest1
      iintro ⟨⟨⟨R0, R1, R2, R3, R4, R5, R6, R7, R8, R9, R10, R11, R12, R13, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [R0 R1 R2 R3 R4 R5 R6 R7 R8 R9 R10 R11 R12 R13 HS0 HS1 HS2 Hg]
      · isplitl [R0 R1 R2 R3 R4 R5 R6 R7 R8 R9 R10 R11 R12 R13 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      unfold rest1
      iintro ⟨⟨⟨R0, R1, R2, R3, R4, R5, R6, R7, R8, R9, R10, R11, R12, R13, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, HS0, HS1, HS2⟩
      isplitl [R0 R1 R2 R3 R4 R5 R6 R7 R8 R9 R10 R11 R12 R13 HS0 HS1 HS2 Hg]
      · isplitl [R0 R1 R2 R3 R4 R5 R6 R7 R8 R9 R10 R11 R12 R13 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by omega)
    rw [scrAt1_next V c t h0]
    rw [PhiS1_castSucc V c t, PhiS1_pos V c _ _ hz]
    unfold rest1
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outAt1_last V c t h1, scrAt1_next V c t h0]
      iintro ⟨⟨⟨R0, R1, R2, R3, R4, R5, R6, R7, R8, R9, R10, R11, R12, R13, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [R0 R1 R2 R3 R4 R5 R6 R7 R8 R9 R10 R11 R12 R13 HS0 HS1 HS2 Hg]
      · isplitl [R0 R1 R2 R3 R4 R5 R6 R7 R8 R9 R10 R11 R12 R13 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      iintro ⟨⟨⟨R0, R1, R2, R3, R4, R5, R6, R7, R8, R9, R10, R11, R12, R13, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [R0 R1 R2 R3 R4 R5 R6 R7 R8 R9 R10 R11 R12 R13 HS0 HS1 HS2 Hg]
      · isplitl [R0 R1 R2 R3 R4 R5 R6 R7 R8 R9 R10 R11 R12 R13 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the carried buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rest1
  iintro ⟨⟨R0, R1, R2, R3, R4, R5, R6, R7, R8, R9, R10, R11, R12, R13, HS0, HS1, HS2⟩, Hg⟩
  isplitl [R0 R1 R2 R3 R4 R5 R6 R7 R8 R9 R10 R11 R12 R13 HS0 HS1 HS2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 512 := N_1; omega)

end

end Cert.KernelIdeal.Hand

end
-- ==== Proof.KI.Run.lean ====
/-
  The whole program of the tiled attention kernel as four items run one after the other — five reshapes, the
  projection kernel, the attention kernel, one reshape — with the contents of every buffer named at each boundary,
  so that its run ends with every buffer at a named function of the launch memory.
-/
import proofs.«141329_j15582141350418_2_alg».proof.Proof.Gen.KernelIdeal.Launch
import proofs.«141329_j15582141350418_2_alg».proof.Proof.Gen.KernelIdeal.Skeleton
import proofs.«141329_j15582141350418_2_alg».proof.Proof.Gen.KernelIdeal.Points
import proofs.«141329_j15582141350418_2_alg».proof.Proof.KI.Region0
import proofs.«141329_j15582141350418_2_alg».proof.Proof.KI.Region1
import proofs.«141329_j15582141350418_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the program -/

/-- Core c's buffers when the program starts. -/
abbrev W0 : Dev nD → Valuation τ sig (Elt F) := fun c b => (s₀ m ρ).mem ((c : Dev nD), b)
/-- After the five reshapes that precede the first kernel. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its three result arrays hold what its write-backs leave, every other buffer is as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention kernel: its result array holds what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the closing reshape. -/
abbrev W4 : Dev nD → Valuation τ sig (Elt F) := fun c => StableHlo.after hostOps2 (W3 m ρ c)

/-! ## The proof data of both kernels, and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- The generator register at some state and the core owing nothing: carried through every item unchanged. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents. -/
abbrev Tₙ (c : Dev nD) : sProp 𝕄 := StableHlo.held (c : Thread nD τ) (Pipeline.ucRefs τ sig) (W4 m ρ c)

/-! ## The two kernels as items of the program -/

set_option backward.isDefEq.respectTransparency.types false in
/-- The projection kernel: entered with every unscoped buffer at W1, left with them at W2. Its ten arrays are split
    out of the buffers and put back at their final contents; the generator register goes into the kernel's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered with every unscoped buffer at W2, left with them at W3. Its invariant starts from
    the scoped buffers and the generator register at anything and gives the same back at the end (in between it holds
    the three running buffers at the contents the point before left). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of the program ends, nothing faulting, with every
    unscoped buffer at the contents W4 names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      dsimp only [Tₙ]
      unfold StableHlo.held
      iintro ⟨Hh, HSI⟩
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.KI.Final.lean ====
/-
  What the run of the tiled attention program leaves: each of the nine arguments as it started (the frame), and the
  result buffer at the closing reshape of the attention kernel's array.
-/
import proofs.«141329_j15582141350418_2_alg».proof.Proof.Gen.KernelIdeal.Launch
import proofs.«141329_j15582141350418_2_alg».proof.Proof.Gen.KernelIdeal.Skeleton
import proofs.«141329_j15582141350418_2_alg».proof.Proof.Gen.KernelIdeal.Points
import proofs.«141329_j15582141350418_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as they started

No reshape writes an argument, and a kernel either reads it through an input window (whose array the pipeline
leaves as it found it) or does not touch it. -/

theorem W4_of (c : Dev nD) (b : Ref sig .tc) (h : b ∉ hostOps2_W) :
    W4 m ρ c (Proc.devRef .tc b) = W3 m ρ c (Proc.devRef .tc b) :=
  StableHlo.after_of_writes_sub hostOps2 _ hostOps2_writes h
theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
/-- An input window of the projection kernel keeps its array. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An input window of the attention kernel keeps its array. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <|
    (W2_in m ρ c 1 rfl).trans <| (W1_of m ρ c main_arg1 (by decide)).trans rfl
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <|
    (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of m ρ c main_arg3 (by decide)).trans <| (W3_of_ne m ρ c main_arg3 (by decide)).trans <|
    (W2_in m ρ c 3 rfl).trans <| (W1_of m ρ c main_arg3 (by decide)).trans rfl
theorem W4_main_arg4 (c : Dev nD) : W4 m ρ c (Proc.devRef .tc main_arg4) = m ((c : Thread nD τ).loc main_arg4) :=
  (W4_of m ρ c main_arg4 (by decide)).trans <| (W3_of_ne m ρ c main_arg4 (by decide)).trans <|
    (W2_of_ne m ρ c main_arg4 (by decide)).trans <| (W1_of m ρ c main_arg4 (by decide)).trans rfl
theorem W4_main_arg5 (c : Dev nD) : W4 m ρ c (Proc.devRef .tc main_arg5) = m ((c : Thread nD τ).loc main_arg5) :=
  (W4_of m ρ c main_arg5 (by decide)).trans <| (W3_of_ne m ρ c main_arg5 (by decide)).trans <|
    (W2_in m ρ c 5 rfl).trans <| (W1_of m ρ c main_arg5 (by decide)).trans rfl
theorem W4_main_arg6 (c : Dev nD) : W4 m ρ c (Proc.devRef .tc main_arg6) = m ((c : Thread nD τ).loc main_arg6) :=
  (W4_of m ρ c main_arg6 (by decide)).trans <| (W3_of_ne m ρ c main_arg6 (by decide)).trans <|
    (W2_of_ne m ρ c main_arg6 (by decide)).trans <| (W1_of m ρ c main_arg6 (by decide)).trans rfl
theorem W4_main_arg7 (c : Dev nD) : W4 m ρ c (Proc.devRef .tc main_arg7) = m ((c : Thread nD τ).loc main_arg7) :=
  (W4_of m ρ c main_arg7 (by decide)).trans <| (W3_in m ρ c 3 rfl).trans <|
    (W2_of_ne m ρ c main_arg7 (by decide)).trans <| (W1_of m ρ c main_arg7 (by decide)).trans rfl
theorem W4_main_arg8 (c : Dev nD) : W4 m ρ c (Proc.devRef .tc main_arg8) = m ((c : Thread nD τ).loc main_arg8) :=
  (W4_of m ρ c main_arg8 (by decide)).trans <| (W3_of_ne m ρ c main_arg8 (by decide)).trans <|
    (W2_of_ne m ρ c main_arg8 (by decide)).trans <| (W1_of m ρ c main_arg8 (by decide)).trans rfl

/-! ## The result buffer: the attention kernel's array, reshaped -/

/-- The result buffer ends at the closing reshape of what the attention kernel's write-backs leave. -/
theorem W4_main_v7 (c : Dev nD) :
    (W4 m ρ c (Proc.devRef .tc main_v7) : S16x64x64x64.Idx → Elt F .f32)
      = shapeCast S16x64x64x64 ((dat1 (V2 m ρ) c).arrAt 5 cfg1.N : S16x64x4096.Idx → Elt F .f32) shapeCasts_S16x64x4096_S16x64x64x64 := by
  rw [← W3_arr m ρ c 5]
  show StableHlo.after hostOps2 (W3 m ρ c) (Proc.devRef .tc main_v7) = _
  after_results
  rfl

/-! ## The frame and the value of the run -/

/-- The program runs to its end from any memory, and its nine arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

/-- The same run with the result buffer named: the closing reshape of the attention kernel's array. -/
theorem run_value : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨h c _ (mem_uc main_v7 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.KernelIdeal.Hand

end
-- ==== Proof.Readings.lean ====
/-
  The argument arrays read as plain functions of coordinates: the image array [16, 64, 64, 64] with its two spatial
  axes merged row-major into one position axis of 4096, a weight matrix [64, 64] and a bias vector [64].
-/
import Idealize.ShloMosaic.Lib.ValueIdx

noncomputable section

namespace Cert.Attn

open Idealize.ShloMosaic Idealize.ShloMosaic.ValueIdx

/-- Position h · 64 + w of the merged spatial axis. -/
def posOf (h w : Fin 64) : Fin 4096 := ⟨h.val * 64 + w.val, by omega⟩
/-- The row of a merged position, -/
def rowOf (s : Fin 4096) : Fin 64 := ⟨s.val / 64, by omega⟩
/-- and its column. -/
def colOf (s : Fin 4096) : Fin 64 := ⟨s.val % 64, by omega⟩

theorem rowOf_posOf (h w : Fin 64) : rowOf (posOf h w) = h := by
  apply Fin.ext; simp only [rowOf, posOf]; omega
theorem colOf_posOf (h w : Fin 64) : colOf (posOf h w) = w := by
  apply Fin.ext; simp only [colOf, posOf]; omega
theorem posOf_rowOf_colOf (s : Fin 4096) : posOf (rowOf s) (colOf s) = s := by
  apply Fin.ext; simp only [rowOf, colOf, posOf]; omega

/-- The image array read channel-major over merged positions. -/
def readX (x : (⟨4, ![16, 64, 64, 64]⟩ : Shape).Idx → EReal) : Fin 16 → Fin 64 → Fin 4096 → EReal :=
  fun n c s => x (ix4 n c (rowOf s) (colOf s))
/-- A weight matrix read by (output channel, input channel). -/
def readW (w : (⟨2, ![64, 64]⟩ : Shape).Idx → EReal) : Fin 64 → Fin 64 → EReal := fun o c => w (ix2 o c)
/-- A bias vector read by channel. -/
def readB (b : (⟨1, ![64]⟩ : Shape).Idx → EReal) : Fin 64 → EReal := fun o => b (ix1 o)

end Cert.Attn

end
-- ==== Proof.KI.Entry.lean ====
/-
  The buffers the two kernels read, at an index, in terms of the launch memory: the image array with its spatial
  axes merged, the bias vectors viewed as a row or a column, the weight matrices untouched; and the closing reshape
  of the result.
-/
import proofs.«141329_j15582141350418_2_alg».proof.Proof.Gen.KernelIdeal.Launch
import proofs.«141329_j15582141350418_2_alg».proof.Proof.Gen.KernelIdeal.Skeleton
import proofs.«141329_j15582141350418_2_alg».proof.Proof.Gen.KernelIdeal.Points
import proofs.«141329_j15582141350418_2_alg».proof.Proof.KI.Final
import proofs.«141329_j15582141350418_2_alg».proof.Proof.Readings
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Attn

variable (m : (ℓ : Loc nD τ sig) → Buf (Elt F) ℓ) (ρ : Dev nD → PrngReg)

/-! ## What the five opening reshapes leave, read at an index -/

/-- The image array with its two spatial axes merged: entry (n, ch, s) is the argument's entry at row s / 64 and
    column s % 64. -/
theorem V1_main_v0 (c : Dev nD) (n : Fin 16) (ch : Fin 64) (s : Fin 4096) :
    (V1 m ρ c main_v0 : S16x64x4096.Idx → Elt F .f32) (ix3 n ch s)
      = (m ((c : Thread nD τ).loc main_arg0) : S16x64x64x64.Idx → Elt F .f32) (ix4 n ch (rowOf s) (colOf s)) := by
  have e : (V1 m ρ c main_v0 : S16x64x4096.Idx → Elt F .f32)
      = shapeCast S16x64x4096 (m ((c : Thread nD τ).loc main_arg0) : S16x64x64x64.Idx → Elt F .f32) shapeCasts_S16x64x64x64_S16x64x4096 := by
    show StableHlo.after hostOps0 (W0 m ρ c) (Proc.devRef .tc main_v0) = _
    after_results
    rfl
  rw [e]
  refine shapeCast_apply _ _ _ _ ?_
  show (S16x64x64x64.rowMajor (ix4 n ch (rowOf s) (colOf s))).val = (S16x64x4096.rowMajor (ix3 n ch s)).val
  rw [Shape.rowMajor_val_four, Shape.rowMajor_val_three]
  show (((n.val * 64 + ch.val) * 64 + (rowOf s).val) * 64 + (colOf s).val) = (n.val * 64 + ch.val) * 4096 + s.val
  simp only [rowOf, colOf]
  omega

/-- A bias vector viewed as one row. -/
theorem V1_row (c : Dev nD) (o : Fin 64) :
    (V1 m ρ c main_v1 : S1x64.Idx → Elt F .f32) (ix2 0 o) = (m ((c : Thread nD τ).loc main_arg2) : S64.Idx → Elt F .f32) (ix1 o)
    ∧ (V1 m ρ c main_v2 : S1x64.Idx → Elt F .f32) (ix2 0 o) = (m ((c : Thread nD τ).loc main_arg4) : S64.Idx → Elt F .f32) (ix1 o)
    ∧ (V1 m ρ c main_v3 : S1x64.Idx → Elt F .f32) (ix2 0 o) = (m ((c : Thread nD τ).loc main_arg6) : S64.Idx → Elt F .f32) (ix1 o) := by
  have e1 : (V1 m ρ c main_v1 : S1x64.Idx → Elt F .f32)
      = shapeCast S1x64 (m ((c : Thread nD τ).loc main_arg2) : S64.Idx → Elt F .f32) shapeCasts_S64_S1x64 := by
    show StableHlo.after hostOps0 (W0 m ρ c) (Proc.devRef .tc main_v1) = _
    after_results
    rfl
  have e2 : (V1 m ρ c main_v2 : S1x64.Idx → Elt F .f32)
      = shapeCast S1x64 (m ((c : Thread nD τ).loc main_arg4) : S64.Idx → Elt F .f32) shapeCasts_S64_S1x64 := by
    show StableHlo.after hostOps0 (W0 m ρ c) (Proc.devRef .tc main_v2) = _
    after_results
    rfl
  have e3 : (V1 m ρ c main_v3 : S1x64.Idx → Elt F .f32)
      = shapeCast S1x64 (m ((c : Thread nD τ).loc main_arg6) : S64.Idx → Elt F .f32) shapeCasts_S64_S1x64 := by
    show StableHlo.after hostOps0 (W0 m ρ c) (Proc.devRef .tc main_v3) = _
    after_results
    rfl
  have key : ∀ (x : S64.Idx → Elt F .f32), shapeCast S1x64 x shapeCasts_S64_S1x64 (ix2 0 o) = x (ix1 o) := fun x => by
    refine shapeCast_apply _ _ _ _ ?_
    show (S64.rowMajor (ix1 o)).val = (S1x64.rowMajor (ix2 0 o)).val
    rw [Shape.rowMajor_val_one, Shape.rowMajor_val_two]
    show o.val = 0 * 64 + o.val
    omega
  rw [e1, e2, e3]
  exact ⟨key _, key _, key _⟩

/-- The output bias viewed as one column. -/
theorem V1_main_v4 (c : Dev nD) (o : Fin 64) :
    (V1 m ρ c main_v4 : S64x1.Idx → Elt F .f32) (ix2 o 0) = (m ((c : Thread nD τ).loc main_arg8) : S64.Idx → Elt F .f32) (ix1 o) := by
  have e : (V1 m ρ c main_v4 : S64x1.Idx → Elt F .f32)
      = shapeCast S64x1 (m ((c : Thread nD τ).loc main_arg8) : S64.Idx → Elt F .f32) shapeCasts_S64_S64x1 := by
    show StableHlo.after hostOps0 (W0 m ρ c) (Proc.devRef .tc main_v4) = _
    after_results
    rfl
  rw [e]
  refine shapeCast_apply _ _ _ _ ?_
  show (S64.rowMajor (ix1 o)).val = (S64x1.rowMajor (ix2 o 0)).val
  rw [Shape.rowMajor_val_one, Shape.rowMajor_val_two]
  show o.val = o.val * 1 + 0
  omega

/-- The weight matrices reach the kernels as launched. -/
theorem V1_main_arg1 (c : Dev nD) : V1 m ρ c main_arg1 = m ((c : Thread nD τ).loc main_arg1) := W1_of m ρ c main_arg1 (by decide)
theorem V1_main_arg3 (c : Dev nD) : V1 m ρ c main_arg3 = m ((c : Thread nD τ).loc main_arg3) := W1_of m ρ c main_arg3 (by decide)
theorem V1_main_arg5 (c : Dev nD) : V1 m ρ c main_arg5 = m ((c : Thread nD τ).loc main_arg5) := W1_of m ρ c main_arg5 (by decide)
theorem V2_main_arg7 (c : Dev nD) : V2 m ρ c main_arg7 = m ((c : Thread nD τ).loc main_arg7) :=
  (W2_of_ne m ρ c main_arg7 (by decide)).trans (W1_of m ρ c main_arg7 (by decide))
theorem V2_main_v4 (c : Dev nD) : V2 m ρ c main_v4 = V1 m ρ c main_v4 := W2_of_ne m ρ c main_v4 (by decide)
/-- The three projected tables the attention kernel reads are what the projection kernel's write-backs left. -/
theorem V2_main_v5_0 (c : Dev nD) : V2 m ρ c main_v5_0 = (dat0 (V1 m ρ) c).arrAt 7 cfg0.N := W2_arr m ρ c 7
theorem V2_main_v5_1 (c : Dev nD) : V2 m ρ c main_v5_1 = (dat0 (V1 m ρ) c).arrAt 8 cfg0.N := W2_arr m ρ c 8
theorem V2_main_v5_2 (c : Dev nD) : V2 m ρ c main_v5_2 = (dat0 (V1 m ρ) c).arrAt 9 cfg0.N := W2_arr m ρ c 9

/-! ## The closing reshape, read at an index -/

/-- Entry (n, o, h, w) of the result is entry (n, o, h · 64 + w) of the attention kernel's array. -/
theorem W4_main_v7_apply (c : Dev nD) (n : Fin 16) (o h w : Fin 64) :
    (W4 m ρ c (Proc.devRef .tc main_v7) : S16x64x64x64.Idx → Elt F .f32) (ix4 n o h w)
      = ((dat1 (V2 m ρ) c).arrAt 5 cfg1.N : S16x64x4096.Idx → Elt F .f32) (ix3 n o (posOf h w)) := by
  rw [W4_main_v7]
  refine shapeCast_apply _ _ _ _ ?_
  show (S16x64x4096.rowMajor (ix3 n o (posOf h w))).val = (S16x64x64x64.rowMajor (ix4 n o h w)).val
  rw [Shape.rowMajor_val_three, Shape.rowMajor_val_four]
  show (n.val * 64 + o.val) * 4096 + (h.val * 64 + w.val) = ((n.val * 64 + o.val) * 64 + h.val) * 64 + w.val
  omega

end Cert.KernelIdeal.Hand

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.Pay0.lean ====
/-
  The projection kernel's arithmetic, read at one entry of what it stores.

  The kernel holds one block of the input, channels-major: x0[0, c, s] for 64 channels c and 2048 positions s. It
  transposes the block to position-major, multiplies it with a weight matrix w[o, c] contracting the channel axis of
  both, and adds the bias row b[0, o] to every position. Over the extended reals the changes of float format are the
  identity and the product into the zero accumulator is the plain sum, so the entry stored at (0, s, o) is

      (∑ c, x0[0, c, s] · w[o, c]) + b[0, o].

  The three stored tables (queries, keys, values) are the same expression of three weight and bias pairs.
-/
import proofs.«141329_j15582141350418_2_alg».proof.Proof.Gen.KernelIdeal.Skeleton
import proofs.«141329_j15582141350418_2_alg».proof.Proof.LibGram
import Idealize.ShloMosaic.Lib.ValueLayout
import Idealize.ShloMosaic.PureOps.Ideal.Laws

noncomputable section

open scoped BigOperators

namespace Cert.Attn

open Cert.KernelIdeal Cert.KernelIdeal.Gen Idealize.ShloMosaic Idealize.ShloMosaic.ValueIdx

/-- The position-major, transposed block at (s, c) is the loaded block at (0, c, s). -/
theorem k0_pay2_apply (x0 : Vec Ideal S1x64x2048 .f32) (s : Fin 2048) (c : Fin 64) :
    k0_pay2 x0 (ix2 s c) = x0 (ix3 0 c s) := by
  unfold k0_pay2
  refine (transpose_ix2_apply _ transposes_S64x2048_p1_0_S2048x64 s c).trans ?_
  exact shapeCast_1ab_ab_apply x0 shapeCasts_S1x64x2048_S64x2048 c s

/-- The free coordinates of the product's dimension record: the left operand's row is the result's row … -/
theorem dotQKV_lhs0 (j : S2048x64.Idx) (q : dot_S2048x64_S64x64_S2048x64_1_1_0_0_n_n.contr.Idx) :
    (dot_S2048x64_S64x64_S2048x64_1_1_0_0_n_n.lhsIdx j q 0).val = (j 0).val := by
  unfold DotDims.lhsIdx
  rw [dif_neg (show ¬(0 : Fin S2048x64.rank) ∈ dot_S2048x64_S64x64_S2048x64_1_1_0_0_n_n.lhsBatch by decide),
    dif_pos (show (0 : Fin S2048x64.rank) ∈ dot_S2048x64_S64x64_S2048x64_1_1_0_0_n_n.lhsNonContracting by decide)]
  rfl

/-- … and the right operand's row is the result's column. -/
theorem dotQKV_rhs0 (j : S2048x64.Idx) (q : dot_S2048x64_S64x64_S2048x64_1_1_0_0_n_n.contr.Idx) :
    (dot_S2048x64_S64x64_S2048x64_1_1_0_0_n_n.rhsIdx j q 0).val = (j 1).val := by
  unfold DotDims.rhsIdx
  rw [dif_neg (show ¬(0 : Fin S64x64.rank) ∈ dot_S2048x64_S64x64_S2048x64_1_1_0_0_n_n.rhsBatch by decide),
    dif_pos (show (0 : Fin S64x64.rank) ∈ dot_S2048x64_S64x64_S2048x64_1_1_0_0_n_n.rhsNonContracting by decide)]
  rfl

/-- The linear map before it is stored: product into the zero accumulator plus the bias row spread over the positions. -/
theorem proj_apply (x0 : Vec Ideal S1x64x2048 .f32) (w : Vec Ideal S64x64 .f32) (b : Vec Ideal S1x64 .f32)
    (r : Fin 2048) (o : Fin 64) :
    addf (matmul dot_S2048x64_S64x64_S2048x64_1_1_0_0_n_n none (k0_pay2 x0) (truncf .bf16 w bitsLt_bf16_f32)
          (constant S2048x64 .f32 0x00000000#32))
        (broadcastTo S2048x64 (shapeCast S1x64 b shapeCasts_S1x64_S1x64) broadcasts_S1x64_S2048x64) (ix2 r o)
      = (∑ c : Fin 64, x0 (ix3 0 c r) * w (ix2 o c)) + b (ix2 0 o) := by
  refine (addf_apply _ _ _).trans ?_
  refine congrArg₂ (· + ·) ?_ ?_
  · refine (Ideal.matmul_constant_zero_apply dot_S2048x64_S64x64_S2048x64_1_1_0_0_n_n none (k0_pay2 x0)
      (truncf .bf16 w bitsLt_bf16_f32) (ix2 r o)).trans ?_
    refine (Gram.sum_contr_last dot_S2048x64_S64x64_S2048x64_1_1_0_0_n_n rfl rfl rfl rfl dotQKV_lhs0 dotQKV_rhs0
      (k0_pay2 x0) (truncf .bf16 w bitsLt_bf16_f32) (ix2 r o)).trans ?_
    exact Finset.sum_congr rfl fun c _ => congrArg (· * w (ix2 o c)) (k0_pay2_apply x0 r c)
  · refine (broadcastTo_1b_ab_apply _ broadcasts_S1x64_S2048x64 r o).trans ?_
    rw [shapeCast_self]

/-- The stored query table at (0, s, o). -/
theorem k0_pay4_apply (x0 : Vec Ideal S1x64x2048 .f32) (w : Vec Ideal S64x64 .f32) (b : Vec Ideal S1x64 .f32)
    (r : Fin 2048) (o : Fin 64) :
    k0_pay4 x0 w b (ix3 0 r o) = (∑ c : Fin 64, x0 (ix3 0 c r) * w (ix2 o c)) + b (ix2 0 o) := by
  unfold k0_pay4
  refine (shapeCast_ab_1ab_apply _ shapeCasts_S2048x64_S1x2048x64 0 r o).trans ?_
  exact proj_apply x0 w b r o

/-- The stored key table at (0, s, o). -/
theorem k0_pay5_apply (x0 : Vec Ideal S1x64x2048 .f32) (w : Vec Ideal S64x64 .f32) (b : Vec Ideal S1x64 .f32)
    (r : Fin 2048) (o : Fin 64) :
    k0_pay5 x0 w b (ix3 0 r o) = (∑ c : Fin 64, x0 (ix3 0 c r) * w (ix2 o c)) + b (ix2 0 o) := by
  unfold k0_pay5
  refine (shapeCast_ab_1ab_apply _ shapeCasts_S2048x64_S1x2048x64 0 r o).trans ?_
  exact proj_apply x0 w b r o

/-- The stored value table at (0, s, o): the linear map first, its store's cast second. -/
theorem k0_pay13_apply (x0 : Vec Ideal S1x64x2048 .f32) (w : Vec Ideal S64x64 .f32) (b : Vec Ideal S1x64 .f32)
    (r : Fin 2048) (o : Fin 64) :
    k0_pay1 (k0_pay3 x0 w b) (ix3 0 r o) = (∑ c : Fin 64, x0 (ix3 0 c r) * w (ix2 o c)) + b (ix2 0 o) := by
  unfold k0_pay1
  refine (shapeCast_ab_1ab_apply _ shapeCasts_S2048x64_S1x2048x64 0 r o).trans ?_
  unfold k0_pay3
  exact proj_apply x0 w b r o

end Cert.Attn

end
-- ==== Proof.KI.Value0.lean ====
import proofs.«141329_j15582141350418_2_alg».proof.Proof.KI.Region0
import proofs.«141329_j15582141350418_2_alg».proof.Proof.Pay0
import Idealize.ShloMosaic.Lib.Pipeline.Value
import Idealize.ShloMosaic.Lib.ValueIdx

/-!
# Region 0's three result arrays, entry by entry

After the first region each of its three result arrays (16 images, 4096 positions, 64 channels)
holds one projection of the input `x` (16 images, 64 channels, 4096 positions): at image `n`,
position `s`, output channel `o`,

    (∑ ch, x[n, ch, s] · w[o, ch]) + b[0, o]

for that array's weight matrix `w` and bias row `b`. The grid point `(n, h)` computes the 2048
positions `2048·h … 2048·h + 2047` of image `n`: its block of `x` is image `n`, all channels, those
positions; its blocks of the weights and biases are the whole arrays; and it writes back rows
`2048·h …` of image `n` of each result. Every entry of a result lies in exactly one such block, so
the array after the region is that function everywhere.
-/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- One projection of the whole input, entry by entry. -/
def proj (x : S16x64x4096.Idx → EReal) (w : S64x64.Idx → EReal) (b : S1x64.Idx → EReal) : S16x4096x64.Idx → EReal :=
  fun i => (∑ ch : Fin 64, x (ix3 (i 0) ch (i 1)) * w (ix2 (i 2) ch)) + b (ix2 0 (i 2))

theorem proj_apply (x : S16x64x4096.Idx → EReal) (w : S64x64.Idx → EReal) (b : S1x64.Idx → EReal) (n : Fin 16) (s : Fin 4096) (o : Fin 64) :
    proj x w b (ix3 n s o) = (∑ ch : Fin 64, x (ix3 n ch s) * w (ix2 o ch)) + b (ix2 0 o) := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: the input's block moves with the
    results' (same image; its positions are the results' rows), the weights and biases stay at block
    zero, and the three results move together. -/
theorem idx_facts : ∀ t : Fin cfg0.N,
    win0_0.index t (0 : Fin 3) = win0_7.index t (0 : Fin 3) ∧ win0_0.index t (1 : Fin 3) = 0 ∧ win0_0.index t (2 : Fin 3) = win0_7.index t (1 : Fin 3)
    ∧ win0_7.index t (2 : Fin 3) = 0 ∧ win0_7.index t (0 : Fin 3) ≤ 15 ∧ win0_7.index t (1 : Fin 3) ≤ 1
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_8.index t = win0_7.index t ∧ win0_9.index t = win0_7.index t :=
  (by decide +kernel : ∀ t : Fin grid0.N, _)

/-- Every (image, half) is some grid point's block of the results. -/
theorem idx_onto : ∀ (q0 : Fin 16) (q1 : Fin 2), ∃ t : Fin cfg0.N, win0_7.index t = ![q0.val, q1.val, 0] :=
  (by decide +kernel : ∀ (q0 : Fin 16) (q1 : Fin 2), ∃ t : Fin grid0.N, win0_7.index t = ![q0.val, q1.val, 0])

/-- The three results' blocks move together. -/
theorem idx8 (t : Fin cfg0.N) : win0_8.index t = win0_7.index t := by
  obtain ⟨-, -, -, -, -, -, -, -, -, -, -, -, -, -, -, -, -, -, e8, -⟩ := idx_facts t
  exact e8
theorem idx9 (t : Fin cfg0.N) : win0_9.index t = win0_7.index t := by
  obtain ⟨-, -, -, -, -, -, -, -, -, -, -, -, -, -, -, -, -, -, -, e9⟩ := idx_facts t
  exact e9

/-- The input's block at point `t`, at channel `ch` and position `r` of the block: the array at the
    image and the position the results' block index names. -/
theorem iblk0_0_apply (c : Dev nD) (t : Fin cfg0.N) (ch : Fin 64) (r : Fin 2048) (k : S16x64x4096.Idx)
    (hk0 : (k 0).val = win0_7.index t (0 : Fin 3)) (hk1 : (k 1).val = ch.val) (hk2 : (k 2).val = win0_7.index t (1 : Fin 3) * 2048 + r.val) :
    (iblk0 V c 0 t : Vec Ideal S1x64x2048 .f32) (ix3 0 ch r) = (V c main_v0 : S16x64x4096.Idx → EReal) k := by
  obtain ⟨e0, e1, e2, -⟩ := idx_facts t
  unfold iblk0
  rw [View.read_apply]
  show V c main_v0 _ = V c main_v0 _
  congr 1
  funext a
  apply Fin.ext
  match a with
  | ⟨0, _⟩ => show win0_0.index t (0 : Fin 3) * 1 + 1 * 0 = (k 0).val; omega
  | ⟨1, _⟩ => show win0_0.index t (1 : Fin 3) * 64 + 1 * ch.val = (k 1).val; omega
  | ⟨2, _⟩ => show win0_0.index t (2 : Fin 3) * 2048 + 1 * r.val = (k 2).val; omega

/-- Window 1's one block is its whole array. -/
theorem iblk0_1_apply (c : Dev nD) (t : Fin cfg0.N) (y k : S64x64.Idx) (h0 : (k 0).val = (y 0).val) (h1 : (k 1).val = (y 1).val) :
    (iblk0 V c 1 t : Vec Ideal S64x64 .f32) y = (V c main_arg1 : S64x64.Idx → EReal) k := by
  have e := idx_facts t
  unfold iblk0
  rw [View.read_apply]
  show V c main_arg1 _ = V c main_arg1 _
  congr 1
  funext a
  apply Fin.ext
  match a with
  | ⟨0, _⟩ => show win0_1.index t (0 : Fin 2) * 64 + 1 * (y 0).val = (k 0).val; omega
  | ⟨1, _⟩ => show win0_1.index t (1 : Fin 2) * 64 + 1 * (y 1).val = (k 1).val; omega

/-- Window 2's one block is its whole array. -/
theorem iblk0_2_apply (c : Dev nD) (t : Fin cfg0.N) (y k : S1x64.Idx) (h0 : (k 0).val = (y 0).val) (h1 : (k 1).val = (y 1).val) :
    (iblk0 V c 2 t : Vec Ideal S1x64 .f32) y = (V c main_v1 : S1x64.Idx → EReal) k := by
  have e := idx_facts t
  unfold iblk0
  rw [View.read_apply]
  show V c main_v1 _ = V c main_v1 _
  congr 1
  funext a
  apply Fin.ext
  match a with
  | ⟨0, _⟩ => show win0_2.index t (0 : Fin 2) * 1 + 1 * (y 0).val = (k 0).val; omega
  | ⟨1, _⟩ => show win0_2.index t (1 : Fin 2) * 64 + 1 * (y 1).val = (k 1).val; omega

/-- Window 3's one block is its whole array. -/
theorem iblk0_3_apply (c : Dev nD) (t : Fin cfg0.N) (y k : S64x64.Idx) (h0 : (k 0).val = (y 0).val) (h1 : (k 1).val = (y 1).val) :
    (iblk0 V c 3 t : Vec Ideal S64x64 .f32) y = (V c main_arg3 : S64x64.Idx → EReal) k := by
  have e := idx_facts t
  unfold iblk0
  rw [View.read_apply]
  show V c main_arg3 _ = V c main_arg3 _
  congr 1
  funext a
  apply Fin.ext
  match a with
  | ⟨0, _⟩ => show win0_3.index t (0 : Fin 2) * 64 + 1 * (y 0).val = (k 0).val; omega
  | ⟨1, _⟩ => show win0_3.index t (1 : Fin 2) * 64 + 1 * (y 1).val = (k 1).val; omega

/-- Window 4's one block is its whole array. -/
theorem iblk0_4_apply (c : Dev nD) (t : Fin cfg0.N) (y k : S1x64.Idx) (h0 : (k 0).val = (y 0).val) (h1 : (k 1).val = (y 1).val) :
    (iblk0 V c 4 t : Vec Ideal S1x64 .f32) y = (V c main_v2 : S1x64.Idx → EReal) k := by
  have e := idx_facts t
  unfold iblk0
  rw [View.read_apply]
  show V c main_v2 _ = V c main_v2 _
  congr 1
  funext a
  apply Fin.ext
  match a with
  | ⟨0, _⟩ => show win0_4.index t (0 : Fin 2) * 1 + 1 * (y 0).val = (k 0).val; omega
  | ⟨1, _⟩ => show win0_4.index t (1 : Fin 2) * 64 + 1 * (y 1).val = (k 1).val; omega

/-- Window 5's one block is its whole array. -/
theorem iblk0_5_apply (c : Dev nD) (t : Fin cfg0.N) (y k : S64x64.Idx) (h0 : (k 0).val = (y 0).val) (h1 : (k 1).val = (y 1).val) :
    (iblk0 V c 5 t : Vec Ideal S64x64 .f32) y = (V c main_arg5 : S64x64.Idx → EReal) k := by
  have e := idx_facts t
  unfold iblk0
  rw [View.read_apply]
  show V c main_arg5 _ = V c main_arg5 _
  congr 1
  funext a
  apply Fin.ext
  match a with
  | ⟨0, _⟩ => show win0_5.index t (0 : Fin 2) * 64 + 1 * (y 0).val = (k 0).val; omega
  | ⟨1, _⟩ => show win0_5.index t (1 : Fin 2) * 64 + 1 * (y 1).val = (k 1).val; omega

/-- Window 6's one block is its whole array. -/
theorem iblk0_6_apply (c : Dev nD) (t : Fin cfg0.N) (y k : S1x64.Idx) (h0 : (k 0).val = (y 0).val) (h1 : (k 1).val = (y 1).val) :
    (iblk0 V c 6 t : Vec Ideal S1x64 .f32) y = (V c main_v3 : S1x64.Idx → EReal) k := by
  have e := idx_facts t
  unfold iblk0
  rw [View.read_apply]
  show V c main_v3 _ = V c main_v3 _
  congr 1
  funext a
  apply Fin.ext
  match a with
  | ⟨0, _⟩ => show win0_6.index t (0 : Fin 2) * 1 + 1 * (y 0).val = (k 0).val; omega
  | ⟨1, _⟩ => show win0_6.index t (1 : Fin 2) * 64 + 1 * (y 1).val = (k 1).val; omega

/-- The body's stored block for the first result, at one entry. -/
theorem pay_at7 (x0 : Vec Ideal S1x64x2048 .f32) (w : Vec Ideal S64x64 .f32) (b : Vec Ideal S1x64 .f32) (j : S1x2048x64.Idx) :
    k0_pay4 x0 w b j = (∑ ch : Fin 64, x0 (ix3 0 ch (j 1)) * w (ix2 (j 2) ch)) + b (ix2 0 (j 2)) := by
  have h0 : j 0 = (0 : Fin 1) := Fin.ext (by have h : (j 0).val < 1 := (j 0).isLt; show (j 0).val = 0; omega)
  have hj : j = ix3 (0 : Fin 1) (j 1) (j 2) := (eq_ix3 j).trans (congrArg (fun a : Fin 1 => ix3 a (j 1) (j 2)) h0)
  exact (congrArg (k0_pay4 x0 w b) hj).trans (Cert.Attn.k0_pay4_apply x0 w b (j 1) (j 2))

/-- What grid point `t` writes back to the first result is block `t` of the projection of the arrays as
    the region finds them. -/
theorem flushed7_eq (c : Dev nD) (t : Fin cfg0.N) :
    (dat0 V c).flushed 7 t = ((cfg0.win 7).blk t).view.read (Elt Ideal) (proj (V c main_v0) (V c main_arg1) (V c main_v1)) := by
  show (cfg0.win 7).cut (grid0.coords t) ((dat0 V c).after 7 t) = _
  rw [after0_7]
  unfold out0_7
  rw [View.canon_unit_zero hz3]
  simp only [View.ld_unit_zero (S := S1x64x2048) hz3, View.ld_unit_zero (S := S64x64) hz2, View.ld_unit_zero (S := S1x64) hz2]
  funext j
  have e := idx_facts t
  have hj0 : (j 0).val < 1 := (j 0).isLt
  refine (pay_at7 (iblk0 V c 0 t) (iblk0 V c 1 t) (iblk0 V c 2 t) j).trans ?_
  show _ = proj (V c main_v0) (V c main_arg1) (V c main_v1) (((cfg0.win 7).blk t).view.emb j)
  unfold proj
  refine congrArg₂ (· + ·) (Finset.sum_congr rfl fun ch _ => congrArg₂ (· * ·) ?_ ?_) ?_
  · refine iblk0_0_apply V c t ch (j 1) _ ?_ rfl ?_
    · show win0_7.index t (0 : Fin 3) * 1 + 1 * (j 0).val = win0_7.index t (0 : Fin 3)
      omega
    · show win0_7.index t (1 : Fin 3) * 2048 + 1 * (j 1).val = win0_7.index t (1 : Fin 3) * 2048 + (j 1).val
      omega
  · refine iblk0_1_apply V c t _ _ ?_ rfl
    show win0_7.index t (2 : Fin 3) * 64 + 1 * (j 2).val = (j 2).val
    omega
  · refine iblk0_2_apply V c t _ _ rfl ?_
    show win0_7.index t (2 : Fin 3) * 64 + 1 * (j 2).val = (j 2).val
    omega

/-- An entry of the array is in point `t`'s block iff each coordinate is in the block's range. -/
theorem mem_blk7 (t : Fin cfg0.N) (i : S16x4096x64.Idx) :
    i ∈ ((cfg0.win 7).blk t).view.set ↔ ∀ a : Fin 3, win0_7.index t a * S1x2048x64.size a ≤ (i a).val ∧ (i a).val < win0_7.index t a * S1x2048x64.size a + S1x2048x64.size a := by
  show i ∈ ((View.whole main_v5_0).slice (win0_7.rect t)).set ↔ _
  rw [View.set_slice_whole, Rect.mem_set_unit]
  exact Iff.rfl

/-- Every entry is in the block of the point of its image and of the half its position lies in. -/
theorem cover7 (i : S16x4096x64.Idx) : ∃ t : Fin cfg0.N, (cfg0.win 7).flush t = true ∧ i ∈ ((cfg0.win 7).blk t).view.set := by
  have hi0 : (i 0).val < 16 := (i 0).isLt
  have hi1 : (i 1).val < 4096 := (i 1).isLt
  have hi2 : (i 2).val < 64 := (i 2).isLt
  obtain ⟨t, ht⟩ := idx_onto ⟨(i 0).val, hi0⟩ ⟨(i 1).val / 2048, by omega⟩
  have e := idx_facts t
  have q0 : win0_7.index t (0 : Fin 3) = (i 0).val := congrFun ht 0
  have q1 : win0_7.index t (1 : Fin 3) = (i 1).val / 2048 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 64 ≤ (i 2).val ∧ (i 2).val < win0_7.index t (2 : Fin 3) * 64 + 64; omega

/-- So the first result ends holding the projection everywhere. -/
theorem final7 (c : Dev nD) : (dat0 V c).arrAt 7 cfg0.N = proj (V c main_v0) (V c main_arg1) (V c main_v1) :=
  (dat0 V c).arrAt_eq_of_cover 7 _ (fun t _ => flushed7_eq V c t) cover7

/-- The first result after the region, at image `n`, position `s`, channel `o`. -/
theorem arr0_7 (c : Dev nD) (n : Fin 16) (s : Fin 4096) (o : Fin 64) :
    ((dat0 (F := Ideal) V c).arrAt 7 cfg0.N : S16x4096x64.Idx → EReal) (ix3 n s o)
      = proj (V c main_v0) (V c main_arg1) (V c main_v1) (ix3 n s o) := by
  rw [final7]

/-- The body's stored block for the second result, at one entry. -/
theorem pay_at8 (x0 : Vec Ideal S1x64x2048 .f32) (w : Vec Ideal S64x64 .f32) (b : Vec Ideal S1x64 .f32) (j : S1x2048x64.Idx) :
    k0_pay5 x0 w b j = (∑ ch : Fin 64, x0 (ix3 0 ch (j 1)) * w (ix2 (j 2) ch)) + b (ix2 0 (j 2)) := by
  have h0 : j 0 = (0 : Fin 1) := Fin.ext (by have h : (j 0).val < 1 := (j 0).isLt; show (j 0).val = 0; omega)
  have hj : j = ix3 (0 : Fin 1) (j 1) (j 2) := (eq_ix3 j).trans (congrArg (fun a : Fin 1 => ix3 a (j 1) (j 2)) h0)
  exact (congrArg (k0_pay5 x0 w b) hj).trans (Cert.Attn.k0_pay5_apply x0 w b (j 1) (j 2))

/-- What grid point `t` writes back to the second result is block `t` of the projection of the arrays as
    the region finds them. -/
theorem flushed8_eq (c : Dev nD) (t : Fin cfg0.N) :
    (dat0 V c).flushed 8 t = ((cfg0.win 8).blk t).view.read (Elt Ideal) (proj (V c main_v0) (V c main_arg3) (V c main_v2)) := by
  show (cfg0.win 8).cut (grid0.coords t) ((dat0 V c).after 8 t) = _
  rw [after0_8]
  unfold out0_8
  rw [View.canon_unit_zero hz3]
  simp only [View.ld_unit_zero (S := S1x64x2048) hz3, View.ld_unit_zero (S := S64x64) hz2, View.ld_unit_zero (S := S1x64) hz2]
  funext j
  have e := idx_facts t
  have hj0 : (j 0).val < 1 := (j 0).isLt
  refine (pay_at8 (iblk0 V c 0 t) (iblk0 V c 3 t) (iblk0 V c 4 t) j).trans ?_
  show _ = proj (V c main_v0) (V c main_arg3) (V c main_v2) (((cfg0.win 8).blk t).view.emb j)
  unfold proj
  refine congrArg₂ (· + ·) (Finset.sum_congr rfl fun ch _ => congrArg₂ (· * ·) ?_ ?_) ?_
  · refine iblk0_0_apply V c t ch (j 1) _ ?_ rfl ?_
    · show win0_8.index t (0 : Fin 3) * 1 + 1 * (j 0).val = win0_7.index t (0 : Fin 3)
      rw [idx8 t]; omega
    · show win0_8.index t (1 : Fin 3) * 2048 + 1 * (j 1).val = win0_7.index t (1 : Fin 3) * 2048 + (j 1).val
      rw [idx8 t]; omega
  · refine iblk0_3_apply V c t _ _ ?_ rfl
    show win0_8.index t (2 : Fin 3) * 64 + 1 * (j 2).val = (j 2).val
    rw [idx8 t]; omega
  · refine iblk0_4_apply V c t _ _ rfl ?_
    show win0_8.index t (2 : Fin 3) * 64 + 1 * (j 2).val = (j 2).val
    rw [idx8 t]; omega

/-- An entry of the array is in point `t`'s block iff each coordinate is in the block's range. -/
theorem mem_blk8 (t : Fin cfg0.N) (i : S16x4096x64.Idx) :
    i ∈ ((cfg0.win 8).blk t).view.set ↔ ∀ a : Fin 3, win0_8.index t a * S1x2048x64.size a ≤ (i a).val ∧ (i a).val < win0_8.index t a * S1x2048x64.size a + S1x2048x64.size a := by
  show i ∈ ((View.whole main_v5_1).slice (win0_8.rect t)).set ↔ _
  rw [View.set_slice_whole, Rect.mem_set_unit]
  exact Iff.rfl

/-- Every entry is in the block of the point of its image and of the half its position lies in. -/
theorem cover8 (i : S16x4096x64.Idx) : ∃ t : Fin cfg0.N, (cfg0.win 8).flush t = true ∧ i ∈ ((cfg0.win 8).blk t).view.set := by
  have hi0 : (i 0).val < 16 := (i 0).isLt
  have hi1 : (i 1).val < 4096 := (i 1).isLt
  have hi2 : (i 2).val < 64 := (i 2).isLt
  obtain ⟨t, ht⟩ := idx_onto ⟨(i 0).val, hi0⟩ ⟨(i 1).val / 2048, by omega⟩
  have e := idx_facts t
  have q0 : win0_7.index t (0 : Fin 3) = (i 0).val := congrFun ht 0
  have q1 : win0_7.index t (1 : Fin 3) = (i 1).val / 2048 := congrFun ht 1
  have q2 : win0_7.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; rw [idx8 t]; omega
  | ⟨1, _⟩ => show win0_8.index t (1 : Fin 3) * 2048 ≤ (i 1).val ∧ (i 1).val < win0_8.index t (1 : Fin 3) * 2048 + 2048; rw [idx8 t]; omega
  | ⟨2, _⟩ => show win0_8.index t (2 : Fin 3) * 64 ≤ (i 2).val ∧ (i 2).val < win0_8.index t (2 : Fin 3) * 64 + 64; rw [idx8 t]; omega

/-- So the second result ends holding the projection everywhere. -/
theorem final8 (c : Dev nD) : (dat0 V c).arrAt 8 cfg0.N = proj (V c main_v0) (V c main_arg3) (V c main_v2) :=
  (dat0 V c).arrAt_eq_of_cover 8 _ (fun t _ => flushed8_eq V c t) cover8

/-- The second result after the region, at image `n`, position `s`, channel `o`. -/
theorem arr0_8 (c : Dev nD) (n : Fin 16) (s : Fin 4096) (o : Fin 64) :
    ((dat0 (F := Ideal) V c).arrAt 8 cfg0.N : S16x4096x64.Idx → EReal) (ix3 n s o)
      = proj (V c main_v0) (V c main_arg3) (V c main_v2) (ix3 n s o) := by
  rw [final8]

/-- The body's stored block for the third result, at one entry. -/
theorem pay_at9 (x0 : Vec Ideal S1x64x2048 .f32) (w : Vec Ideal S64x64 .f32) (b : Vec Ideal S1x64 .f32) (j : S1x2048x64.Idx) :
    k0_pay1 (k0_pay3 x0 w b) j = (∑ ch : Fin 64, x0 (ix3 0 ch (j 1)) * w (ix2 (j 2) ch)) + b (ix2 0 (j 2)) := by
  have h0 : j 0 = (0 : Fin 1) := Fin.ext (by have h : (j 0).val < 1 := (j 0).isLt; show (j 0).val = 0; omega)
  have hj : j = ix3 (0 : Fin 1) (j 1) (j 2) := (eq_ix3 j).trans (congrArg (fun a : Fin 1 => ix3 a (j 1) (j 2)) h0)
  exact (congrArg (k0_pay1 (k0_pay3 x0 w b)) hj).trans (Cert.Attn.k0_pay13_apply x0 w b (j 1) (j 2))

/-- What grid point `t` writes back to the third result is block `t` of the projection of the arrays as
    the region finds them. -/
theorem flushed9_eq (c : Dev nD) (t : Fin cfg0.N) :
    (dat0 V c).flushed 9 t = ((cfg0.win 9).blk t).view.read (Elt Ideal) (proj (V c main_v0) (V c main_arg5) (V c main_v3)) := by
  show (cfg0.win 9).cut (grid0.coords t) ((dat0 V c).after 9 t) = _
  rw [after0_9]
  unfold out0_9
  rw [View.canon_unit_zero hz3]
  simp only [View.ld_unit_zero (S := S1x64x2048) hz3, View.ld_unit_zero (S := S64x64) hz2, View.ld_unit_zero (S := S1x64) hz2]
  funext j
  have e := idx_facts t
  have hj0 : (j 0).val < 1 := (j 0).isLt
  refine (pay_at9 (iblk0 V c 0 t) (iblk0 V c 5 t) (iblk0 V c 6 t) j).trans ?_
  show _ = proj (V c main_v0) (V c main_arg5) (V c main_v3) (((cfg0.win 9).blk t).view.emb j)
  unfold proj
  refine congrArg₂ (· + ·) (Finset.sum_congr rfl fun ch _ => congrArg₂ (· * ·) ?_ ?_) ?_
  · refine iblk0_0_apply V c t ch (j 1) _ ?_ rfl ?_
    · show win0_9.index t (0 : Fin 3) * 1 + 1 * (j 0).val = win0_7.index t (0 : Fin 3)
      rw [idx9 t]; omega
    · show win0_9.index t (1 : Fin 3) * 2048 + 1 * (j 1).val = win0_7.index t (1 : Fin 3) * 2048 + (j 1).val
      rw [idx9 t]; omega
  · refine iblk0_5_apply V c t _ _ ?_ rfl
    show win0_9.index t (2 : Fin 3) * 64 + 1 * (j 2).val = (j 2).val
    rw [idx9 t]; omega
  · refine iblk0_6_apply V c t _ _ rfl ?_
    show win0_9.index t (2 : Fin 3) * 64 + 1 * (j 2).val = (j 2).val
    rw [idx9 t]; omega

/-- An entry of the array is in point `t`'s block iff each coordinate is in the block's range. -/
theorem mem_blk9 (t : Fin cfg0.N) (i : S16x4096x64.Idx) :
    i ∈ ((cfg0.win 9).blk t).view.set ↔ ∀ a : Fin 3, win0_9.index t a * S1x2048x64.size a ≤ (i a).val ∧ (i a).val < win0_9.index t a * S1x2048x64.size a + S1x2048x64.size a := by
  show i ∈ ((View.whole main_v5_2).slice (win0_9.rect t)).set ↔ _
  rw [View.set_slice_whole, Rect.mem_set_unit]
  exact Iff.rfl

/-- Every entry is in the block of the point of its image and of the half its position lies in. -/
theorem cover9 (i : S16x4096x64.Idx) : ∃ t : Fin cfg0.N, (cfg0.win 9).flush t = true ∧ i ∈ ((cfg0.win 9).blk t).view.set := by
  have hi0 : (i 0).val < 16 := (i 0).isLt
  have hi1 : (i 1).val < 4096 := (i 1).isLt
  have hi2 : (i 2).val < 64 := (i 2).isLt
  obtain ⟨t, ht⟩ := idx_onto ⟨(i 0).val, hi0⟩ ⟨(i 1).val / 2048, by omega⟩
  have e := idx_facts t
  have q0 : win0_7.index t (0 : Fin 3) = (i 0).val := congrFun ht 0
  have q1 : win0_7.index t (1 : Fin 3) = (i 1).val / 2048 := congrFun ht 1
  have q2 : win0_7.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; rw [idx9 t]; omega
  | ⟨1, _⟩ => show win0_9.index t (1 : Fin 3) * 2048 ≤ (i 1).val ∧ (i 1).val < win0_9.index t (1 : Fin 3) * 2048 + 2048; rw [idx9 t]; omega
  | ⟨2, _⟩ => show win0_9.index t (2 : Fin 3) * 64 ≤ (i 2).val ∧ (i 2).val < win0_9.index t (2 : Fin 3) * 64 + 64; rw [idx9 t]; omega

/-- So the third result ends holding the projection everywhere. -/
theorem final9 (c : Dev nD) : (dat0 V c).arrAt 9 cfg0.N = proj (V c main_v0) (V c main_arg5) (V c main_v3) :=
  (dat0 V c).arrAt_eq_of_cover 9 _ (fun t _ => flushed9_eq V c t) cover9

/-- The third result after the region, at image `n`, position `s`, channel `o`. -/
theorem arr0_9 (c : Dev nD) (n : Fin 16) (s : Fin 4096) (o : Fin 64) :
    ((dat0 (F := Ideal) V c).arrAt 9 cfg0.N : S16x4096x64.Idx → EReal) (ix3 n s o)
      = proj (V c main_v0) (V c main_arg5) (V c main_v3) (ix3 n s o) := by
  rw [final9]

end Cert.KernelIdeal.Hand

end
-- ==== Proof.LibOnlineSoftmax.lean ====
/-
  Online ("flash") softmax: the pure mathematics.

  A softmax-weighted sum  ∑ t, (exp (S t − M) / ∑ t', exp (S t' − M)) · V t  over a large key set can be computed
  one tile of keys at a time, carrying three numbers: a running maximum m, a running denominator l and a running
  numerator a. A new tile with scores s and values v replaces m by m' = max m (max s), rescales l and a by
  exp (m − m') and adds the tile's  ∑ exp (s k − m')  and  ∑ exp (s k − m') · v k.

  The reason this is exact: write D m = ∑ exp (S t − m) and N m = ∑ exp (S t − m) · V t for the sums over the keys
  seen so far, as functions of a real shift m. Both satisfy  exp (m − m') · F m = F m'  (because
  exp (m − m') · exp (x − m) = exp (x − m')), this property is kept by sums, and so the state after any number of
  tiles is (m, D m, N m) for some real m. Which real m it is does not matter: the quotient N m / D m is the same for
  every m, in particular for the global maximum, and (∑ e_t · V t) / Z = ∑ (e_t / Z) · V t.

  At the first tile the state is (−∞, 0, 0): exp (−∞ − m') = 0 wipes the zero state and the new maximum is the real
  maximum of the (nonempty) tile; from then on every quantity is the coercion of a real number.
-/
import Mathlib.Data.EReal.Inv
import Mathlib.Analysis.SpecialFunctions.Exp
import Mathlib.Data.Fintype.BigOperators
import Mathlib.Algebra.BigOperators.Fin
import Idealize.ShloMosaic.PureOps.Ideal

noncomputable section

open scoped BigOperators

namespace OnlineSoftmax

open Idealize.ShloMosaic

/-- The state before any key tile: running maximum −∞, denominator 0, numerator 0. -/
def init : EReal × EReal × EReal := (⊥, 0, 0)

/-- One key tile: scores s, values v (one output column). New maximum m' = max m (max of the tile's scores);
    the old denominator and numerator are rescaled by exp (m − m') and the tile's exp (s k − m') (· v k) are added. -/
def step {b : ℕ} (p : EReal × EReal × EReal) (s v : Fin b → EReal) : EReal × EReal × EReal :=
  (max p.1 ((Finset.univ : Finset (Fin b)).fold max ⊥ s),
   Ideal.exp (p.1 - max p.1 ((Finset.univ : Finset (Fin b)).fold max ⊥ s)) * p.2.1
     + ∑ k : Fin b, Ideal.exp (s k - max p.1 ((Finset.univ : Finset (Fin b)).fold max ⊥ s)),
   Ideal.exp (p.1 - max p.1 ((Finset.univ : Finset (Fin b)).fold max ⊥ s)) * p.2.2
     + ∑ k : Fin b, Ideal.exp (s k - max p.1 ((Finset.univ : Finset (Fin b)).fold max ⊥ s)) * v k)

/-! ### Coercions -/

/-- The coercion of the reals into the extended reals commutes with finite sums. -/
theorem coe_sum {ι : Type*} (T : Finset ι) (f : ι → ℝ) :
    ((∑ i ∈ T, f i : ℝ) : EReal) = ∑ i ∈ T, (f i : EReal) := by
  classical
  induction T using Finset.induction_on with
  | empty => simp
  | insert a T ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- The fold of max from −∞ over a nonempty finite family of (coerced) reals is the coercion of the family's
    real maximum. -/
theorem fold_max_coe {ι : Type*} (T : Finset ι) (hT : T.Nonempty) (f : ι → ℝ) :
    T.fold max ⊥ (fun i => (f i : EReal)) = ((T.sup' hT f : ℝ) : EReal) := by
  induction hT using Finset.Nonempty.cons_induction with
  | singleton a => rw [Finset.fold_singleton, Finset.sup'_singleton, max_eq_left bot_le]
  | cons a T ha hT ih => rw [Finset.fold_cons, ih, Finset.sup'_cons hT, ← coe_max]

/-- The maximum of a nonempty tile of real scores. -/
def tileMax {b : ℕ} (hb : 0 < b) (s : Fin b → ℝ) : ℝ :=
  (Finset.univ : Finset (Fin b)).sup' ⟨⟨0, hb⟩, Finset.mem_univ _⟩ s

/-- The fold of max from −∞ over a nonempty tile of coerced real scores is the coerced tile maximum. -/
theorem fold_max_tile {b : ℕ} (hb : 0 < b) (s : Fin b → ℝ) :
    (Finset.univ : Finset (Fin b)).fold max ⊥ (fun k => (s k : EReal)) = ((tileMax hb s : ℝ) : EReal) :=
  fold_max_coe _ _ s

/-! ### Shifted exponential sums -/

/-- The denominator sum of a family of scores, as a function of the shift m: ∑ exp (s i − m). -/
def den {ι : Type*} [Fintype ι] (s : ι → ℝ) (m : ℝ) : ℝ := ∑ i, Real.exp (s i - m)

/-- The numerator sum of a family of scores and values, as a function of the shift m: ∑ exp (s i − m) · v i. -/
def num {ι : Type*} [Fintype ι] (s v : ι → ℝ) (m : ℝ) : ℝ := ∑ i, Real.exp (s i - m) * v i

/-- A function of the shift rescales when changing the shift from m to m' multiplies it by exp (m − m'). -/
def Rescales (F : ℝ → ℝ) : Prop := ∀ m m' : ℝ, Real.exp (m - m') * F m = F m'

/-- exp (m − m') · exp (x − m) = exp (x − m'). -/
theorem exp_shift (x m m' : ℝ) : Real.exp (m - m') * Real.exp (x - m) = Real.exp (x - m') := by
  rw [← Real.exp_add]; congr 1; ring

/-- The denominator sum rescales. -/
theorem den_rescales {ι : Type*} [Fintype ι] (s : ι → ℝ) : Rescales (den s) := by
  intro m m'
  unfold den
  rw [Finset.mul_sum]
  exact Finset.sum_congr rfl fun i _ => exp_shift _ _ _

/-- The numerator sum rescales. -/
theorem num_rescales {ι : Type*} [Fintype ι] (s v : ι → ℝ) : Rescales (num s v) := by
  intro m m'
  unfold num
  rw [Finset.mul_sum]
  exact Finset.sum_congr rfl fun i _ => by rw [← mul_assoc, exp_shift]

/-- The sum of two rescaling functions rescales. -/
theorem Rescales.add {F G : ℝ → ℝ} (hF : Rescales F) (hG : Rescales G) : Rescales (F + G) := by
  intro m m'
  rw [Pi.add_apply, Pi.add_apply, mul_add, hF m m', hG m m']

/-! ### The state after some tiles -/

/-- The state is (m, D m, N m) for some real shift m. -/
def Tracks (D N : ℝ → ℝ) (p : EReal × EReal × EReal) : Prop :=
  ∃ m : ℝ, p = ((m : EReal), ((D m : ℝ) : EReal), ((N m : ℝ) : EReal))

/-- One tile on a real state: the new shift is the real maximum, the old sums are rescaled and the tile's sums at
    the new shift are added. -/
theorem step_coe {b : ℕ} (hb : 0 < b) (s v : Fin b → ℝ) (m l a : ℝ) :
    step ((m : EReal), (l : EReal), (a : EReal)) (fun k => (s k : EReal)) (fun k => (v k : EReal))
      = (((max m (tileMax hb s) : ℝ) : EReal),
         ((Real.exp (m - max m (tileMax hb s)) * l + den s (max m (tileMax hb s)) : ℝ) : EReal),
         ((Real.exp (m - max m (tileMax hb s)) * a + num s v (max m (tileMax hb s)) : ℝ) : EReal)) := by
  unfold step den num
  simp only [fold_max_tile hb, ← coe_max, ← EReal.coe_sub, Ideal.exp_coe, ← EReal.coe_mul, ← coe_sum,
    ← EReal.coe_add]

/-- The first tile: exp (−∞ − m') = 0 wipes the zero state, and the state becomes the tile's own sums at the tile's
    maximum. -/
theorem step_init {b : ℕ} (hb : 0 < b) (s v : Fin b → ℝ) :
    step init (fun k => (s k : EReal)) (fun k => (v k : EReal))
      = (((tileMax hb s : ℝ) : EReal), ((den s (tileMax hb s) : ℝ) : EReal),
         ((num s v (tileMax hb s) : ℝ) : EReal)) := by
  unfold step init den num
  simp only [fold_max_tile hb, max_eq_right (bot_le : (⊥ : EReal) ≤ _), EReal.bot_sub, Ideal.exp_bot, zero_mul,
    zero_add, ← EReal.coe_sub, Ideal.exp_coe, ← EReal.coe_mul, ← coe_sum]

/-- After the first tile the state tracks that tile's sums. -/
theorem tracks_init {b : ℕ} (hb : 0 < b) (s v : Fin b → ℝ) :
    Tracks (den s) (num s v) (step init (fun k => (s k : EReal)) (fun k => (v k : EReal))) :=
  ⟨tileMax hb s, step_init hb s v⟩

/-- A further tile: a state tracking rescaling sums D, N tracks D + (the tile's denominator sum) and
    N + (the tile's numerator sum) afterwards. -/
theorem Tracks.step {b : ℕ} (hb : 0 < b) {D N : ℝ → ℝ} {p : EReal × EReal × EReal} (h : Tracks D N p)
    (hD : Rescales D) (hN : Rescales N) (s v : Fin b → ℝ) :
    Tracks (D + den s) (N + num s v) (step p (fun k => (s k : EReal)) (fun k => (v k : EReal))) := by
  obtain ⟨m, rfl⟩ := h
  refine ⟨max m (tileMax hb s), ?_⟩
  rw [step_coe hb, hD m, hN m]
  rfl

/-! ### The quotient -/

/-- A denominator sum over a nonempty family is positive. -/
theorem den_pos {ι : Type*} [Fintype ι] [Nonempty ι] (s : ι → ℝ) (m : ℝ) : 0 < den s m :=
  Finset.sum_pos (fun _ _ => Real.exp_pos _) Finset.univ_nonempty

/-- Over the reals, the quotient of the sums at any shift m is the softmax-weighted sum written with any other
    shift g, each weight divided first. -/
theorem real_quotient {ι : Type*} [Fintype ι] [Nonempty ι] (s v : ι → ℝ) (m g : ℝ) :
    num s v m * (1 / den s m) = ∑ i, Real.exp (s i - g) * (1 / den s g) * v i := by
  have hg : den s g ≠ 0 := (den_pos s g).ne'
  have he : Real.exp (g - m) ≠ 0 := (Real.exp_pos _).ne'
  rw [← num_rescales s v g m, ← den_rescales s g m, mul_one_div, mul_div_mul_left _ _ he]
  unfold num
  rw [Finset.sum_div]
  exact Finset.sum_congr rfl fun i _ => by rw [mul_one_div, div_mul_eq_mul_div]

/-- A state tracking the sums over a whole nonempty index type: numerator / denominator is the softmax-weighted sum,
    the softmax written with the global maximum (the fold of max from −∞) and each weight divided first. -/
theorem Tracks.quotient {τ : Type*} [Fintype τ] [Nonempty τ] (S Vv : τ → ℝ) {D N : ℝ → ℝ}
    {p : EReal × EReal × EReal} (h : Tracks D N p) (hD : ∀ m, D m = den S m) (hN : ∀ m, N m = num S Vv m) :
    Ideal.div p.2.2 p.2.1
      = ∑ t : τ, Ideal.div
          (Ideal.exp (((S t : ℝ) : EReal) - (Finset.univ : Finset τ).fold max ⊥ (fun t' => ((S t' : ℝ) : EReal))))
          (∑ t' : τ, Ideal.exp (((S t' : ℝ) : EReal) - (Finset.univ : Finset τ).fold max ⊥ (fun t'' => ((S t'' : ℝ) : EReal))))
        * ((Vv t : ℝ) : EReal) := by
  obtain ⟨m, rfl⟩ := h
  rw [fold_max_coe _ Finset.univ_nonempty S]
  set g : ℝ := (Finset.univ : Finset τ).sup' Finset.univ_nonempty S
  have hsum : (∑ t' : τ, Ideal.exp (((S t' : ℝ) : EReal) - (g : EReal))) = ((den S g : ℝ) : EReal) := by
    unfold den
    simp only [← EReal.coe_sub, Ideal.exp_coe, ← coe_sum]
  rw [hsum]
  simp only [hD, hN, Ideal.div_coe (den_pos S g).ne', Ideal.div_coe (den_pos S m).ne', ← EReal.coe_sub,
    Ideal.exp_coe, ← EReal.coe_mul, ← coe_sum]
  rw [real_quotient S Vv m g]

/-! ### Four tiles -/

/-- Four tiles of b real scores each, re-indexed by e onto one index type τ (τ = all keys), then the quotient
    numerator / denominator is the softmax-weighted sum over τ, in the form "each weight divided first". -/
theorem flash4_eq_softmax {b : ℕ} (hb : 0 < b) {τ : Type*} [Fintype τ] (e : Fin 4 × Fin b ≃ τ) (S Vv : τ → ℝ) :
    Ideal.div
      (step (step (step (step init (fun k => ((S (e (0, k)) : ℝ) : EReal)) (fun k => ((Vv (e (0, k)) : ℝ) : EReal)))
        (fun k => ((S (e (1, k)) : ℝ) : EReal)) (fun k => ((Vv (e (1, k)) : ℝ) : EReal)))
        (fun k => ((S (e (2, k)) : ℝ) : EReal)) (fun k => ((Vv (e (2, k)) : ℝ) : EReal)))
        (fun k => ((S (e (3, k)) : ℝ) : EReal)) (fun k => ((Vv (e (3, k)) : ℝ) : EReal))).2.2
      (step (step (step (step init (fun k => ((S (e (0, k)) : ℝ) : EReal)) (fun k => ((Vv (e (0, k)) : ℝ) : EReal)))
        (fun k => ((S (e (1, k)) : ℝ) : EReal)) (fun k => ((Vv (e (1, k)) : ℝ) : EReal)))
        (fun k => ((S (e (2, k)) : ℝ) : EReal)) (fun k => ((Vv (e (2, k)) : ℝ) : EReal)))
        (fun k => ((S (e (3, k)) : ℝ) : EReal)) (fun k => ((Vv (e (3, k)) : ℝ) : EReal))).2.1
    = ∑ t : τ, Ideal.div
        (Ideal.exp (((S t : ℝ) : EReal) - (Finset.univ : Finset τ).fold max ⊥ (fun t' => ((S t' : ℝ) : EReal))))
        (∑ t' : τ, Ideal.exp (((S t' : ℝ) : EReal) - (Finset.univ : Finset τ).fold max ⊥ (fun t'' => ((S t'' : ℝ) : EReal))))
      * ((Vv t : ℝ) : EReal) := by
  haveI : Nonempty τ := ⟨e (0, ⟨0, hb⟩)⟩
  have h1 := tracks_init hb (fun k => S (e (0, k))) (fun k => Vv (e (0, k)))
  have r1D := den_rescales (fun k : Fin b => S (e (0, k)))
  have r1N := num_rescales (fun k : Fin b => S (e (0, k))) (fun k => Vv (e (0, k)))
  have h2 := h1.step hb r1D r1N (fun k => S (e (1, k))) (fun k => Vv (e (1, k)))
  have r2D := r1D.add (den_rescales (fun k : Fin b => S (e (1, k))))
  have r2N := r1N.add (num_rescales (fun k : Fin b => S (e (1, k))) (fun k => Vv (e (1, k))))
  have h3 := h2.step hb r2D r2N (fun k => S (e (2, k))) (fun k => Vv (e (2, k)))
  have r3D := r2D.add (den_rescales (fun k : Fin b => S (e (2, k))))
  have r3N := r2N.add (num_rescales (fun k : Fin b => S (e (2, k))) (fun k => Vv (e (2, k))))
  have h4 := h3.step hb r3D r3N (fun k => S (e (3, k))) (fun k => Vv (e (3, k)))
  refine h4.quotient S Vv ?_ ?_
  · intro m
    simp only [Pi.add_apply, den]
    rw [← e.sum_comp, Fintype.sum_prod_type, Fin.sum_univ_four]
  · intro m
    simp only [Pi.add_apply, num]
    rw [← e.sum_comp, Fintype.sum_prod_type, Fin.sum_univ_four]

end OnlineSoftmax

end
-- ==== Proof.Spec.lean ====
/-
  Spatial self-attention over 4096 positions with 64 channels, as the tiled kernel computes it, written over plain
  functions of coordinates (no program, no array type).

  An input x[n, c, s] (16 images, 64 channels, 4096 positions) gives three position-major tables by a per-position
  linear map over the channels: T[n, s, o] = ∑ c, x[n, c, s] · w[o, c] + b[o]. For a query position s the kernel
  scales the query row by 1/8 first, takes its scalar products with the keys one tile of 1024 keys at a time, and
  carries for every output channel the triple (running maximum, running denominator, running numerator) of the
  online softmax; after the fourth tile the numerator is multiplied by the reciprocal of the denominator, and the
  result is sent through the output linear map, stored channel-major.
-/
import Idealize.ShloMosaic.PureOps.Ideal
import proofs.«141329_j15582141350418_2_alg».proof.Proof.LibOnlineSoftmax

noncomputable section

open scoped BigOperators

namespace Cert.Attn

open Idealize.ShloMosaic

/-- The numbers the two programs spell as f32 words: 1/8, 1, 0, −∞ and 64. -/
def eighth : EReal := Ideal.ofBits .f32 0x3E000000#32
def oneW : EReal := Ideal.ofBits .f32 0x3F800000#32
def zeroW : EReal := Ideal.ofBits .f32 0x00000000#32
def ninfW : EReal := Ideal.ofBits .f32 0xFF800000#32
def sixtyFourW : EReal := Ideal.ofBits .f32 0x42800000#32

/-- A per-position linear map over the 64 channels of a channel-major input: row o of the weight against the
    channel vector at position s, plus the bias. -/
def lin (x : Fin 16 → Fin 64 → Fin 4096 → EReal) (w : Fin 64 → Fin 64 → EReal) (b : Fin 64 → EReal)
    (n : Fin 16) (s : Fin 4096) (o : Fin 64) : EReal :=
  (∑ c : Fin 64, x n c s * w o c) + b o

/-- Key j of key tile i. -/
def key (i : Fin 4) (j : Fin 1024) : Fin 4096 := ⟨i.val * 1024 + j.val, by omega⟩

section Tiled

variable (Q K V : Fin 16 → Fin 4096 → Fin 64 → EReal)

/-- The kernel's score of query s against key t: the query row scaled by 1/8 before the product. -/
def kscore (n : Fin 16) (s t : Fin 4096) : EReal := ∑ c : Fin 64, (Q n s c * eighth) * K n t c

/-- One key tile of the online softmax for output channel c of query s. -/
def ktile (n : Fin 16) (s : Fin 4096) (c : Fin 64) (i : Fin 4) (p : EReal × EReal × EReal) : EReal × EReal × EReal :=
  OnlineSoftmax.step p (fun j : Fin 1024 => kscore Q K n s (key i j)) (fun j : Fin 1024 => V n (key i j) c)

/-- The state after all four key tiles. -/
def kstate (n : Fin 16) (s : Fin 4096) (c : Fin 64) : EReal × EReal × EReal :=
  ktile Q K V n s c 3 (ktile Q K V n s c 2 (ktile Q K V n s c 1 (ktile Q K V n s c 0 OnlineSoftmax.init)))

/-- The attention output: numerator times the reciprocal of the denominator. -/
def kattn (n : Fin 16) (s : Fin 4096) (c : Fin 64) : EReal :=
  (kstate Q K V n s c).2.2 * Ideal.div oneW (kstate Q K V n s c).2.1

/-- The output linear map applied to the attention output, read channel-major. -/
def kout (ow : Fin 64 → Fin 64 → EReal) (ob : Fin 64 → EReal) (n : Fin 16) (o : Fin 64) (s : Fin 4096) : EReal :=
  (∑ c : Fin 64, ow o c * kattn Q K V n s c) + ob o

end Tiled

/-- The whole kernel as one function of the nine inputs. -/
def kernelSpec (x : Fin 16 → Fin 64 → Fin 4096 → EReal) (qw kw vw ow : Fin 64 → Fin 64 → EReal) (qb kb vb ob : Fin 64 → EReal)
    (n : Fin 16) (o : Fin 64) (s : Fin 4096) : EReal :=
  kout (lin x qw qb) (lin x kw kb) (lin x vw vb) ow ob n o s

end Cert.Attn

end
-- ==== Proof.KI.Tables.lean ====
/-
  The three projected tables the attention kernel reads, and the output map's weight and bias, as functions of the
  launch memory's nine arguments: each table is the per-position linear map of the image array.
-/
import proofs.«141329_j15582141350418_2_alg».proof.Proof.Gen.KernelIdeal.Launch
import proofs.«141329_j15582141350418_2_alg».proof.Proof.Gen.KernelIdeal.Skeleton
import proofs.«141329_j15582141350418_2_alg».proof.Proof.Gen.KernelIdeal.Points
import proofs.«141329_j15582141350418_2_alg».proof.Proof.KI.Entry
import proofs.«141329_j15582141350418_2_alg».proof.Proof.KI.Value0
import proofs.«141329_j15582141350418_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn
open scoped BigOperators

variable (m : (ℓ : Loc nD τ sig) → Buf (Elt Ideal) ℓ) (ρ : Dev nD → PrngReg)

/-- One projected table, entry by entry: the per-position linear map of the image array. -/
theorem table_entry (c : Dev nD) (n : Fin 16) (s : Fin 4096) (o : Fin 64)
    (w : S64x64.Idx → EReal) (b : S1x64.Idx → EReal) (bv : S64.Idx → EReal) (hb : b (ix2 0 o) = bv (ix1 o)) :
    proj (V1 m ρ c main_v0 : S16x64x4096.Idx → EReal) w b (ix3 n s o)
      = lin (readX (m ((c : Thread nD τ).loc main_arg0) : S16x64x64x64.Idx → EReal)) (readW w) (readB bv) n s o := by
  rw [proj_apply]
  unfold lin readX readW readB
  rw [hb]
  refine congrArg (· + bv (ix1 o)) (Finset.sum_congr rfl fun ch _ => ?_)
  rw [V1_main_v0 m ρ c n ch s]

/-- The query table the attention kernel reads. -/
theorem table_q (c : Dev nD) :
    (fun (n : Fin 16) (s : Fin 4096) (ch : Fin 64) => (V2 m ρ c main_v5_0 : S16x4096x64.Idx → EReal) (ix3 n s ch))
      = lin (readX (m ((c : Thread nD τ).loc main_arg0) : S16x64x64x64.Idx → EReal))
          (readW (m ((c : Thread nD τ).loc main_arg1) : S64x64.Idx → EReal)) (readB (m ((c : Thread nD τ).loc main_arg2) : S64.Idx → EReal)) := by
  funext n s ch
  rw [V2_main_v5_0, final7, V1_main_arg1]
  exact table_entry m ρ c n s ch _ _ _ (V1_row m ρ c ch).1
/-- The key table. -/
theorem table_k (c : Dev nD) :
    (fun (n : Fin 16) (s : Fin 4096) (ch : Fin 64) => (V2 m ρ c main_v5_1 : S16x4096x64.Idx → EReal) (ix3 n s ch))
      = lin (readX (m ((c : Thread nD τ).loc main_arg0) : S16x64x64x64.Idx → EReal))
          (readW (m ((c : Thread nD τ).loc main_arg3) : S64x64.Idx → EReal)) (readB (m ((c : Thread nD τ).loc main_arg4) : S64.Idx → EReal)) := by
  funext n s ch
  rw [V2_main_v5_1, final8, V1_main_arg3]
  exact table_entry m ρ c n s ch _ _ _ (V1_row m ρ c ch).2.1
/-- The value table. -/
theorem table_v (c : Dev nD) :
    (fun (n : Fin 16) (s : Fin 4096) (ch : Fin 64) => (V2 m ρ c main_v5_2 : S16x4096x64.Idx → EReal) (ix3 n s ch))
      = lin (readX (m ((c : Thread nD τ).loc main_arg0) : S16x64x64x64.Idx → EReal))
          (readW (m ((c : Thread nD τ).loc main_arg5) : S64x64.Idx → EReal)) (readB (m ((c : Thread nD τ).loc main_arg6) : S64.Idx → EReal)) := by
  funext n s ch
  rw [V2_main_v5_2, final9, V1_main_arg5]
  exact table_entry m ρ c n s ch _ _ _ (V1_row m ρ c ch).2.2
/-- The output weight as the attention kernel finds it. -/
theorem table_ow (c : Dev nD) :
    (fun (o ch : Fin 64) => (V2 m ρ c main_arg7 : S64x64.Idx → EReal) (ix2 o ch))
      = readW (m ((c : Thread nD τ).loc main_arg7) : S64x64.Idx → EReal) := by
  funext o ch
  rw [V2_main_arg7]
  rfl
/-- The output bias column as the attention kernel finds it. -/
theorem table_ob (c : Dev nD) :
    (fun (o : Fin 64) => (V2 m ρ c main_v4 : S64x1.Idx → EReal) (ix2 o 0))
      = readB (m ((c : Thread nD τ).loc main_arg8) : S64.Idx → EReal) := by
  funext o
  rw [V2_main_v4]
  exact V1_main_v4 m ρ c o

end Cert.KernelIdeal.Hand

end
-- ==== Proof.KI.Value1Blocks.lean ====
/-
  The attention region's blocks read at an index.

  The grid is 16 images x 8 query blocks x 4 key tiles; point t is image t / 32, query block t / 4 % 8, key tile
  t % 4. The query window's block at t is rows 512 · (t / 4 % 8) … of image t / 32 of the query table, the key and
  value windows' blocks are rows 1024 · (t % 4) … of the same image of their tables, the output map's weight and bias
  windows are their whole arrays, and the result window's block is columns 512 · (t / 4 % 8) … of image t / 32 of the
  result. So the query block does not move along a run of four key tiles, and every entry of the result lies in the
  block of exactly one run.
-/
import proofs.«141329_j15582141350418_2_alg».proof.Proof.KI.Region1Runs
import proofs.«141329_j15582141350418_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps in closed form, decided over the 512 grid points. -/
theorem idx_facts1 : ∀ t : Fin cfg1.N,
    win1_0.index t (0 : Fin 3) = t.val / 32 ∧ win1_0.index t (1 : Fin 3) = t.val / 4 % 8 ∧ win1_0.index t (2 : Fin 3) = 0
    ∧ win1_1.index t (0 : Fin 3) = t.val / 32 ∧ win1_1.index t (1 : Fin 3) = t.val % 4 ∧ win1_1.index t (2 : Fin 3) = 0
    ∧ win1_2.index t (0 : Fin 3) = t.val / 32 ∧ win1_2.index t (1 : Fin 3) = t.val % 4 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 32 ∧ win1_5.index t (1 : Fin 3) = 0 ∧ win1_5.index t (2 : Fin 3) = t.val / 4 % 8 :=
  (by decide +kernel : ∀ t : Fin grid1.N, _)

/-- The grid has 512 points. -/
theorem lt512 (t : Fin cfg1.N) : t.val < 512 := by
  have h := t.isLt
  have hN : cfg1.N = 512 := Gen.N_1
  omega

/-- The query window's block at point t, at an entry: the query table at image t / 32, row 512 · (t / 4 % 8) + the
    block's row. -/
theorem iblk1_0_at (c : Dev nD) (t : Fin cfg1.N) (y : S1x512x64.Idx) (k : S16x4096x64.Idx)
    (hk0 : (k 0).val = t.val / 32) (hk1 : (k 1).val = t.val / 4 % 8 * 512 + (y 1).val) (hk2 : (k 2).val = (y 2).val) :
    (iblk1 V c 0 t : Vec Ideal S1x512x64 .bf16) y = (V c main_v5_0 : S16x4096x64.Idx → EReal) k := by
  obtain ⟨e0, e1, e2, -⟩ := idx_facts1 t
  have hy0 : (y 0).val < 1 := (y 0).isLt
  unfold iblk1
  rw [View.read_apply]
  show V c main_v5_0 _ = V c main_v5_0 _
  congr 1
  funext a
  apply Fin.ext
  match a with
  | ⟨0, _⟩ => show win1_0.index t (0 : Fin 3) * 1 + 1 * (y 0).val = (k 0).val; omega
  | ⟨1, _⟩ => show win1_0.index t (1 : Fin 3) * 512 + 1 * (y 1).val = (k 1).val; omega
  | ⟨2, _⟩ => show win1_0.index t (2 : Fin 3) * 64 + 1 * (y 2).val = (k 2).val; omega

/-- The key window's block at point t, at an entry: the key table at image t / 32, row 1024 · (t % 4) + the block's
    row. -/
theorem iblk1_1_at (c : Dev nD) (t : Fin cfg1.N) (y : S1x1024x64.Idx) (k : S16x4096x64.Idx)
    (hk0 : (k 0).val = t.val / 32) (hk1 : (k 1).val = t.val % 4 * 1024 + (y 1).val) (hk2 : (k 2).val = (y 2).val) :
    (iblk1 V c 1 t : Vec Ideal S1x1024x64 .bf16) y = (V c main_v5_1 : S16x4096x64.Idx → EReal) k := by
  obtain ⟨-, -, -, e0, e1, e2, -⟩ := idx_facts1 t
  have hy0 : (y 0).val < 1 := (y 0).isLt
  unfold iblk1
  rw [View.read_apply]
  show V c main_v5_1 _ = V c main_v5_1 _
  congr 1
  funext a
  apply Fin.ext
  match a with
  | ⟨0, _⟩ => show win1_1.index t (0 : Fin 3) * 1 + 1 * (y 0).val = (k 0).val; omega
  | ⟨1, _⟩ => show win1_1.index t (1 : Fin 3) * 1024 + 1 * (y 1).val = (k 1).val; omega
  | ⟨2, _⟩ => show win1_1.index t (2 : Fin 3) * 64 + 1 * (y 2).val = (k 2).val; omega

/-- The value window's block at point t, at an entry: the value table at image t / 32, row 1024 · (t % 4) + the
    block's row. -/
theorem iblk1_2_at (c : Dev nD) (t : Fin cfg1.N) (y : S1x1024x64.Idx) (k : S16x4096x64.Idx)
    (hk0 : (k 0).val = t.val / 32) (hk1 : (k 1).val = t.val % 4 * 1024 + (y 1).val) (hk2 : (k 2).val = (y 2).val) :
    (iblk1 V c 2 t : Vec Ideal S1x1024x64 .bf16) y = (V c main_v5_2 : S16x4096x64.Idx → EReal) k := by
  obtain ⟨-, -, -, -, -, -, e0, e1, e2, -⟩ := idx_facts1 t
  have hy0 : (y 0).val < 1 := (y 0).isLt
  unfold iblk1
  rw [View.read_apply]
  show V c main_v5_2 _ = V c main_v5_2 _
  congr 1
  funext a
  apply Fin.ext
  match a with
  | ⟨0, _⟩ => show win1_2.index t (0 : Fin 3) * 1 + 1 * (y 0).val = (k 0).val; omega
  | ⟨1, _⟩ => show win1_2.index t (1 : Fin 3) * 1024 + 1 * (y 1).val = (k 1).val; omega
  | ⟨2, _⟩ => show win1_2.index t (2 : Fin 3) * 64 + 1 * (y 2).val = (k 2).val; omega

/-- The output map's weight window: its one block is the whole array. -/
theorem iblk1_3_at (c : Dev nD) (t : Fin cfg1.N) (y : S64x64.Idx) :
    (iblk1 V c 3 t : Vec Ideal S64x64 .f32) y = (V c main_arg7 : S64x64.Idx → EReal) y := by
  obtain ⟨-, -, -, -, -, -, -, -, -, e0, e1, -⟩ := idx_facts1 t
  unfold iblk1
  rw [View.read_apply]
  show V c main_arg7 _ = V c main_arg7 _
  congr 1
  funext a
  apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The output map's bias window: its one block is the whole array. -/
theorem iblk1_4_at (c : Dev nD) (t : Fin cfg1.N) (y : S64x1.Idx) :
    (iblk1 V c 4 t : Vec Ideal S64x1 .f32) y = (V c main_v4 : S64x1.Idx → EReal) y := by
  obtain ⟨-, -, -, -, -, -, -, -, -, -, -, e0, e1, -⟩ := idx_facts1 t
  unfold iblk1
  rw [View.read_apply]
  show V c main_v4 _ = V c main_v4 _
  congr 1
  funext a
  apply Fin.ext
  match a with
  | ⟨0, _⟩ => show win1_4.index t (0 : Fin 2) * 64 + 1 * (y 0).val = (y 0).val; omega
  | ⟨1, _⟩ => show win1_4.index t (1 : Fin 2) * 1 + 1 * (y 1).val = (y 1).val; omega

/-- Along a run of key tiles (points with the same t / 4) the query window's block is one and the same. -/
theorem iblk1_0_run (c : Dev nD) (t t' : Fin cfg1.N) (h : t'.val / 4 = t.val / 4) :
    (iblk1 V c 0 t' : Vec Ideal S1x512x64 .bf16) = (iblk1 V c 0 t : Vec Ideal S1x512x64 .bf16) := by
  funext y
  have ht := lt512 t
  have hy1 : (y 1).val < 512 := (y 1).isLt
  have hy2 : (y 2).val < 64 := (y 2).isLt
  have e := iblk1_0_at V c t y (ix3 ⟨t.val / 32, by omega⟩ ⟨t.val / 4 % 8 * 512 + (y 1).val, by omega⟩ ⟨(y 2).val, hy2⟩) rfl rfl rfl
  have e' := iblk1_0_at V c t' y (ix3 ⟨t.val / 32, by omega⟩ ⟨t.val / 4 % 8 * 512 + (y 1).val, by omega⟩ ⟨(y 2).val, hy2⟩)
    (by show t.val / 32 = t'.val / 32; omega) (by show t.val / 4 % 8 * 512 + (y 1).val = t'.val / 4 % 8 * 512 + (y 1).val; omega) rfl
  exact e'.trans e.symm

/-- An entry of the result array is in point t's block iff each coordinate is in the block's range. -/
theorem mem_blk1_5 (t : Fin cfg1.N) (i : S16x64x4096.Idx) :
    i ∈ ((cfg1.win 5).blk t).view.set ↔ ∀ a : Fin 3, win1_5.index t a * S1x64x512.size a ≤ (i a).val ∧ (i a).val < win1_5.index t a * S1x64x512.size a + S1x64x512.size a := by
  show i ∈ ((View.whole main_v6).slice (win1_5.rect t)).set ↔ _
  rw [View.set_slice_whole, Rect.mem_set_unit]
  exact Iff.rfl

/-- Every entry of the result is in the block written back at the last key tile of its image's and column block's
    run: point (i₀ · 8 + i₂ / 512) · 4 + 3. -/
theorem cover1_5 (i : S16x64x4096.Idx) : ∃ t : Fin cfg1.N, (cfg1.win 5).flush t = true ∧ i ∈ ((cfg1.win 5).blk t).view.set := by
  have hi0 : (i 0).val < 16 := (i 0).isLt
  have hi1 : (i 1).val < 64 := (i 1).isLt
  have hi2 : (i 2).val < 4096 := (i 2).isLt
  have hN : cfg1.N = 512 := Gen.N_1
  let t : Fin cfg1.N := ⟨((i 0).val * 8 + (i 2).val / 512) * 4 + 3, by omega⟩
  have htv : t.val = ((i 0).val * 8 + (i 2).val / 512) * 4 + 3 := rfl
  obtain ⟨-, -, -, -, -, -, -, -, -, -, -, -, -, e0, e1, e2⟩ := idx_facts1 t
  refine ⟨t, (flush1_5 t).mpr (by omega), ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 64 ≤ (i 1).val ∧ (i 1).val < win1_5.index t (1 : Fin 3) * 64 + 64; omega
  | ⟨2, _⟩ => show win1_5.index t (2 : Fin 3) * 512 ≤ (i 2).val ∧ (i 2).val < win1_5.index t (2 : Fin 3) * 512 + 512; omega

end Cert.KernelIdeal.Hand

end
-- ==== Proof.Pay1Init.lean ====
/-
  The attention kernel's starting state, read at an entry: before the first key tile the running maximum of every
  query row is −∞ (the f32 word 0xFF800000), and the running denominator and every running numerator are 0.
-/
import proofs.«141329_j15582141350418_2_alg».proof.Proof.Gen.KernelIdeal.Skeleton
import Idealize.ShloMosaic.Lib.ValueLayout
import Idealize.ShloMosaic.PureOps.Ideal.Laws

noncomputable section

namespace Cert.Attn

open Cert.KernelIdeal Cert.KernelIdeal.Gen Idealize.ShloMosaic Idealize.ShloMosaic.ValueIdx

/-- The f32 word 0xFF800000 (sign set, exponent all ones, fraction zero) is −∞. -/
theorem ninf_f32 : Ideal.ofBits .f32 0xFF800000#32 = ⊥ := by simp [Ideal.ofBits, Ideal.ieee]

/-- The starting running maximum of query row r is −∞. -/
theorem init_m_apply (r : Fin 512) : (k1_pay4 (F := Ideal)) (ix2 r 0) = ⊥ := by
  unfold k1_pay4
  rw [shapeCast_self]
  exact ninf_f32

/-- The starting running denominator of query row r is 0. -/
theorem init_l_apply (r : Fin 512) : (k1_pay5 (F := Ideal)) (ix2 r 0) = 0 := by
  unfold k1_pay5
  rw [shapeCast_self]
  exact Ideal.ofBits_zero_f32

/-- The starting running numerator of query row r and channel c is 0. -/
theorem init_acc_apply (r : Fin 512) (c : Fin 64) : (k1_pay6 (F := Ideal)) (ix2 r c) = 0 := by
  unfold k1_pay6
  rw [shapeCast_self]
  exact Ideal.ofBits_zero_f32

end Cert.Attn

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.Pay1Score.lean ====
/-
  One key tile of the attention kernel: the scores and the new running maximum, read at an entry.

  The kernel holds a block of 512 query rows q[0, r, c], a tile of 1024 key rows k[0, j, c] and the running maximum
  m[r, 0] of every query row. It scales the query block by 1/8 (the f32 word 0x3E000000), multiplies it with the key
  tile contracting the channel axis of both, takes the maximum of every row of scores from −∞, and replaces the
  running maximum by the larger of the two. Over the extended reals the changes of float format are the identity and
  the product into the zero accumulator is the plain sum, so the score of query row r against key j is

      tileScore r j = ∑ c, (q[0, r, c] · 1/8) · k[0, j, c]

  and the new running maximum of row r is  newMax r = max m[r, 0] (the maximum from −∞ of tileScore r j over j).
-/
import proofs.«141329_j15582141350418_2_alg».proof.Proof.Gen.KernelIdeal.Skeleton
import proofs.«141329_j15582141350418_2_alg».proof.Proof.LibGram
import proofs.«141329_j15582141350418_2_alg».proof.Proof.LibColumn
import proofs.«141329_j15582141350418_2_alg».proof.Proof.Spec
import proofs.«141329_j15582141350418_2_alg».proof.Proof.Pay1Init
import Idealize.ShloMosaic.Lib.ValueLayout
import Idealize.ShloMosaic.PureOps.Ideal.Laws

noncomputable section

open scoped BigOperators

namespace Cert.Attn

open Cert.KernelIdeal Cert.KernelIdeal.Gen Idealize.ShloMosaic Idealize.ShloMosaic.ValueIdx

/-- The score of query row r against key j of the tile: the query row scaled by 1/8, times the key row. -/
def tileScore (q : Vec Ideal S1x512x64 .bf16) (k : Vec Ideal S1x1024x64 .bf16) (r : Fin 512) (j : Fin 1024) : EReal :=
  ∑ c : Fin 64, (q (ix3 0 r c) * eighth) * k (ix3 0 j c)

/-- The running maximum of query row r after the tile. -/
def newMax (q : Vec Ideal S1x512x64 .bf16) (k : Vec Ideal S1x1024x64 .bf16) (m : Vec Ideal S512x1 .f32) (r : Fin 512) : EReal :=
  max (m (ix2 r 0)) ((Finset.univ : Finset (Fin 1024)).fold max ⊥ (tileScore q k r))

/-- The free coordinates of the score product's dimension record: the left operand's row is the result's row … -/
theorem dotQK_lhs0 (j : S512x1024.Idx) (p : dot_S512x64_S1024x64_S512x1024_1_1_0_0_n_n.contr.Idx) :
    (dot_S512x64_S1024x64_S512x1024_1_1_0_0_n_n.lhsIdx j p 0).val = (j 0).val := by
  unfold DotDims.lhsIdx
  rw [dif_neg (show ¬(0 : Fin S512x64.rank) ∈ dot_S512x64_S1024x64_S512x1024_1_1_0_0_n_n.lhsBatch by decide),
    dif_pos (show (0 : Fin S512x64.rank) ∈ dot_S512x64_S1024x64_S512x1024_1_1_0_0_n_n.lhsNonContracting by decide)]
  rfl

/-- … and the right operand's row is the result's column. -/
theorem dotQK_rhs0 (j : S512x1024.Idx) (p : dot_S512x64_S1024x64_S512x1024_1_1_0_0_n_n.contr.Idx) :
    (dot_S512x64_S1024x64_S512x1024_1_1_0_0_n_n.rhsIdx j p 0).val = (j 1).val := by
  unfold DotDims.rhsIdx
  rw [dif_neg (show ¬(0 : Fin S1024x64.rank) ∈ dot_S512x64_S1024x64_S512x1024_1_1_0_0_n_n.rhsBatch by decide),
    dif_pos (show (0 : Fin S1024x64.rank) ∈ dot_S512x64_S1024x64_S512x1024_1_1_0_0_n_n.rhsNonContracting by decide)]
  rfl

/-- The tile's score matrix at (r, j). -/
theorem k1_pay8_apply (q : Vec Ideal S1x512x64 .bf16) (k : Vec Ideal S1x1024x64 .bf16) (r : Fin 512) (j : Fin 1024) :
    k1_pay8 q k (ix2 r j) = tileScore q k r j := by
  unfold k1_pay8
  refine (Ideal.matmul_constant_zero_apply dot_S512x64_S1024x64_S512x1024_1_1_0_0_n_n none _ _ (ix2 r j)).trans ?_
  refine (Gram.sum_contr_last dot_S512x64_S1024x64_S512x1024_1_1_0_0_n_n rfl rfl rfl rfl dotQK_lhs0 dotQK_rhs0
    _ _ (ix2 r j)).trans ?_
  refine Finset.sum_congr rfl fun c _ => ?_
  exact congrArg₂ (· * ·)
    (congrArg (· * eighth) (shapeCast_1ab_ab_apply q shapeCasts_S1x512x64_S512x64 r c))
    (shapeCast_1ab_ab_apply k shapeCasts_S1x1024x64_S1024x64 j c)

/-- The new running maximum, as the kernel computes it, at row r. -/
theorem k1_pay9_apply (q : Vec Ideal S1x512x64 .bf16) (k : Vec Ideal S1x1024x64 .bf16) (m : Vec Ideal S512x1 .f32)
    (r : Fin 512) : k1_pay9 q k m (ix2 r 0) = newMax q k m r := by
  unfold k1_pay9
  refine (maximumf_apply _ _ _).trans ?_
  refine congrArg (max (m (ix2 r 0))) ?_
  refine (shapeCast_a_a1_apply _ shapeCasts_S512_S512x1 r 0).trans ?_
  refine (Gram.multiReduction_max_rows_apply (k1_pay8 q k) 0xFF800000#32 reduces_S512x1024_S512 (.inl rfl) rfl r).trans ?_
  rw [ninf_f32]
  exact Finset.fold_congr fun j _ => k1_pay8_apply q k r j

/-- The running maximum the kernel stores after the tile, at row r. -/
theorem upd_m_apply (q : Vec Ideal S1x512x64 .bf16) (k : Vec Ideal S1x1024x64 .bf16) (m : Vec Ideal S512x1 .f32)
    (r : Fin 512) : k1_pay2 (k1_pay9 q k m) (ix2 r 0) = newMax q k m r := by
  unfold k1_pay2
  rw [shapeCast_self]
  exact k1_pay9_apply q k m r

end Cert.Attn

end
-- ==== Proof.Pay1Upd.lean ====
/-
  One key tile of the attention kernel: the new running denominator and numerator, read at an entry.

  With the tile's scores  tileScore r j  and the new running maximum  newMax r  of query row r, the kernel rescales
  the old denominator l[r, 0] and the old numerator acc[r, c] by  exp (m[r, 0] − newMax r)  and adds the tile's
  exp (tileScore r j − newMax r), summed over the 1024 keys j — for the numerator each term times the value
  v[0, j, c], a product of the [512, 1024] matrix of exponentials with the [1024, 64] value tile that contracts the
  key axis. These are, component by component, one step of the online softmax.
-/
import proofs.«141329_j15582141350418_2_alg».proof.Proof.Gen.KernelIdeal.Skeleton
import proofs.«141329_j15582141350418_2_alg».proof.Proof.LibContract
import proofs.«141329_j15582141350418_2_alg».proof.Proof.LibColumn
import proofs.«141329_j15582141350418_2_alg».proof.Proof.LibRowSum
import proofs.«141329_j15582141350418_2_alg».proof.Proof.LibOnlineSoftmax
import proofs.«141329_j15582141350418_2_alg».proof.Proof.Pay1Score
import Idealize.ShloMosaic.Lib.ValueLayout
import Idealize.ShloMosaic.PureOps.Ideal.Laws

noncomputable section

open scoped BigOperators

namespace Cert.Attn

open Cert.KernelIdeal Cert.KernelIdeal.Gen Idealize.ShloMosaic Idealize.ShloMosaic.ValueIdx

/-- The rescaling factor of row r: exp (old maximum − new maximum). -/
theorem k1_pay10_apply (q : Vec Ideal S1x512x64 .bf16) (k : Vec Ideal S1x1024x64 .bf16) (m m' : Vec Ideal S512x1 .f32)
    (r : Fin 512) : k1_pay10 q k m m' (ix2 r 0) = Ideal.exp (m' (ix2 r 0) - newMax q k m r) := by
  unfold k1_pay10
  show Ideal.exp (m' (ix2 r 0) - k1_pay9 q k m (ix2 r 0)) = _
  rw [k1_pay9_apply]

/-- The tile's exponentials at (r, j): exp (score − new maximum of the row). -/
theorem k1_pay11_apply (q : Vec Ideal S1x512x64 .bf16) (k : Vec Ideal S1x1024x64 .bf16) (m : Vec Ideal S512x1 .f32)
    (r : Fin 512) (j : Fin 1024) :
    k1_pay11 q k m (ix2 r j) = Ideal.exp (tileScore q k r j - newMax q k m r) := by
  unfold k1_pay11
  show Ideal.exp (k1_pay8 q k (ix2 r j)
    - broadcastTo S512x1024 (k1_pay9 q k m) broadcasts_S512x1_S512x1024 (ix2 r j)) = _
  rw [broadcastTo_a1_ab_apply, k1_pay8_apply, k1_pay9_apply]

/-- The running denominator the kernel stores after the tile, at row r. -/
theorem upd_l_apply (q : Vec Ideal S1x512x64 .bf16) (k : Vec Ideal S1x1024x64 .bf16) (m l : Vec Ideal S512x1 .f32)
    (r : Fin 512) :
    k1_pay12 q k m m l (ix2 r 0)
      = Ideal.exp (m (ix2 r 0) - newMax q k m r) * l (ix2 r 0)
        + ∑ j : Fin 1024, Ideal.exp (tileScore q k r j - newMax q k m r) := by
  unfold k1_pay12
  rw [shapeCast_self]
  refine (addf_apply _ _ _).trans ?_
  refine congrArg₂ (· + ·) ?_ ?_
  · exact congrArg (· * l (ix2 r 0)) (k1_pay10_apply q k m m r)
  · refine (shapeCast_a_a1_apply _ shapeCasts_S512_S512x1 r 0).trans ?_
    refine (multiReduction_add_rows_apply (k1_pay11 q k m) reduces_S512x1024_S512 (.inl rfl) rfl r).trans ?_
    exact Finset.sum_congr rfl fun j _ => k1_pay11_apply q k m r j

/-- The free coordinates of the value product's dimension record: the left operand's row is the result's row … -/
theorem dotPV_lhs0 (j : S512x64.Idx) (p : dot_S512x1024_S1024x64_S512x64_1_0_0_1_n_n.contr.Idx) :
    (dot_S512x1024_S1024x64_S512x64_1_0_0_1_n_n.lhsIdx j p 0).val = (j 0).val := by
  unfold DotDims.lhsIdx
  rw [dif_neg (show ¬(0 : Fin S512x1024.rank) ∈ dot_S512x1024_S1024x64_S512x64_1_0_0_1_n_n.lhsBatch by decide),
    dif_pos (show (0 : Fin S512x1024.rank) ∈ dot_S512x1024_S1024x64_S512x64_1_0_0_1_n_n.lhsNonContracting by decide)]
  rfl

/-- … and the right operand's column is the result's column. -/
theorem dotPV_rhs1 (j : S512x64.Idx) (p : dot_S512x1024_S1024x64_S512x64_1_0_0_1_n_n.contr.Idx) :
    (dot_S512x1024_S1024x64_S512x64_1_0_0_1_n_n.rhsIdx j p 1).val = (j 1).val := by
  unfold DotDims.rhsIdx
  rw [dif_neg (show ¬(1 : Fin S1024x64.rank) ∈ dot_S512x1024_S1024x64_S512x64_1_0_0_1_n_n.rhsBatch by decide),
    dif_pos (show (1 : Fin S1024x64.rank) ∈ dot_S512x1024_S1024x64_S512x64_1_0_0_1_n_n.rhsNonContracting by decide)]
  rfl

/-- The running numerator the kernel stores after the tile, at row r and channel c. -/
theorem upd_acc_apply (q : Vec Ideal S1x512x64 .bf16) (k v : Vec Ideal S1x1024x64 .bf16) (m : Vec Ideal S512x1 .f32)
    (acc : Vec Ideal S512x64 .f32) (r : Fin 512) (c : Fin 64) :
    k1_pay1 (k1_pay7 v) (k1_pay10 q k m m) (k1_pay11 q k m) acc (ix2 r c)
      = Ideal.exp (m (ix2 r 0) - newMax q k m r) * acc (ix2 r c)
        + ∑ j : Fin 1024, Ideal.exp (tileScore q k r j - newMax q k m r) * v (ix3 0 j c) := by
  unfold k1_pay1
  rw [shapeCast_self]
  refine (addf_apply _ _ _).trans ?_
  refine congrArg₂ (· + ·) ?_ ?_
  · refine (mulf_apply _ _ _).trans ?_
    refine congrArg (· * acc (ix2 r c)) ?_
    refine (broadcastTo_a1_ab_apply _ broadcasts_S512x1_S512x64 r c).trans ?_
    exact k1_pay10_apply q k m m r
  · refine (Ideal.matmul_constant_zero_apply dot_S512x1024_S1024x64_S512x64_1_0_0_1_n_n none _ _ (ix2 r c)).trans ?_
    refine (Contract2.sum_contr_eq_sum_fin dot_S512x1024_S1024x64_S512x64_1_0_0_1_n_n rfl rfl rfl rfl dotPV_lhs0 dotPV_rhs1
      _ _ (ix2 r c)).trans ?_
    refine Finset.sum_congr rfl fun j _ => ?_
    unfold k1_pay7
    exact congrArg₂ (· * ·) (k1_pay11_apply q k m r j) (shapeCast_1ab_ab_apply v shapeCasts_S1x1024x64_S1024x64 j c)

/-- The three stored values are one step of the online softmax from (m[r, 0], l[r, 0], acc[r, c]) with the tile's
    scores of row r and the tile's values of channel c. -/
theorem upd_is_step (q : Vec Ideal S1x512x64 .bf16) (k v : Vec Ideal S1x1024x64 .bf16) (m l : Vec Ideal S512x1 .f32)
    (acc : Vec Ideal S512x64 .f32) (r : Fin 512) (c : Fin 64) :
    (k1_pay2 (k1_pay9 q k m) (ix2 r 0), k1_pay12 q k m m l (ix2 r 0),
        k1_pay1 (k1_pay7 v) (k1_pay10 q k m m) (k1_pay11 q k m) acc (ix2 r c))
      = OnlineSoftmax.step (m (ix2 r 0), l (ix2 r 0), acc (ix2 r c)) (tileScore q k r) (fun j => v (ix3 0 j c)) := by
  rw [upd_m_apply, upd_l_apply, upd_acc_apply]
  rfl

end Cert.Attn

end
-- ==== Proof.Pay1Fin.lean ====
/-
  The attention kernel's last step, read at an entry of what it stores.

  After the fourth key tile the kernel multiplies the running numerator acc[r, c] of every query row by the reciprocal
  1 / l[r, 0] of the row's running denominator (1 is the f32 word 0x3F800000), multiplies the output weight ow[o, c]
  with the result contracting the channel axis of both, adds the output bias ob[o, 0] to every position, and stores
  the block channel-major. Over the extended reals the entry stored at (0, o, r) is

      (∑ c, ow[o, c] · (acc[r, c] · (1 / l[r, 0]))) + ob[o, 0].
-/
import proofs.«141329_j15582141350418_2_alg».proof.Proof.Gen.KernelIdeal.Skeleton
import proofs.«141329_j15582141350418_2_alg».proof.Proof.LibGram
import proofs.«141329_j15582141350418_2_alg».proof.Proof.LibColumn
import proofs.«141329_j15582141350418_2_alg».proof.Proof.Spec
import Idealize.ShloMosaic.Lib.ValueLayout
import Idealize.ShloMosaic.PureOps.Ideal.Laws

noncomputable section

open scoped BigOperators

namespace Cert.Attn

open Cert.KernelIdeal Cert.KernelIdeal.Gen Idealize.ShloMosaic Idealize.ShloMosaic.ValueIdx

/-- The free coordinates of the output product's dimension record: the left operand's row is the result's row … -/
theorem dotOut_lhs0 (j : S64x512.Idx) (p : dot_S64x64_S512x64_S64x512_1_1_0_0_n_n.contr.Idx) :
    (dot_S64x64_S512x64_S64x512_1_1_0_0_n_n.lhsIdx j p 0).val = (j 0).val := by
  unfold DotDims.lhsIdx
  rw [dif_neg (show ¬(0 : Fin S64x64.rank) ∈ dot_S64x64_S512x64_S64x512_1_1_0_0_n_n.lhsBatch by decide),
    dif_pos (show (0 : Fin S64x64.rank) ∈ dot_S64x64_S512x64_S64x512_1_1_0_0_n_n.lhsNonContracting by decide)]
  rfl

/-- … and the right operand's row is the result's column. -/
theorem dotOut_rhs0 (j : S64x512.Idx) (p : dot_S64x64_S512x64_S64x512_1_1_0_0_n_n.contr.Idx) :
    (dot_S64x64_S512x64_S64x512_1_1_0_0_n_n.rhsIdx j p 0).val = (j 1).val := by
  unfold DotDims.rhsIdx
  rw [dif_neg (show ¬(0 : Fin S512x64.rank) ∈ dot_S64x64_S512x64_S64x512_1_1_0_0_n_n.rhsBatch by decide),
    dif_pos (show (0 : Fin S512x64.rank) ∈ dot_S64x64_S512x64_S64x512_1_1_0_0_n_n.rhsNonContracting by decide)]
  rfl

/-- The stored output block at (0, o, r). -/
theorem fin_out_apply (acc : Vec Ideal S512x64 .f32) (l : Vec Ideal S512x1 .f32) (ow : Vec Ideal S64x64 .f32)
    (ob : Vec Ideal S64x1 .f32) (o : Fin 64) (r : Fin 512) :
    k1_pay3 acc l ow ob (ix3 0 o r)
      = (∑ c : Fin 64, ow (ix2 o c) * (acc (ix2 r c) * Ideal.div oneW (l (ix2 r 0)))) + ob (ix2 o 0) := by
  unfold k1_pay3
  refine (shapeCast_ab_1ab_apply _ shapeCasts_S64x512_S1x64x512 0 o r).trans ?_
  refine (addf_apply _ _ _).trans ?_
  refine congrArg₂ (· + ·) ?_ ?_
  · refine (Ideal.matmul_constant_zero_apply dot_S64x64_S512x64_S64x512_1_1_0_0_n_n none _ _ (ix2 o r)).trans ?_
    refine (Gram.sum_contr_last dot_S64x64_S512x64_S64x512_1_1_0_0_n_n rfl rfl rfl rfl dotOut_lhs0 dotOut_rhs0
      _ _ (ix2 o r)).trans ?_
    refine Finset.sum_congr rfl fun c _ => ?_
    refine congrArg (ow (ix2 o c) * ·) ?_
    refine (mulf_apply _ _ _).trans ?_
    refine congrArg (acc (ix2 r c) * ·) ?_
    exact broadcastTo_a1_ab_apply _ broadcasts_S512x1_S512x64 r c
  · refine (broadcastTo_a1_ab_apply _ broadcasts_S64x1_S64x512 o r).trans ?_
    rw [shapeCast_self]

end Cert.Attn

end
-- ==== Proof.Pay1Block.lean ====
/-
  The attention kernel over the four key tiles of one query block, read at one entry of the stored output block.

  For a query row r of the block and an output channel ch, the three carried buffers hold at (r, 0), (r, 0) and
  (r, ch) a triple (running maximum, running denominator, running numerator). Before the first tile the triple is
  (−∞, 0, 0); every tile replaces it by one step of the online softmax with the tile's scores of row r and the tile's
  values of channel ch. When the block's query row r is row s of the query table, and tile i holds the keys and values
  i · 1024 + j, the score of row r against key j of tile i is the score of position s against that key, so after the
  fourth tile the triple is the state of the online softmax over all 4096 keys; the kernel's last step then gives the
  output linear map of numerator times reciprocal denominator.
-/
import proofs.«141329_j15582141350418_2_alg».proof.Proof.KI.Region1Runs
import proofs.«141329_j15582141350418_2_alg».proof.Proof.Pay1Init
import proofs.«141329_j15582141350418_2_alg».proof.Proof.Pay1Upd
import proofs.«141329_j15582141350418_2_alg».proof.Proof.Pay1Fin
import proofs.«141329_j15582141350418_2_alg».proof.Proof.Spec

noncomputable section

open scoped BigOperators

namespace Cert.Attn

open Cert.KernelIdeal Cert.KernelIdeal.Gen Cert.KernelIdeal.Hand Idealize.ShloMosaic Idealize.ShloMosaic.ValueIdx

/-- The carried triple of query row r and channel ch. -/
def rowState (S : Scr1 Ideal) (r : Fin 512) (ch : Fin 64) : EReal × EReal × EReal :=
  (S.1 (ix2 r 0), S.2.1 (ix2 r 0), S.2.2 (ix2 r ch))

/-- Before the first tile the triple is (−∞, 0, 0). -/
theorem rowState_init (r : Fin 512) (ch : Fin 64) : rowState (init1 (F := Ideal)) r ch = OnlineSoftmax.init := by
  unfold rowState init1 OnlineSoftmax.init
  exact congrArg₂ Prod.mk (init_m_apply r) (congrArg₂ Prod.mk (init_l_apply r) (init_acc_apply r ch))

/-- One tile: the triple after the tile is one step of the online softmax over the tile's keys. -/
theorem rowState_upd (Q K V : Fin 16 → Fin 4096 → Fin 64 → EReal) (n : Fin 16) (s : Fin 4096) (r : Fin 512) (i : Fin 4)
    (q : Vec Ideal S1x512x64 .bf16) (k v : Vec Ideal S1x1024x64 .bf16)
    (hq : ∀ ch : Fin 64, q (ix3 0 r ch) = Q n s ch)
    (hk : ∀ (j : Fin 1024) (ch : Fin 64), k (ix3 0 j ch) = K n (key i j) ch)
    (hv : ∀ (j : Fin 1024) (ch : Fin 64), v (ix3 0 j ch) = V n (key i j) ch)
    (S : Scr1 Ideal) (ch : Fin 64) :
    rowState (upd1 q k v S) r ch = ktile Q K V n s ch i (rowState S r ch) := by
  have hs : tileScore q k r = fun j : Fin 1024 => kscore Q K n s (key i j) := by
    funext j
    unfold tileScore kscore
    exact Finset.sum_congr rfl fun c _ => by rw [hq c, hk j c]
  have hvv : (fun j : Fin 1024 => v (ix3 0 j ch)) = fun j : Fin 1024 => V n (key i j) ch := funext fun j => hv j ch
  unfold ktile
  rw [← hs, ← hvv]
  exact upd_is_step q k v S.1 S.2.1 S.2.2 r ch

/-- The carried buffers after the four tiles. -/
def state4 (q : Vec Ideal S1x512x64 .bf16) (k v : Fin 4 → Vec Ideal S1x1024x64 .bf16) : Scr1 Ideal :=
  upd1 q (k 3) (v 3) (upd1 q (k 2) (v 2) (upd1 q (k 1) (v 1) (upd1 q (k 0) (v 0) (init1 (F := Ideal)))))

/-- After the four tiles the triple is the state of the online softmax over all the keys. -/
theorem rowState_state4 (Q K V : Fin 16 → Fin 4096 → Fin 64 → EReal) (n : Fin 16) (s : Fin 4096) (r : Fin 512)
    (q : Vec Ideal S1x512x64 .bf16) (k v : Fin 4 → Vec Ideal S1x1024x64 .bf16)
    (hq : ∀ ch : Fin 64, q (ix3 0 r ch) = Q n s ch)
    (hk : ∀ (i : Fin 4) (j : Fin 1024) (ch : Fin 64), k i (ix3 0 j ch) = K n (key i j) ch)
    (hv : ∀ (i : Fin 4) (j : Fin 1024) (ch : Fin 64), v i (ix3 0 j ch) = V n (key i j) ch) (ch : Fin 64) :
    rowState (state4 q k v) r ch = kstate Q K V n s ch := by
  unfold state4 kstate
  rw [rowState_upd Q K V n s r 3 q (k 3) (v 3) hq (hk 3) (hv 3),
    rowState_upd Q K V n s r 2 q (k 2) (v 2) hq (hk 2) (hv 2),
    rowState_upd Q K V n s r 1 q (k 1) (v 1) hq (hk 1) (hv 1),
    rowState_upd Q K V n s r 0 q (k 0) (v 0) hq (hk 0) (hv 0), rowState_init]

/-- The stored output block at (0, o, r), with the carried buffers after the four tiles named. -/
theorem out_block_eq_state4 (Q K V : Fin 16 → Fin 4096 → Fin 64 → EReal) (owf : Fin 64 → Fin 64 → EReal) (obf : Fin 64 → EReal)
    (n : Fin 16) (s : Fin 4096) (r : Fin 512)
    (q : Vec Ideal S1x512x64 .bf16) (k v : Fin 4 → Vec Ideal S1x1024x64 .bf16) (ow : Vec Ideal S64x64 .f32) (ob : Vec Ideal S64x1 .f32)
    (hq : ∀ ch : Fin 64, q (ix3 0 r ch) = Q n s ch)
    (hk : ∀ (i : Fin 4) (j : Fin 1024) (ch : Fin 64), k i (ix3 0 j ch) = K n (key i j) ch)
    (hv : ∀ (i : Fin 4) (j : Fin 1024) (ch : Fin 64), v i (ix3 0 j ch) = V n (key i j) ch)
    (how : ∀ o ch : Fin 64, ow (ix2 o ch) = owf o ch) (hob : ∀ o : Fin 64, ob (ix2 o 0) = obf o) (o : Fin 64) :
    fin1 (state4 q k v).2.2 (state4 q k v).2.1 ow ob (ix3 0 o r) = kout Q K V owf obf n o s := by
  unfold fin1 kout
  refine (fin_out_apply _ _ ow ob o r).trans ?_
  refine congrArg₂ (· + ·) (Finset.sum_congr rfl fun c _ => ?_) (hob o)
  have hst := rowState_state4 Q K V n s r q k v hq hk hv c
  unfold kattn
  rw [how o c, ← hst]
  rfl

/-- The stored output block at (0, o, r) is the attention output of position s sent through the output linear map. -/
theorem out_block_eq (Q K V : Fin 16 → Fin 4096 → Fin 64 → EReal) (owf : Fin 64 → Fin 64 → EReal) (obf : Fin 64 → EReal)
    (n : Fin 16) (s : Fin 4096) (r : Fin 512)
    (q : Vec Ideal S1x512x64 .bf16) (k v : Fin 4 → Vec Ideal S1x1024x64 .bf16) (ow : Vec Ideal S64x64 .f32) (ob : Vec Ideal S64x1 .f32)
    (hq : ∀ ch : Fin 64, q (ix3 0 r ch) = Q n s ch)
    (hk : ∀ (i : Fin 4) (j : Fin 1024) (ch : Fin 64), k i (ix3 0 j ch) = K n (key i j) ch)
    (hv : ∀ (i : Fin 4) (j : Fin 1024) (ch : Fin 64), v i (ix3 0 j ch) = V n (key i j) ch)
    (how : ∀ o ch : Fin 64, ow (ix2 o ch) = owf o ch) (hob : ∀ o : Fin 64, ob (ix2 o 0) = obf o) (o : Fin 64) :
    let S4 := Cert.KernelIdeal.Hand.upd1 q (k 3) (v 3) (Cert.KernelIdeal.Hand.upd1 q (k 2) (v 2)
      (Cert.KernelIdeal.Hand.upd1 q (k 1) (v 1) (Cert.KernelIdeal.Hand.upd1 q (k 0) (v 0) (Cert.KernelIdeal.Hand.init1 (F := Ideal)))))
    Cert.KernelIdeal.Hand.fin1 S4.2.2 S4.2.1 ow ob (ix3 0 o r) = kout Q K V owf obf n o s :=
  out_block_eq_state4 Q K V owf obf n s r q k v ow ob hq hk hv how hob o

end Cert.Attn

end
-- ==== Proof.KI.Value1.lean ====
/-
  What the attention region leaves in its result array, entry by entry.

  The result block of image n and column block qi is written back once, at the last of the run's four key tiles. At
  that point the three carried buffers hold four updates from the initial triple, one per key tile of the run, all
  with the same query block (rows 512 · qi … of image n) and with the key and value tiles 0, 1, 2, 3 of image n. Read
  at column r of the block this is the whole attention computation for position 512 · qi + r: the online softmax
  over all 4096 keys and the output linear map. The blocks of the 128 runs tile the result array, so after the region
  entry (n, o, s) of the result is the attention output of position s of image n at output channel o.
-/
import proofs.«141329_j15582141350418_2_alg».proof.Proof.KI.Region1
import proofs.«141329_j15582141350418_2_alg».proof.Proof.KI.Value1Blocks
import proofs.«141329_j15582141350418_2_alg».proof.Proof.Pay1Block

set_option maxRecDepth 16384

noncomputable section

open scoped BigOperators

namespace Cert.KernelIdeal.Hand

open Cert.KernelIdeal Cert.KernelIdeal.Gen Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The result array as one function of the arrays the region finds: entry (n, o, s) is the attention output of the
    three tables at image n, position s, sent through the output linear map at channel o. -/
def attnOut (c : Dev nD) : S16x64x4096.Idx → EReal := fun i =>
  kout (fun n s ch => (V c main_v5_0 : S16x4096x64.Idx → EReal) (ix3 n s ch))
    (fun n s ch => (V c main_v5_1 : S16x4096x64.Idx → EReal) (ix3 n s ch))
    (fun n s ch => (V c main_v5_2 : S16x4096x64.Idx → EReal) (ix3 n s ch))
    (fun o ch => (V c main_arg7 : S64x64.Idx → EReal) (ix2 o ch)) (fun o => (V c main_v4 : S64x1.Idx → EReal) (ix2 o 0))
    (i 0) (i 1) (i 2)

/-- Key tile i of run g (image g / 8, query block g % 8): grid point 4 · g + i. -/
def runPt (g : ℕ) (hg : g < 128) (i : Fin 4) : Fin cfg1.N :=
  ⟨4 * g + i.val, by have hi := i.isLt; have hN : cfg1.N = 512 := Gen.N_1; omega⟩

theorem runPt_val (g : ℕ) (hg : g < 128) (i : Fin 4) : (runPt g hg i).val = 4 * g + i.val := rfl

/-- The carried triple after a point does not depend on how the point's number is written. -/
theorem scrAt1_congr (c : Dev nD) {n m : ℕ} (h : n = m) (hn : n < cfg1.N) (hm : m < cfg1.N) :
    scrAt1 V c n hn = scrAt1 V c m hm := by
  subst h; rfl

/-- After the last key tile of run g the carried triple is four updates from the initial triple, one per tile. -/
theorem scr_run (c : Dev nD) (g : ℕ) (hg : g < 128) :
    scrAt1 V c (runPt g hg 3).val (runPt g hg 3).isLt
      = upd1 (iblk1 V c 0 (runPt g hg 3)) (iblk1 V c 1 (runPt g hg 3)) (iblk1 V c 2 (runPt g hg 3))
          (upd1 (iblk1 V c 0 (runPt g hg 2)) (iblk1 V c 1 (runPt g hg 2)) (iblk1 V c 2 (runPt g hg 2))
            (upd1 (iblk1 V c 0 (runPt g hg 1)) (iblk1 V c 1 (runPt g hg 1)) (iblk1 V c 2 (runPt g hg 1))
              (upd1 (iblk1 V c 0 (runPt g hg 0)) (iblk1 V c 1 (runPt g hg 0)) (iblk1 V c 2 (runPt g hg 0)) init1))) := by
  rw [scrAt1_next V c (runPt g hg 3) (by show (4 * g + 3) % 4 ≠ 0; omega),
    scrAt1_congr V c (show (runPt g hg 3).val - 1 = (runPt g hg 2).val by show 4 * g + 3 - 1 = 4 * g + 2; omega) _ (runPt g hg 2).isLt,
    scrAt1_next V c (runPt g hg 2) (by show (4 * g + 2) % 4 ≠ 0; omega),
    scrAt1_congr V c (show (runPt g hg 2).val - 1 = (runPt g hg 1).val by show 4 * g + 2 - 1 = 4 * g + 1; omega) _ (runPt g hg 1).isLt,
    scrAt1_next V c (runPt g hg 1) (by show (4 * g + 1) % 4 ≠ 0; omega),
    scrAt1_congr V c (show (runPt g hg 1).val - 1 = (runPt g hg 0).val by show 4 * g + 1 - 1 = 4 * g + 0; omega) _ (runPt g hg 0).isLt,
    scrAt1_first V c (runPt g hg 0) (by show (4 * g + 0) % 4 = 0; omega)]

/-- What the last key tile of run g writes back is its block of the attention output. -/
theorem flushed_run (c : Dev nD) (g : ℕ) (hg : g < 128) :
    (dat1 V c).flushed 5 (runPt g hg 3)
      = ((cfg1.win 5).blk (runPt g hg 3)).view.read (Elt Ideal) (attnOut V c) := by
  have hv3 : (runPt g hg 3).val = 4 * g + 3 := rfl
  show (cfg1.win 5).cut (grid1.coords (runPt g hg 3)) ((dat1 V c).after 5 (runPt g hg 3)) = _
  rw [after1_5, outAt1_last V c (runPt g hg 3) (by rw [hv3]; omega), scr_run,
    iblk1_0_run V c (runPt g hg 3) (runPt g hg 2) (by show (4 * g + 2) / 4 = (4 * g + 3) / 4; omega),
    iblk1_0_run V c (runPt g hg 3) (runPt g hg 1) (by show (4 * g + 1) / 4 = (4 * g + 3) / 4; omega),
    iblk1_0_run V c (runPt g hg 3) (runPt g hg 0) (by show (4 * g + 0) / 4 = (4 * g + 3) / 4; omega)]
  refine funext fun (j : S1x64x512.Idx) => ?_
  have hj0 : j 0 = (0 : Fin 1) := Fin.ext (by have h : (j 0).val < 1 := (j 0).isLt; show (j 0).val = 0; omega)
  have hj : j = ix3 (0 : Fin 1) (j 1) (j 2) := (eq_ix3 j).trans (congrArg (fun a : Fin 1 => ix3 a (j 1) (j 2)) hj0)
  have hr : (j 2).val < 512 := (j 2).isLt
  obtain ⟨-, -, -, -, -, -, -, -, -, -, -, -, -, e0, e1, e2⟩ := idx_facts1 (runPt g hg 3)
  rw [hv3] at e0 e2
  -- image g / 8, position 512 · (g % 8) + the block's column
  have hb := out_block_eq_state4
    (fun n s ch => (V c main_v5_0 : S16x4096x64.Idx → EReal) (ix3 n s ch))
    (fun n s ch => (V c main_v5_1 : S16x4096x64.Idx → EReal) (ix3 n s ch))
    (fun n s ch => (V c main_v5_2 : S16x4096x64.Idx → EReal) (ix3 n s ch))
    (fun o ch => (V c main_arg7 : S64x64.Idx → EReal) (ix2 o ch)) (fun o => (V c main_v4 : S64x1.Idx → EReal) (ix2 o 0))
    (⟨g / 8, by omega⟩ : Fin 16) (⟨g % 8 * 512 + (j 2).val, by omega⟩ : Fin 4096) (j 2)
    (iblk1 V c 0 (runPt g hg 3)) (fun i => iblk1 V c 1 (runPt g hg i)) (fun i => iblk1 V c 2 (runPt g hg i))
    (iblk1 V c 3 (runPt g hg 3)) (iblk1 V c 4 (runPt g hg 3))
    (fun ch => iblk1_0_at V c (runPt g hg 3) (ix3 0 (j 2) ch) _ (by show g / 8 = (4 * g + 3) / 32; omega)
      (by show g % 8 * 512 + (j 2).val = (4 * g + 3) / 4 % 8 * 512 + (j 2).val; omega) rfl)
    (fun i jj ch => iblk1_1_at V c (runPt g hg i) (ix3 0 jj ch) _ (by have hi := i.isLt; show g / 8 = (4 * g + i.val) / 32; omega)
      (by have hi := i.isLt; show i.val * 1024 + jj.val = (4 * g + i.val) % 4 * 1024 + jj.val; omega) rfl)
    (fun i jj ch => iblk1_2_at V c (runPt g hg i) (ix3 0 jj ch) _ (by have hi := i.isLt; show g / 8 = (4 * g + i.val) / 32; omega)
      (by have hi := i.isLt; show i.val * 1024 + jj.val = (4 * g + i.val) % 4 * 1024 + jj.val; omega) rfl)
    (fun o ch => iblk1_3_at V c (runPt g hg 3) (ix2 o ch)) (fun o => iblk1_4_at V c (runPt g hg 3) (ix2 o 0)) (j 1)
  unfold state4 at hb
  rw [hj]
  refine hb.trans ?_
  show _ = attnOut V c (((cfg1.win 5).blk (runPt g hg 3)).view.emb (ix3 (0 : Fin 1) (j 1) (j 2)))
  unfold attnOut
  have c0 : (((cfg1.win 5).blk (runPt g hg 3)).view.emb (ix3 (0 : Fin 1) (j 1) (j 2))) 0 = (⟨g / 8, by omega⟩ : Fin 16) :=
    Fin.ext (by show win1_5.index (runPt g hg 3) (0 : Fin 3) * 1 + 1 * 0 = g / 8; omega)
  have c1 : (((cfg1.win 5).blk (runPt g hg 3)).view.emb (ix3 (0 : Fin 1) (j 1) (j 2))) 1 = j 1 :=
    Fin.ext (by show win1_5.index (runPt g hg 3) (1 : Fin 3) * 64 + 1 * (j 1).val = (j 1).val; omega)
  have c2 : (((cfg1.win 5).blk (runPt g hg 3)).view.emb (ix3 (0 : Fin 1) (j 1) (j 2))) 2 = (⟨g % 8 * 512 + (j 2).val, by omega⟩ : Fin 4096) :=
    Fin.ext (by show win1_5.index (runPt g hg 3) (2 : Fin 3) * 512 + 1 * (j 2).val = g % 8 * 512 + (j 2).val; omega)
  rw [c0, c1, c2]

/-- What any writing-back point writes back is its block of the attention output. -/
theorem flushed1_5_eq (c : Dev nD) (t : Fin cfg1.N) (hf : (cfg1.win 5).flush t = true) :
    (dat1 V c).flushed 5 t = ((cfg1.win 5).blk t).view.read (Elt Ideal) (attnOut V c) := by
  have h3 : t.val % 4 = 3 := (flush1_5 t).mp hf
  have ht := lt512 t
  have e : t = runPt (t.val / 4) (by omega) 3 := Fin.ext (by show t.val = 4 * (t.val / 4) + 3; omega)
  rw [e]
  exact flushed_run V c _ _

/-- So the result array ends holding the attention output everywhere. -/
theorem final1_5 (c : Dev nD) : (dat1 V c).arrAt 5 cfg1.N = attnOut V c :=
  (dat1 V c).arrAt_eq_of_cover 5 _ (fun t hf => flushed1_5_eq V c t hf) cover1_5

/-- The result array after the region, at image n, output channel o, position s. -/
theorem arr1_5 (c : Dev nD) (n : Fin 16) (o : Fin 64) (s : Fin 4096) :
    ((dat1 (F := Ideal) V c).arrAt 5 cfg1.N : S16x64x4096.Idx → EReal) (ix3 n o s)
      = kout (fun n s ch => (V c main_v5_0 : S16x4096x64.Idx → EReal) (ix3 n s ch))
          (fun n s ch => (V c main_v5_1 : S16x4096x64.Idx → EReal) (ix3 n s ch))
          (fun n s ch => (V c main_v5_2 : S16x4096x64.Idx → EReal) (ix3 n s ch))
          (fun o ch => (V c main_arg7 : S64x64.Idx → EReal) (ix2 o ch)) (fun o => (V c main_v4 : S64x1.Idx → EReal) (ix2 o 0)) n o s := by
  rw [final1_5]
  rfl

end Cert.KernelIdeal.Hand

end
-- ==== Proof.KI.KernelValue.lean ====
/-
  The value of the tiled attention program: its result buffer, entry by entry, is the tiled computation of the nine
  arguments — the closing reshape undone, the attention kernel's array read through its blocks, the three projected
  tables and the output map's operands traced back to the launch memory.
-/
import proofs.«141329_j15582141350418_2_alg».proof.Proof.Gen.KernelIdeal.Launch
import proofs.«141329_j15582141350418_2_alg».proof.Proof.Gen.KernelIdeal.Skeleton
import proofs.«141329_j15582141350418_2_alg».proof.Proof.Gen.KernelIdeal.Points
import proofs.«141329_j15582141350418_2_alg».proof.Proof.KI.Tables
import proofs.«141329_j15582141350418_2_alg».proof.Proof.KI.Value1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn

variable (m : (ℓ : Loc nD τ sig) → Buf (Elt Ideal) ℓ) (ρ : Dev nD → PrngReg)

/-- Entry (n, o, h, w) of the result buffer is the tiled attention computation of the launch memory's nine
    arguments at image n, output channel o and position h · 64 + w. -/
theorem kernel_value (c : Dev nD) (n : Fin 16) (o h w : Fin 64) :
    (W4 m ρ c (Proc.devRef .tc main_v7) : S16x64x64x64.Idx → EReal) (ix4 n o h w)
      = kernelSpec (readX (m ((c : Thread nD τ).loc main_arg0) : S16x64x64x64.Idx → EReal))
          (readW (m ((c : Thread nD τ).loc main_arg1) : S64x64.Idx → EReal)) (readW (m ((c : Thread nD τ).loc main_arg3) : S64x64.Idx → EReal))
          (readW (m ((c : Thread nD τ).loc main_arg5) : S64x64.Idx → EReal)) (readW (m ((c : Thread nD τ).loc main_arg7) : S64x64.Idx → EReal))
          (readB (m ((c : Thread nD τ).loc main_arg2) : S64.Idx → EReal)) (readB (m ((c : Thread nD τ).loc main_arg4) : S64.Idx → EReal))
          (readB (m ((c : Thread nD τ).loc main_arg6) : S64.Idx → EReal)) (readB (m ((c : Thread nD τ).loc main_arg8) : S64.Idx → EReal))
          n o (posOf h w) := by
  rw [W4_main_v7_apply, arr1_5 (V2 m ρ) c n o (posOf h w), table_q, table_k, table_v, table_ow, table_ob]
  rfl

end Cert.KernelIdeal.Hand

end
-- ==== Proof.RefSpec.lean ====
/-
  Spatial self-attention over 4096 positions with 64 channels, as the plain reference computes it, written over plain
  functions of coordinates (no program, no array type), in the reference's own order of operations.

  Queries, keys and values are the same per-position linear maps of the input as on the kernel's side. The score of
  query s against key t is the scalar product over the 64 channels, multiplied afterwards by one over the square root
  of 64. The softmax over the keys is taken with the row maximum subtracted: the maximum is a fold of max from −∞ over
  all 4096 keys, then once more the maximum with −∞; the denominator is the sum, started from 0, of the exponentials;
  each weight is the exponential divided by the denominator, and only then multiplied with the value and summed over
  the keys. The output linear map follows, and the result is read channel-major.
-/
import Idealize.ShloMosaic.PureOps.Ideal
import proofs.«141329_j15582141350418_2_alg».proof.Proof.Spec

noncomputable section

open scoped BigOperators

namespace Cert.Attn

open Idealize.ShloMosaic

/-- The reference's scale: one over the square root of 64. -/
def rscale : EReal := Ideal.div oneW (Ideal.sqrt sixtyFourW)

section Plain

variable (Q K V : Fin 16 → Fin 4096 → Fin 64 → EReal)

/-- The reference's score of query s against key t: the scalar product, scaled afterwards. -/
def rscore (n : Fin 16) (s t : Fin 4096) : EReal := (∑ c : Fin 64, Q n s c * K n t c) * rscale

/-- The row maximum as the reference computes it: the fold of max from −∞ over all keys, then the maximum with −∞. -/
def rmax (n : Fin 16) (s : Fin 4096) : EReal :=
  max ninfW ((Finset.univ : Finset (Fin 4096)).fold max ninfW (fun t => rscore Q K n s t))

/-- The exponential of a score minus the row maximum. -/
def rexp (n : Fin 16) (s t : Fin 4096) : EReal := Ideal.exp (rscore Q K n s t - rmax Q K n s)

/-- The softmax denominator: the sum of the exponentials over all keys, started from 0. -/
def rden (n : Fin 16) (s : Fin 4096) : EReal := zeroW + ∑ t : Fin 4096, rexp Q K n s t

/-- The attention output: each weight divided by the denominator first, then multiplied with the value. -/
def rattn (n : Fin 16) (s : Fin 4096) (c : Fin 64) : EReal :=
  ∑ t : Fin 4096, Ideal.div (rexp Q K n s t) (rden Q K n s) * V n t c

/-- The output linear map applied to the attention output, read channel-major. -/
def rout (ow : Fin 64 → Fin 64 → EReal) (ob : Fin 64 → EReal) (n : Fin 16) (o : Fin 64) (s : Fin 4096) : EReal :=
  (∑ c : Fin 64, rattn Q K V n s c * ow o c) + ob o

end Plain

/-- The whole reference as one function of the nine inputs. -/
def refSpec (x : Fin 16 → Fin 64 → Fin 4096 → EReal) (qw kw vw ow : Fin 64 → Fin 64 → EReal) (qb kb vb ob : Fin 64 → EReal)
    (n : Fin 16) (o : Fin 64) (s : Fin 4096) : EReal :=
  rout (lin x qw qb) (lin x kw kb) (lin x vw vb) ow ob n o s

end Cert.Attn

end
-- ==== Proof.RefReadProj.lean ====
/-
  The reference program's first stages read at an index: the input with its two spatial axes merged and the channel
  axis moved last is the input read channel-major over merged positions; the three projections are the per-position
  linear maps of the specification; the scalar scale is one over the square root of 64.
-/
import proofs.«141329_j15582141350418_2_alg».proof.Proof.Gen.ReferenceIdeal.Read
import proofs.«141329_j15582141350418_2_alg».proof.Proof.Readings
import proofs.«141329_j15582141350418_2_alg».proof.Proof.RefSpec

noncomputable section

open scoped BigOperators

namespace Cert.Attn

open Cert.ReferenceIdeal Cert.ReferenceIdeal.Read Idealize.ShloMosaic Idealize.ShloMosaic.ValueIdx

/-- Position-major entry (n, s, c) of the re-laid input is entry (n, c, s / 64, s % 64) of the input array. -/
theorem read_v1 (x0 : (⟨S16x64x64x64, .f32⟩ : BufTy).Contents (Elt Ideal)) (n : Fin 16) (s : Fin 4096) (c : Fin 64) :
    val_main_v1 (F := Ideal) x0 (ix3 n s c) = readX x0 n c s := by
  rw [val_main_v1_apply, val_main_v0_apply]
  unfold readX
  refine congrArg x0 (funext fun a => Fin.ext ?_)
  have hn := n.isLt; have hs := s.isLt; have hc := c.isLt
  match a with
  | ⟨0, _⟩ => show ((n.val * 64 + c.val) * 4096 + s.val) / 262144 = n.val; omega
  | ⟨1, _⟩ => show ((n.val * 64 + c.val) * 4096 + s.val) / 4096 % 64 = c.val; omega
  | ⟨2, _⟩ => show ((n.val * 64 + c.val) * 4096 + s.val) / 64 % 64 = s.val / 64; omega
  | ⟨3, _⟩ => show ((n.val * 64 + c.val) * 4096 + s.val) % 64 = s.val % 64; omega

/-- The bias of a projection, spread over images and positions, read at (n, s, o): entry o of the bias vector. -/
theorem bias_idx (n : Fin 16) (s : Fin 4096) (o : Fin 64) : idx_main_v3 (idx_main_v4 (ix3 n s o)) = ix1 o :=
  funext fun a => Fin.ext (by match a with | ⟨0, _⟩ => rfl)

/-- The left operand of a projection's contraction at (n, s, o), channel k: entry (n, s, k). -/
theorem proj_lidx (n : Fin 16) (s : Fin 4096) (o : Fin 64) (k : Fin 64) : lidx_main_v2 (ix3 n s o) k = ix3 n s k :=
  funext fun a => Fin.ext (by match a with | ⟨0, _⟩ => rfl | ⟨1, _⟩ => rfl | ⟨2, _⟩ => rfl)

/-- The right operand of a projection's contraction at (n, s, o), channel k: entry (o, k) of the weight. -/
theorem proj_ridx (n : Fin 16) (s : Fin 4096) (o : Fin 64) (k : Fin 64) : ridx_main_v2 (ix3 n s o) k = ix2 o k :=
  funext fun a => Fin.ext (by match a with | ⟨0, _⟩ => rfl | ⟨1, _⟩ => rfl)

/-- The same three index equations under the names the keys' and the values' stages carry. -/
theorem bias_idx_k (n : Fin 16) (s : Fin 4096) (o : Fin 64) : idx_main_v7 (idx_main_v8 (ix3 n s o)) = ix1 o := bias_idx n s o
theorem proj_lidx_k (n : Fin 16) (s : Fin 4096) (o : Fin 64) (k : Fin 64) : lidx_main_v6 (ix3 n s o) k = ix3 n s k :=
  proj_lidx n s o k
theorem proj_ridx_k (n : Fin 16) (s : Fin 4096) (o : Fin 64) (k : Fin 64) : ridx_main_v6 (ix3 n s o) k = ix2 o k :=
  proj_ridx n s o k
theorem bias_idx_v (n : Fin 16) (s : Fin 4096) (o : Fin 64) : idx_main_v11 (idx_main_v12 (ix3 n s o)) = ix1 o := bias_idx n s o
theorem proj_lidx_v (n : Fin 16) (s : Fin 4096) (o : Fin 64) (k : Fin 64) : lidx_main_v10 (ix3 n s o) k = ix3 n s k :=
  proj_lidx n s o k
theorem proj_ridx_v (n : Fin 16) (s : Fin 4096) (o : Fin 64) (k : Fin 64) : ridx_main_v10 (ix3 n s o) k = ix2 o k :=
  proj_ridx n s o k

/-- The queries. -/
theorem read_v5 (x0 : (⟨S16x64x64x64, .f32⟩ : BufTy).Contents (Elt Ideal)) (x1 : (⟨S64x64, .f32⟩ : BufTy).Contents (Elt Ideal))
    (x2 : (⟨S64, .f32⟩ : BufTy).Contents (Elt Ideal)) (n : Fin 16) (s : Fin 4096) (o : Fin 64) :
    val_main_v5 (F := Ideal) x0 x1 x2 (ix3 n s o) = lin (readX x0) (readW x1) (readB x2) n s o := by
  rw [val_main_v5_apply, val_main_v2_apply, val_main_v4_apply, val_main_v3_apply]
  simp only [proj_lidx, proj_ridx, bias_idx, read_v1, Ideal.addf_def]
  rfl

/-- The keys. -/
theorem read_v9 (x0 : (⟨S16x64x64x64, .f32⟩ : BufTy).Contents (Elt Ideal)) (x3 : (⟨S64x64, .f32⟩ : BufTy).Contents (Elt Ideal))
    (x4 : (⟨S64, .f32⟩ : BufTy).Contents (Elt Ideal)) (n : Fin 16) (s : Fin 4096) (o : Fin 64) :
    val_main_v9 (F := Ideal) x0 x3 x4 (ix3 n s o) = lin (readX x0) (readW x3) (readB x4) n s o := by
  rw [val_main_v9_apply, val_main_v6_apply, val_main_v8_apply, val_main_v7_apply]
  simp only [proj_lidx_k, proj_ridx_k, bias_idx_k, read_v1, Ideal.addf_def]
  rfl

/-- The values. -/
theorem read_v13 (x0 : (⟨S16x64x64x64, .f32⟩ : BufTy).Contents (Elt Ideal)) (x5 : (⟨S64x64, .f32⟩ : BufTy).Contents (Elt Ideal))
    (x6 : (⟨S64, .f32⟩ : BufTy).Contents (Elt Ideal)) (n : Fin 16) (s : Fin 4096) (o : Fin 64) :
    val_main_v13 (F := Ideal) x0 x5 x6 (ix3 n s o) = lin (readX x0) (readW x5) (readB x6) n s o := by
  rw [val_main_v13_apply, val_main_v10_apply, val_main_v12_apply, val_main_v11_apply]
  simp only [proj_lidx_v, proj_ridx_v, bias_idx_v, read_v1, Ideal.addf_def]
  rfl

/-- The scale spread over all scores: one over the square root of 64 at every entry. -/
theorem read_v17 (i : S16x4096x4096.Idx) : val_main_v17 (F := Ideal) i = rscale := by
  rw [val_main_v17_apply, val_main_v15_apply, val_main_cst_0_apply, val_main_v14_apply, val_main_cst_apply]
  rfl

end Cert.Attn

end
-- ==== Proof.LibHostLast3.lean ====
/-
  The host's reduce with max along the last axis of a rank-3 array, read at an index on the extended reals and for any
  extents: over [n0, n1, k] into [n0, n1] it is, at (a, b), the fold of max from the initial value over the k entries
  (a, b, ·).
-/
import Idealize.ShloMosaic.PureOps.Ideal.Laws
import Idealize.ShloMosaic.Lib.ValueIdx

noncomputable section

namespace Idealize.ShloMosaic.HostLast3

open Idealize.ShloMosaic Idealize.ShloMosaic.ValueIdx

/-- The reduced index `(a, b)` with the last coordinate `c` put back is `(a, b, c)`. -/
theorem lift_last {n0 n1 k : ℕ} (h : (⟨3, ![n0, n1, k]⟩ : Shape).Reduces [2] ⟨2, ![n0, n1]⟩)
    (a : Fin n0) (b : Fin n1) (c : Fin k) : h.lift (ix2 a b) c = ix3 a b c :=
  funext fun x => Fin.ext (by match x with | ⟨0, _⟩ => rfl | ⟨1, _⟩ => rfl | ⟨2, _⟩ => rfl)

/-- A host reduce with max over the last axis of an `[n0, n1, k]` array, at `(a, b)`: the fold of max over the
    entries `(a, b, ·)`. -/
theorem reduce_max_last_apply {n0 n1 k : ℕ} (z : (⟨3, ![n0, n1, k]⟩ : Shape).Idx → EReal) {u : Shape}
    (init : u.Idx → EReal) (h' : (⟨3, ![n0, n1, k]⟩ : Shape).ReducesTo [2] ⟨2, ![n0, n1]⟩)
    (h : (⟨3, ![n0, n1, k]⟩ : Shape).Reduces [2] ⟨2, ![n0, n1]⟩) (hu : 0 < u.numel)
    (a : Fin n0) (b : Fin n1) :
    Host.reduce (max : EReal → EReal → EReal) z init h' hu (ix2 a b)
      = (Finset.univ : Finset (Fin k)).fold max (init (Shape.Idx.first hu)) (fun c => z (ix3 a b c)) :=
  (Host.reduce_eq_fold_single max z init h' h hu (ix2 a b)).trans
    (Finset.fold_congr fun c _ => congrArg z (lift_last h a b c))

end Idealize.ShloMosaic.HostLast3

end
-- ==== Proof.RefReadSoftmax.lean ====
/-
  The reference program's softmax stages read at an index: the scaled scores, the row maximum (a max-reduce from −∞
  over the keys, then the maximum with −∞), the exponentials of the differences, the denominator (the sum started
  from 0) and the weights (each exponential divided by its row's denominator).
-/
import proofs.«141329_j15582141350418_2_alg».proof.Proof.RefReadProj
import proofs.«141329_j15582141350418_2_alg».proof.Proof.LibHostLast3

noncomputable section

open scoped BigOperators

namespace Cert.Attn

open Cert.ReferenceIdeal Cert.ReferenceIdeal.Read Idealize.ShloMosaic Idealize.ShloMosaic.ValueIdx

/-- The two operands of the score contraction at (n, s, t), channel k: query entry (n, s, k) and key entry (n, t, k). -/
theorem score_lidx (n : Fin 16) (s t : Fin 4096) (k : Fin 64) : lidx_main_v16 (ix3 n s t) k = ix3 n s k :=
  funext fun a => Fin.ext (by match a with | ⟨0, _⟩ => rfl | ⟨1, _⟩ => rfl | ⟨2, _⟩ => rfl)
theorem score_ridx (n : Fin 16) (s t : Fin 4096) (k : Fin 64) : ridx_main_v16 (ix3 n s t) k = ix3 n t k :=
  funext fun a => Fin.ext (by match a with | ⟨0, _⟩ => rfl | ⟨1, _⟩ => rfl | ⟨2, _⟩ => rfl)

/-- The scaled scores. -/
theorem read_v18 (x0 : (⟨S16x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 16) (s t : Fin 4096) :
    val_main_v18 (F := Ideal) x0 x1 x2 x3 x4 (ix3 n s t) = rscore (lin (readX x0) (readW x1) (readB x2)) (lin (readX x0) (readW x3) (readB x4)) n s t := by
  rw [val_main_v18_apply, val_main_v16_apply, read_v17]
  simp only [score_lidx, score_ridx, read_v5, read_v9, Ideal.mulf_def]
  rfl

/-- The row maximum. -/
theorem read_v21 (x0 : (⟨S16x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 16) (s : Fin 4096) :
    val_main_v21 (F := Ideal) x0 x1 x2 x3 x4 (ix2 n s) = rmax (lin (readX x0) (readW x1) (readB x2)) (lin (readX x0) (readW x3) (readB x4)) n s := by
  rw [val_main_v21_apply, val_main_v20_apply, val_main_cst_2_apply]
  unfold val_main_v19
  refine (congrArg (FloatOps.maximumf (FloatOps.ofBits (F := Ideal) .f32 0xFF800000#32))
    (HostLast3.reduce_max_last_apply (val_main_v18 (F := Ideal) x0 x1 x2 x3 x4) (val_main_cst_1 (F := Ideal))
      Cert.ReferenceIdeal.Gen.reducesTo_S16x4096x4096_S16x4096_d2 (by decide) Cert.ReferenceIdeal.Gen.h_S_ n s)).trans ?_
  simp only [read_v18, val_main_cst_1_apply]
  rfl

/-- A row's maximum spread along the keys, read at (n, s, t): the row's entry (n, s). -/
theorem rowmax_idx (n : Fin 16) (s t : Fin 4096) : idx_main_v22 (idx_main_v23 (ix3 n s t)) = ix2 n s :=
  funext fun a => Fin.ext (by match a with | ⟨0, _⟩ => rfl | ⟨1, _⟩ => rfl)

/-- The exponentials of the scores minus the row maximum. -/
theorem read_v25 (x0 : (⟨S16x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 16) (s t : Fin 4096) :
    val_main_v25 (F := Ideal) x0 x1 x2 x3 x4 (ix3 n s t) = rexp (lin (readX x0) (readW x1) (readB x2)) (lin (readX x0) (readW x3) (readB x4)) n s t := by
  rw [val_main_v25_apply, val_main_v24_apply, val_main_v23_apply, val_main_v22_apply, rowmax_idx, read_v18, read_v21]
  rfl

/-- The entries a row's sum runs over: (n, s, k) for every key k. -/
theorem den_idx (n : Fin 16) (s : Fin 4096) (k : Fin 4096) : idx_main_v26 (ix2 n s) k = ix3 n s k :=
  funext fun a => Fin.ext (by match a with | ⟨0, _⟩ => rfl | ⟨1, _⟩ => rfl | ⟨2, _⟩ => rfl)

/-- The softmax denominator. -/
theorem read_v26 (x0 : (⟨S16x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 16) (s : Fin 4096) :
    val_main_v26 (F := Ideal) x0 x1 x2 x3 x4 (ix2 n s) = rden (lin (readX x0) (readW x1) (readB x2)) (lin (readX x0) (readW x3) (readB x4)) n s := by
  rw [val_main_v26_apply]
  simp only [den_idx, read_v25, val_main_cst_3_apply]
  rfl

/-- A row's denominator spread along the keys, read at (n, s, t): the row's entry (n, s). -/
theorem rowden_idx (n : Fin 16) (s t : Fin 4096) : idx_main_v27 (idx_main_v28 (ix3 n s t)) = ix2 n s :=
  funext fun a => Fin.ext (by match a with | ⟨0, _⟩ => rfl | ⟨1, _⟩ => rfl)

/-- The softmax weights: each exponential divided by its row's denominator. -/
theorem read_v29 (x0 : (⟨S16x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 16) (s t : Fin 4096) :
    val_main_v29 (F := Ideal) x0 x1 x2 x3 x4 (ix3 n s t)
      = Ideal.div (rexp (lin (readX x0) (readW x1) (readB x2)) (lin (readX x0) (readW x3) (readB x4)) n s t) (rden (lin (readX x0) (readW x1) (readB x2)) (lin (readX x0) (readW x3) (readB x4)) n s) := by
  rw [val_main_v29_apply, val_main_v28_apply, val_main_v27_apply, rowden_idx, read_v25, read_v26]
  rfl

end Cert.Attn

end
-- ==== Proof.RefRead.lean ====
/-
  The reference program's result read at an index is the specification of the reference: the softmax weights
  contracted with the values over the keys, the output linear map, and the final re-layout to channel-major with the
  position axis split into rows and columns.
-/
import proofs.«141329_j15582141350418_2_alg».proof.Proof.RefReadSoftmax

noncomputable section

open scoped BigOperators

namespace Cert.Attn

open Cert.ReferenceIdeal Cert.ReferenceIdeal.Read Idealize.ShloMosaic Idealize.ShloMosaic.ValueIdx

/-- The two operands of the weights-times-values contraction at (n, s, c), key k: weight (n, s, k) and value (n, k, c). -/
theorem attn_lidx (n : Fin 16) (s : Fin 4096) (c : Fin 64) (k : Fin 4096) : lidx_main_v30 (ix3 n s c) k = ix3 n s k :=
  funext fun a => Fin.ext (by match a with | ⟨0, _⟩ => rfl | ⟨1, _⟩ => rfl | ⟨2, _⟩ => rfl)
theorem attn_ridx (n : Fin 16) (s : Fin 4096) (c : Fin 64) (k : Fin 4096) : ridx_main_v30 (ix3 n s c) k = ix3 n k c :=
  funext fun a => Fin.ext (by match a with | ⟨0, _⟩ => rfl | ⟨1, _⟩ => rfl | ⟨2, _⟩ => rfl)

/-- The attention output before the output map. -/
theorem read_v30 (x0 : (⟨S16x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (n : Fin 16) (s : Fin 4096) (c : Fin 64) :
    val_main_v30 (F := Ideal) x0 x1 x2 x3 x4 x5 x6 (ix3 n s c) = rattn (lin (readX x0) (readW x1) (readB x2)) (lin (readX x0) (readW x3) (readB x4)) (lin (readX x0) (readW x5) (readB x6)) n s c := by
  rw [val_main_v30_apply]
  simp only [attn_lidx, attn_ridx, read_v29, read_v13]
  rfl

/-- The output map's operands and bias at (n, s, o). -/
theorem out_lidx (n : Fin 16) (s : Fin 4096) (o : Fin 64) (k : Fin 64) : lidx_main_v31 (ix3 n s o) k = ix3 n s k :=
  funext fun a => Fin.ext (by match a with | ⟨0, _⟩ => rfl | ⟨1, _⟩ => rfl | ⟨2, _⟩ => rfl)
theorem out_ridx (n : Fin 16) (s : Fin 4096) (o : Fin 64) (k : Fin 64) : ridx_main_v31 (ix3 n s o) k = ix2 o k :=
  funext fun a => Fin.ext (by match a with | ⟨0, _⟩ => rfl | ⟨1, _⟩ => rfl)
theorem out_bias_idx (n : Fin 16) (s : Fin 4096) (o : Fin 64) : idx_main_v32 (idx_main_v33 (ix3 n s o)) = ix1 o :=
  funext fun a => Fin.ext (by match a with | ⟨0, _⟩ => rfl)

/-- The output map applied, position-major. -/
theorem read_v34 (x0 : (⟨S16x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (n : Fin 16) (s : Fin 4096) (o : Fin 64) :
    val_main_v34 (F := Ideal) x0 x1 x2 x3 x4 x5 x6 x7 x8 (ix3 n s o)
      = rout (lin (readX x0) (readW x1) (readB x2)) (lin (readX x0) (readW x3) (readB x4)) (lin (readX x0) (readW x5) (readB x6)) (readW x7) (readB x8) n o s := by
  rw [val_main_v34_apply, val_main_v31_apply, val_main_v33_apply, val_main_v32_apply]
  simp only [out_lidx, out_ridx, out_bias_idx, read_v30, Ideal.addf_def]
  rfl

/-- Entry (n, o, h, w) of the result comes from position-major entry (n, h · 64 + w, o). -/
theorem final_idx (n : Fin 16) (o h w : Fin 64) : idx_main_v35 (idx_main_v36 (ix4 n o h w)) = ix3 n (posOf h w) o := by
  have hn := n.isLt; have ho := o.isLt; have hh := h.isLt; have hw := w.isLt
  refine funext fun a => Fin.ext ?_
  match a with
  | ⟨0, _⟩ => show (((n.val * 64 + o.val) * 64 + h.val) * 64 + w.val) / 262144 = n.val; omega
  | ⟨1, _⟩ => show (((n.val * 64 + o.val) * 64 + h.val) * 64 + w.val) % 4096 = h.val * 64 + w.val; omega
  | ⟨2, _⟩ => show (((n.val * 64 + o.val) * 64 + h.val) * 64 + w.val) / 4096 % 64 = o.val; omega

/-- The reference program's result, entry by entry, is the reference's specification of the nine inputs. -/
theorem ref_value (x0 : (⟨S16x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (n : Fin 16) (o h w : Fin 64) :
    Cert.ReferenceIdeal.Read.val_main_v36 (F := Ideal) x0 x1 x2 x3 x4 x5 x6 x7 x8 (ValueIdx.ix4 n o h w)
      = refSpec (readX x0) (readW x1) (readW x3) (readW x5) (readW x7) (readB x2) (readB x4) (readB x6) (readB x8)
          n o (posOf h w) := by
  rw [val_main_v36_apply, val_main_v35_apply, final_idx, read_v34]
  rfl

end Cert.Attn

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LibRealEntries.lean ====
/-
  Extended reals that are real numbers.

  The extended reals carry every operation a float program uses; on the two infinities the operations have corner
  values, and the ring laws (distributivity, cancellation) fail there.  On entries that are coercions of real
  numbers nothing of the kind happens: each operation is the coercion of the real operation.  The lemmas below state
  that, one operation at a time, in the direction that pushes a coercion outwards, so that an equation between
  extended reals whose entries are all real becomes the coercion of an equation between reals.
-/
import Idealize.ShloMosaic.PureOps.Ideal
import proofs.«141329_j15582141350418_2_alg».proof.Proof.LibTripleSum

noncomputable section

open scoped BigOperators

namespace Idealize.ShloMosaic.RealEntries

/-- The sum of two real entries is the real sum. -/
theorem add_coe (a b : ℝ) : (a : EReal) + (b : EReal) = ((a + b : ℝ) : EReal) := (EReal.coe_add a b).symm

/-- The product of two real entries is the real product. -/
theorem mul_coe (a b : ℝ) : (a : EReal) * (b : EReal) = ((a * b : ℝ) : EReal) := (EReal.coe_mul a b).symm

/-- The difference of two real entries is the real difference. -/
theorem sub_coe (a b : ℝ) : (a : EReal) - (b : EReal) = ((a - b : ℝ) : EReal) := (EReal.coe_sub a b).symm

/-- The negative of a real entry is the real negative. -/
theorem neg_coe (a : ℝ) : -(a : EReal) = ((-a : ℝ) : EReal) := (EReal.coe_neg a).symm

/-- The extended real `1` is the real `1`. -/
theorem one_coe : (1 : EReal) = ((1 : ℝ) : EReal) := EReal.coe_one.symm

/-- The extended real `0` is the real `0`. -/
theorem zero_coe : (0 : EReal) = ((0 : ℝ) : EReal) := EReal.coe_zero.symm

/-- The larger of two real entries is the real maximum. -/
theorem max_coe (a b : ℝ) : max (a : EReal) (b : EReal) = ((max a b : ℝ) : EReal) :=
  (EReal.coe_strictMono.monotone.map_max (a := a) (b := b)).symm

/-- Division of a real entry by a nonzero real entry is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The exponential of a real entry is the real exponential. -/
theorem exp_coe (a : ℝ) : Ideal.exp (a : EReal) = ((Real.exp a : ℝ) : EReal) := rfl

/-- The logistic function of a real entry is the real `(1 + e^(-a))⁻¹`. -/
theorem logistic_coe (a : ℝ) : Ideal.logistic (a : EReal) = (((1 + Real.exp (-a))⁻¹ : ℝ) : EReal) :=
  Ideal.logistic_coe a

/-- The square root of a nonnegative real entry is the real square root. -/
theorem sqrt_coe_of_nonneg {a : ℝ} (ha : 0 ≤ a) : Ideal.sqrt (a : EReal) = ((Real.sqrt a : ℝ) : EReal) := by
  rw [Ideal.sqrt_coe, if_neg (not_lt.mpr ha)]

/-- A finite sum of real entries is the real sum. -/
theorem sum_coe {ι : Type*} (s : Finset ι) (f : ι → ℝ) : ∑ i ∈ s, (f i : EReal) = ((∑ i ∈ s, f i : ℝ) : EReal) :=
  (TripleSum.coe_finsetSum s f).symm

/-- A sum of real entries over a finite type is the real sum. -/
theorem univ_sum_coe {ι : Type*} [Fintype ι] (f : ι → ℝ) : ∑ i, (f i : EReal) = ((∑ i, f i : ℝ) : EReal) :=
  sum_coe Finset.univ f

/-- The real logistic denominator is positive, hence not zero. -/
theorem one_add_exp_pos (a : ℝ) : 0 < 1 + Real.exp a := by positivity

/-- A sum of squares of reals is nonnegative. -/
theorem sum_mul_self_nonneg {ι : Type*} (s : Finset ι) (f : ι → ℝ) : 0 ≤ ∑ i ∈ s, f i * f i :=
  Finset.sum_nonneg fun i _ => mul_self_nonneg (f i)

/-- A maximum with a positive real is positive. -/
theorem max_pos_of_right (a : ℝ) {e : ℝ} (he : 0 < e) : 0 < max a e := lt_max_of_lt_right he

end Idealize.ShloMosaic.RealEntries

end
-- ==== Proof.IdentWords.lean ====
/-
  The five float words of the two programs as extended reals: 0x3E000000 is 1/8, 0x3F800000 is 1, 0x00000000 is 0,
  0xFF800000 is −∞ and 0x42800000 is 64; and the reference's scale, one over the square root of 64, is 1/8 as well,
  because the square root of 64 is exactly 8.
-/
import Idealize.ShloMosaic.Lib.IdealHost
import proofs.«141329_j15582141350418_2_alg».proof.Proof.LibRealEntries
import proofs.«141329_j15582141350418_2_alg».proof.Proof.Spec

noncomputable section

namespace Cert.Attn

open Idealize.ShloMosaic

/-- The word 0x3E000000 is the real number 1/8. -/
theorem eighth_eq : eighth = (((1 : ℝ) / 8 : ℝ) : EReal) := by
  unfold eighth
  simp [Ideal.ofBits, Ideal.ieee, -EReal.coe_mul]; norm_num

/-- The word 0x3F800000 is 1. -/
theorem oneW_eq : oneW = 1 := Ideal.ofBits_one_f32

/-- The word 0x00000000 is 0. -/
theorem zeroW_eq : zeroW = 0 := Ideal.ofBits_zero_f32

/-- The word 0xFF800000 is −∞. -/
theorem ninfW_eq : ninfW = ⊥ := by
  unfold ninfW
  simp [Ideal.ofBits, Ideal.ieee]

/-- The word 0x42800000 is the real number 64. -/
theorem sixtyFourW_eq : sixtyFourW = ((64 : ℝ) : EReal) := by
  unfold sixtyFourW
  simp [Ideal.ofBits, Ideal.ieee, -EReal.coe_mul]; norm_num

/-- The square root of 64 is 8. -/
theorem sqrt_sixtyFour : Real.sqrt 64 = 8 := by
  rw [show (64 : ℝ) = 8 ^ 2 by norm_num, Real.sqrt_sq (by norm_num)]

/-- One over the square root of the word 64 is the real number 1/8. -/
theorem one_div_sqrt_sixtyFourW : Ideal.div oneW (Ideal.sqrt sixtyFourW) = (((1 : ℝ) / 8 : ℝ) : EReal) := by
  rw [sixtyFourW_eq, RealEntries.sqrt_coe_of_nonneg (by norm_num), sqrt_sixtyFour, oneW_eq, RealEntries.one_coe,
    RealEntries.div_coe_coe 1 (by norm_num)]

end Cert.Attn

end
-- ==== Proof.Identity.lean ====
/-
  The tiled kernel and the plain reference compute the same attention output, on inputs that are real numbers.

  Both sides project the input to queries, keys and values by the same linear maps, so all entries are coercions of
  real numbers. The kernel scales the query row by 1/8 before the scalar product and the reference scales the product
  by 1/sqrt 64 = 1/8 afterwards: over the reals (∑ (q · 1/8) · k) = (∑ q · k) · 1/8, by distributivity. With equal real
  scores the kernel's four key tiles of the online softmax, re-indexed by (tile, key in tile) ↦ tile · 1024 + key onto
  all 4096 keys, give numerator / denominator equal to the softmax-weighted sum of the values, written with the global
  maximum and each weight divided first — exactly the reference's form, once its maximum with −∞ and its initial 0 of
  the denominator sum are dropped. The kernel multiplies the numerator by the reciprocal of the denominator, which is
  the quotient because the denominator, a sum of exponentials, is not zero. The output linear map is the same on both
  sides up to the order of the two factors of each product.
-/
import proofs.«141329_j15582141350418_2_alg».proof.Proof.IdentWords
import proofs.«141329_j15582141350418_2_alg».proof.Proof.RefSpec

noncomputable section

open scoped BigOperators

namespace Cert.Attn

open Idealize.ShloMosaic

/-- Keys as (tile, key in tile): t ↦ (t / 1024, t % 1024), inverse to `key`. -/
def keyEquiv : Fin 4 × Fin 1024 ≃ Fin 4096 where
  toFun p := key p.1 p.2
  invFun t := (⟨t.val / 1024, by omega⟩, ⟨t.val % 1024, by omega⟩)
  left_inv p := by
    obtain ⟨i, j⟩ := p
    refine Prod.ext (Fin.ext ?_) (Fin.ext ?_)
    · show (i.val * 1024 + j.val) / 1024 = i.val; omega
    · show (i.val * 1024 + j.val) % 1024 = j.val; omega
  right_inv t := Fin.ext (by show t.val / 1024 * 1024 + t.val % 1024 = t.val; omega)

theorem keyEquiv_apply (i : Fin 4) (j : Fin 1024) : keyEquiv (i, j) = key i j := rfl

section Real

variable (Qr Kr Vr : Fin 16 → Fin 4096 → Fin 64 → ℝ)

/-- The common real score: the scalar product of query s and key t, times 1/8. -/
def scoreR (n : Fin 16) (s t : Fin 4096) : ℝ := (∑ c : Fin 64, Qr n s c * Kr n t c) * (1 / 8)

/-- The kernel's score on real tables: scaling the query row first gives the same real number. -/
theorem kscore_coe (n : Fin 16) (s t : Fin 4096) :
    kscore (fun n s c => ((Qr n s c : ℝ) : EReal)) (fun n s c => ((Kr n s c : ℝ) : EReal)) n s t
      = ((scoreR Qr Kr n s t : ℝ) : EReal) := by
  unfold kscore scoreR
  simp only [eighth_eq, RealEntries.mul_coe, RealEntries.univ_sum_coe]
  refine congrArg _ ?_
  rw [Finset.sum_mul]
  exact Finset.sum_congr rfl fun c _ => by ring

/-- The reference's score on real tables. -/
theorem rscore_coe (n : Fin 16) (s t : Fin 4096) :
    rscore (fun n s c => ((Qr n s c : ℝ) : EReal)) (fun n s c => ((Kr n s c : ℝ) : EReal)) n s t
      = ((scoreR Qr Kr n s t : ℝ) : EReal) := by
  unfold rscore rscale scoreR
  simp only [one_div_sqrt_sixtyFourW, RealEntries.mul_coe, RealEntries.univ_sum_coe]

/-- On real tables the kernel's attention output is the reference's. -/
theorem kattn_eq_rattn (n : Fin 16) (s : Fin 4096) (c : Fin 64) :
    kattn (fun n s c => ((Qr n s c : ℝ) : EReal)) (fun n s c => ((Kr n s c : ℝ) : EReal))
        (fun n s c => ((Vr n s c : ℝ) : EReal)) n s c
      = rattn (fun n s c => ((Qr n s c : ℝ) : EReal)) (fun n s c => ((Kr n s c : ℝ) : EReal))
        (fun n s c => ((Vr n s c : ℝ) : EReal)) n s c := by
  have hb : 0 < 1024 := by norm_num
  -- the reference side, in the form of the softmax-weighted sum over all keys
  have hR : rattn (fun n s c => ((Qr n s c : ℝ) : EReal)) (fun n s c => ((Kr n s c : ℝ) : EReal))
        (fun n s c => ((Vr n s c : ℝ) : EReal)) n s c
      = ∑ t : Fin 4096, Ideal.div
          (Ideal.exp (((scoreR Qr Kr n s t : ℝ) : EReal)
            - (Finset.univ : Finset (Fin 4096)).fold max ⊥ (fun t' => ((scoreR Qr Kr n s t' : ℝ) : EReal))))
          (∑ t' : Fin 4096, Ideal.exp (((scoreR Qr Kr n s t' : ℝ) : EReal)
            - (Finset.univ : Finset (Fin 4096)).fold max ⊥ (fun t'' => ((scoreR Qr Kr n s t'' : ℝ) : EReal))))
        * ((Vr n t c : ℝ) : EReal) := by
    simp only [rattn, rden, rexp, rmax, rscore_coe, ninfW_eq, zeroW_eq, max_bot_left, zero_add]
  -- the kernel side: four tiles over the re-indexed real scores
  have hK : kstate (fun n s c => ((Qr n s c : ℝ) : EReal)) (fun n s c => ((Kr n s c : ℝ) : EReal))
        (fun n s c => ((Vr n s c : ℝ) : EReal)) n s c
      = OnlineSoftmax.step (OnlineSoftmax.step (OnlineSoftmax.step (OnlineSoftmax.step OnlineSoftmax.init
          (fun k : Fin 1024 => ((scoreR Qr Kr n s (keyEquiv (0, k)) : ℝ) : EReal))
          (fun k : Fin 1024 => ((Vr n (keyEquiv (0, k)) c : ℝ) : EReal)))
          (fun k : Fin 1024 => ((scoreR Qr Kr n s (keyEquiv (1, k)) : ℝ) : EReal))
          (fun k : Fin 1024 => ((Vr n (keyEquiv (1, k)) c : ℝ) : EReal)))
          (fun k : Fin 1024 => ((scoreR Qr Kr n s (keyEquiv (2, k)) : ℝ) : EReal))
          (fun k : Fin 1024 => ((Vr n (keyEquiv (2, k)) c : ℝ) : EReal)))
          (fun k : Fin 1024 => ((scoreR Qr Kr n s (keyEquiv (3, k)) : ℝ) : EReal))
          (fun k : Fin 1024 => ((Vr n (keyEquiv (3, k)) c : ℝ) : EReal)) := by
    simp only [kstate, ktile, kscore_coe, keyEquiv_apply]
  -- the state after four tiles is real, with a positive denominator
  have h1 := OnlineSoftmax.tracks_init hb (fun k => scoreR Qr Kr n s (keyEquiv (0, k))) (fun k => Vr n (keyEquiv (0, k)) c)
  have r1D := OnlineSoftmax.den_rescales (fun k : Fin 1024 => scoreR Qr Kr n s (keyEquiv (0, k)))
  have r1N := OnlineSoftmax.num_rescales (fun k : Fin 1024 => scoreR Qr Kr n s (keyEquiv (0, k)))
    (fun k => Vr n (keyEquiv (0, k)) c)
  have h2 := h1.step hb r1D r1N (fun k => scoreR Qr Kr n s (keyEquiv (1, k))) (fun k => Vr n (keyEquiv (1, k)) c)
  have r2D := r1D.add (OnlineSoftmax.den_rescales (fun k : Fin 1024 => scoreR Qr Kr n s (keyEquiv (1, k))))
  have r2N := r1N.add (OnlineSoftmax.num_rescales (fun k : Fin 1024 => scoreR Qr Kr n s (keyEquiv (1, k)))
    (fun k => Vr n (keyEquiv (1, k)) c))
  have h3 := h2.step hb r2D r2N (fun k => scoreR Qr Kr n s (keyEquiv (2, k))) (fun k => Vr n (keyEquiv (2, k)) c)
  have r3D := r2D.add (OnlineSoftmax.den_rescales (fun k : Fin 1024 => scoreR Qr Kr n s (keyEquiv (2, k))))
  have r3N := r2N.add (OnlineSoftmax.num_rescales (fun k : Fin 1024 => scoreR Qr Kr n s (keyEquiv (2, k)))
    (fun k => Vr n (keyEquiv (2, k)) c))
  have h4 := h3.step hb r3D r3N (fun k => scoreR Qr Kr n s (keyEquiv (3, k))) (fun k => Vr n (keyEquiv (3, k)) c)
  have hF := OnlineSoftmax.flash4_eq_softmax hb keyEquiv (scoreR Qr Kr n s) (fun t => Vr n t c)
  rw [hR, ← hF]
  unfold kattn
  rw [hK, oneW_eq]
  refine Ideal.mul_one_div ?_
  obtain ⟨m, hm⟩ := h4
  rw [hm]
  haveI : Nonempty (Fin 1024) := ⟨⟨0, hb⟩⟩
  refine EReal.coe_ne_zero.mpr (ne_of_gt ?_)
  simp only [Pi.add_apply]
  exact add_pos (add_pos (add_pos (OnlineSoftmax.den_pos _ _) (OnlineSoftmax.den_pos _ _))
    (OnlineSoftmax.den_pos _ _)) (OnlineSoftmax.den_pos _ _)

end Real

/-- A per-position linear map of real inputs is real. -/
theorem lin_coe (xr : Fin 16 → Fin 64 → Fin 4096 → ℝ) (wr : Fin 64 → Fin 64 → ℝ) (br : Fin 64 → ℝ) :
    lin (fun n c s => ((xr n c s : ℝ) : EReal)) (fun o c => ((wr o c : ℝ) : EReal)) (fun o => ((br o : ℝ) : EReal))
      = fun n s o => (((∑ c : Fin 64, xr n c s * wr o c) + br o : ℝ) : EReal) := by
  funext n s o
  unfold lin
  simp only [RealEntries.mul_coe, RealEntries.univ_sum_coe, RealEntries.add_coe]

/-- The kernel's computation and the reference's agree on inputs all of whose entries are real numbers. -/
theorem kernelSpec_eq_refSpec (x : Fin 16 → Fin 64 → Fin 4096 → EReal) (qw kw vw ow : Fin 64 → Fin 64 → EReal)
    (qb kb vb ob : Fin 64 → EReal)
    (hx : ∀ n c s, ∃ r : ℝ, x n c s = (r : EReal)) (hqw : ∀ o c, ∃ r : ℝ, qw o c = (r : EReal))
    (hkw : ∀ o c, ∃ r : ℝ, kw o c = (r : EReal)) (hvw : ∀ o c, ∃ r : ℝ, vw o c = (r : EReal))
    (how : ∀ o c, ∃ r : ℝ, ow o c = (r : EReal)) (hqb : ∀ o, ∃ r : ℝ, qb o = (r : EReal))
    (hkb : ∀ o, ∃ r : ℝ, kb o = (r : EReal)) (hvb : ∀ o, ∃ r : ℝ, vb o = (r : EReal))
    (hob : ∀ o, ∃ r : ℝ, ob o = (r : EReal))
    (n : Fin 16) (o : Fin 64) (s : Fin 4096) :
    kernelSpec x qw kw vw ow qb kb vb ob n o s = refSpec x qw kw vw ow qb kb vb ob n o s := by
  choose xr hxr using hx
  choose qwr hqwr using hqw
  choose kwr hkwr using hkw
  choose vwr hvwr using hvw
  choose qbr hqbr using hqb
  choose kbr hkbr using hkb
  choose vbr hvbr using hvb
  obtain rfl : x = fun n c s => ((xr n c s : ℝ) : EReal) := funext fun n => funext fun c => funext fun s => hxr n c s
  obtain rfl : qw = fun o c => ((qwr o c : ℝ) : EReal) := funext fun o => funext fun c => hqwr o c
  obtain rfl : kw = fun o c => ((kwr o c : ℝ) : EReal) := funext fun o => funext fun c => hkwr o c
  obtain rfl : vw = fun o c => ((vwr o c : ℝ) : EReal) := funext fun o => funext fun c => hvwr o c
  obtain rfl : qb = fun o => ((qbr o : ℝ) : EReal) := funext fun o => hqbr o
  obtain rfl : kb = fun o => ((kbr o : ℝ) : EReal) := funext fun o => hkbr o
  obtain rfl : vb = fun o => ((vbr o : ℝ) : EReal) := funext fun o => hvbr o
  unfold kernelSpec refSpec kout rout
  rw [lin_coe xr qwr qbr, lin_coe xr kwr kbr, lin_coe xr vwr vbr]
  refine congrArg (· + ob o) (Finset.sum_congr rfl fun c _ => ?_)
  rw [kattn_eq_rattn, mul_comm]

end Cert.Attn

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.Finite.lean ====
/-
  Every entry of every argument array is a real number.

  The precondition says, for each of the nine float arguments, that the conjunction over all its entries x of the
  comparison |x| < +∞ holds (|x| = max x (−x), +∞ the f32 word 0x7F800000), and takes the conjunction of the nine.
  A conjunction of one-bit words that is 1 has every conjunct 1; a reduction by "and" over all axes that is 1 had a 1 at
  every entry; and an extended real whose absolute value is below +∞ is neither infinity, so it is a real.
-/
import proofs.«141329_j15582141350418_2_alg».proof.Defs
import proofs.«141329_j15582141350418_2_alg».proof.Proof.LibFiniteEntry
import Idealize.ShloMosaic.Lib.ReduceAll
import Idealize.ShloMosaic.Lib.IdealHost
import Idealize.ShloMosaic.Lib.ValueIdx

noncomputable section

namespace Cert.Attn

open Idealize.ShloMosaic Idealize.SL.Sem Idealize.ShloMosaic.ValueIdx

/-- The scalar shape has one index. -/
instance subsingleton_scalar_idx : Subsingleton (⟨0, ![]⟩ : Shape).Idx := ⟨fun a b => funext fun d => d.elim0⟩

/-- One array: if the conjunction over its entries of "|x| < +∞" is 1, every entry is a real. -/
theorem all_real_of_all_lt_inf {S : Shape} {axes : List (Fin S.rank)} (a : FVec Ideal S .f32)
    (hb : (⟨0, ![]⟩ : Shape).BroadcastsInDim S ![]) (hr : S.ReducesTo axes ⟨0, ![]⟩) (hu : 0 < (⟨0, ![]⟩ : Shape).numel)
    (e : Host.reduce IntOp.andi
          (cmpf .olt (Host.absf a) (broadcastInDim S ![] hb (constant (F := Ideal) ⟨0, ![]⟩ .f32 0x7F800000#32)))
          (constantI ⟨0, ![]⟩ 1 1#1) hr hu ix0 = 1#1) :
    ∀ i, ∃ x : ℝ, a i = (x : EReal) := by
  intro i
  have ei := Host.reduce_andi_all _ _ hr hu ix0 e i
  have e' : Ideal.cmp .olt (max (a i) (-(a i)))
      (broadcastInDim S ![] hb (constant (F := Ideal) ⟨0, ![]⟩ .f32 0x7F800000#32) i) = 1#1 := ei
  rw [broadcastInDim_scalar_apply] at e'
  exact FiniteEntry.real_of_abs_lt_inf (a i) e'

/-- The nine arrays: if the printed predicate is all ones, every entry of every array is a real. -/
theorem real_of_finite_inputs [Cert.Pre_finite_inputs.Facts]
    (a0 : FVec Ideal Cert.Pre_finite_inputs.S16x64x64x64 .f32) (a1 : FVec Ideal Cert.Pre_finite_inputs.S64x64 .f32)
    (a2 : FVec Ideal Cert.Pre_finite_inputs.S64 .f32) (a3 : FVec Ideal Cert.Pre_finite_inputs.S64x64 .f32)
    (a4 : FVec Ideal Cert.Pre_finite_inputs.S64 .f32) (a5 : FVec Ideal Cert.Pre_finite_inputs.S64x64 .f32)
    (a6 : FVec Ideal Cert.Pre_finite_inputs.S64 .f32) (a7 : FVec Ideal Cert.Pre_finite_inputs.S64x64 .f32)
    (a8 : FVec Ideal Cert.Pre_finite_inputs.S64 .f32)
    (h : Cert.Pre_finite_inputs.fn (F := Ideal) a0 a1 a2 a3 a4 a5 a6 a7 a8 = fun _ => 1#1) :
    (∀ i, ∃ x : ℝ, a0 i = (x : EReal)) ∧ (∀ i, ∃ x : ℝ, a1 i = (x : EReal)) ∧ (∀ i, ∃ x : ℝ, a2 i = (x : EReal)) ∧ (∀ i, ∃ x : ℝ, a3 i = (x : EReal)) ∧ (∀ i, ∃ x : ℝ, a4 i = (x : EReal)) ∧ (∀ i, ∃ x : ℝ, a5 i = (x : EReal)) ∧ (∀ i, ∃ x : ℝ, a6 i = (x : EReal)) ∧ (∀ i, ∃ x : ℝ, a7 i = (x : EReal)) ∧ (∀ i, ∃ x : ℝ, a8 i = (x : EReal)) := by
  have h0 := congrFun h ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real_of_all_lt_inf a0 _ _ _ e0, all_real_of_all_lt_inf a1 _ _ _ e1, all_real_of_all_lt_inf a2 _ _ _ e2,
    all_real_of_all_lt_inf a3 _ _ _ e3, all_real_of_all_lt_inf a4 _ _ _ e4, all_real_of_all_lt_inf a5 _ _ _ e5,
    all_real_of_all_lt_inf a6 _ _ _ e6, all_real_of_all_lt_inf a7 _ _ _ e7, all_real_of_all_lt_inf a8 _ _ _ e8⟩

/-- Under the precondition, on every device, every entry of every argument array of the program is a real. -/
theorem finite_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S16x64x64x64.Idx, ∃ x : ℝ, (m ((c.tc : Thread Cert.KernelIdeal.nD Cert.KernelIdeal.τ).loc Cert.KernelIdeal.main_arg0) : Cert.KernelIdeal.S16x64x64x64.Idx → EReal) i = (x : EReal))
      ∧ (∀ i : Cert.KernelIdeal.S64x64.Idx, ∃ x : ℝ, (m ((c.tc : Thread Cert.KernelIdeal.nD Cert.KernelIdeal.τ).loc Cert.KernelIdeal.main_arg1) : Cert.KernelIdeal.S64x64.Idx → EReal) i = (x : EReal))
      ∧ (∀ i : Cert.KernelIdeal.S64.Idx, ∃ x : ℝ, (m ((c.tc : Thread Cert.KernelIdeal.nD Cert.KernelIdeal.τ).loc Cert.KernelIdeal.main_arg2) : Cert.KernelIdeal.S64.Idx → EReal) i = (x : EReal))
      ∧ (∀ i : Cert.KernelIdeal.S64x64.Idx, ∃ x : ℝ, (m ((c.tc : Thread Cert.KernelIdeal.nD Cert.KernelIdeal.τ).loc Cert.KernelIdeal.main_arg3) : Cert.KernelIdeal.S64x64.Idx → EReal) i = (x : EReal))
      ∧ (∀ i : Cert.KernelIdeal.S64.Idx, ∃ x : ℝ, (m ((c.tc : Thread Cert.KernelIdeal.nD Cert.KernelIdeal.τ).loc Cert.KernelIdeal.main_arg4) : Cert.KernelIdeal.S64.Idx → EReal) i = (x : EReal))
      ∧ (∀ i : Cert.KernelIdeal.S64x64.Idx, ∃ x : ℝ, (m ((c.tc : Thread Cert.KernelIdeal.nD Cert.KernelIdeal.τ).loc Cert.KernelIdeal.main_arg5) : Cert.KernelIdeal.S64x64.Idx → EReal) i = (x : EReal))
      ∧ (∀ i : Cert.KernelIdeal.S64.Idx, ∃ x : ℝ, (m ((c.tc : Thread Cert.KernelIdeal.nD Cert.KernelIdeal.τ).loc Cert.KernelIdeal.main_arg6) : Cert.KernelIdeal.S64.Idx → EReal) i = (x : EReal))
      ∧ (∀ i : Cert.KernelIdeal.S64x64.Idx, ∃ x : ℝ, (m ((c.tc : Thread Cert.KernelIdeal.nD Cert.KernelIdeal.τ).loc Cert.KernelIdeal.main_arg7) : Cert.KernelIdeal.S64x64.Idx → EReal) i = (x : EReal))
      ∧ (∀ i : Cert.KernelIdeal.S64.Idx, ∃ x : ℝ, (m ((c.tc : Thread Cert.KernelIdeal.nD Cert.KernelIdeal.τ).loc Cert.KernelIdeal.main_arg8) : Cert.KernelIdeal.S64.Idx → EReal) i = (x : EReal)) :=
  real_of_finite_inputs _ _ _ _ _ _ _ _ _ (h c)

end Cert.Attn

end
-- ==== Proof.lean ====
/-
  Spatial self-attention over 64 x 64 positions with 64 channels: a tiled kernel against the plain formula.

  The kernel program reshapes the image [16, 64, 64, 64] to channel-major positions [16, 64, 4096], projects it to the
  query, key and value tables in one kernel (blocks of 2048 positions), and runs an online-softmax attention kernel
  over (image, query tile of 512, key tile of 1024): per query row it carries the running maximum, denominator and
  numerator across the four key tiles and, after the last, multiplies the numerator by the reciprocal of the
  denominator, applies the output linear map and writes the block channel-major. The reference computes the same three
  tables, the full 4096 x 4096 score matrix scaled by 1 / sqrt 64, its row softmax, the weighted sum and the output map.

  On the extended reals the two agree when the inputs are finite: sqrt 64 = 8 exactly, so both scales are 1/8, and
  the scale moves across the finite sum of real products; four tiles of the online softmax over real scores give the
  softmax-weighted sum (the state after any number of tiles is the pair of sums at a common real shift); and a
  numerator times the reciprocal of a positive real denominator is the sum of the divided weights.

  Each program runs to its end from any memory, nothing faulting, its arguments unchanged: the two kernels are run
  point by point of their grids, the attention kernel's three running buffers carried from one point of a tile run to
  the next, and the program is the four items — reshapes, kernel, kernel, reshape — in sequence. The reference's run
  and its reading at an index are the generated modules'. The idealized kernel is the printed kernel read on the
  extended reals with no rewrite, so that conjunct is trivial.
-/
import proofs.«141329_j15582141350418_2_alg».proof.Defs
import proofs.«141329_j15582141350418_2_alg».proof.Proof.Gen.Kernel
import proofs.«141329_j15582141350418_2_alg».proof.Proof.Gen.KernelIdeal
import proofs.«141329_j15582141350418_2_alg».proof.Proof.Gen.ReferenceIdeal
import proofs.«141329_j15582141350418_2_alg».proof.Proof.Gen.Pre_finite_inputs
import proofs.«141329_j15582141350418_2_alg».proof.Proof.Gen.ReferenceIdeal.Run
import proofs.«141329_j15582141350418_2_alg».proof.Proof.Gen.ReferenceIdeal.Read
import proofs.«141329_j15582141350418_2_alg».proof.Proof.K.Final
import proofs.«141329_j15582141350418_2_alg».proof.Proof.KI.KernelValue
import proofs.«141329_j15582141350418_2_alg».proof.Proof.RefRead
import proofs.«141329_j15582141350418_2_alg».proof.Proof.Identity
import proofs.«141329_j15582141350418_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Attn

/-- The word-level kernel program runs to its end with its arguments unchanged. -/
theorem frame_kernel : Cert.frame_Kernel := fun m ρ _ => Cert.Kernel.Hand.frame (F := Bits) m ρ

/-- So does the kernel program read on the extended reals. -/
theorem frame_kernelIdeal : Cert.frame_KernelIdeal := fun m ρ _ => Cert.KernelIdeal.Hand.frame (F := Ideal) m ρ

/-- The reference is a line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on finite arguments both programs end with the same result: entry (n, o, h, w) of
    either is the attention output of image n at position h · 64 + w sent through the output map's row o. -/
theorem algebraic : Cert.algebraic_KernelIdeal_ReferenceIdeal := by
  intro m ρ m' ρ' hpre hagree
  refine ⟨fun c => Cert.KernelIdeal.Hand.W4 m ρ c (Proc.devRef .tc Cert.KernelIdeal.main_v7),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  obtain ⟨f0, f1, f2, f3, f4, f5, f6, f7, f8⟩ := Cert.Attn.finite_of_pre m hpre c
  funext i
  obtain ⟨n, o, h, w, rfl⟩ : ∃ (n : Fin 16) (o h w : Fin 64), i = ix4 n o h w := ⟨i 0, i 1, i 2, i 3, eq_ix4 i⟩
  refine (Cert.Attn.ref_value _ _ _ _ _ _ _ _ _ n o h w).trans ?_
  refine ((Cert.KernelIdeal.Hand.kernel_value m ρ c n o h w).trans ?_).symm
  exact Cert.Attn.kernelSpec_eq_refSpec _ _ _ _ _ _ _ _ _
    (fun n c s => f0 _) (fun o c => f1 _) (fun o c => f3 _) (fun o c => f5 _) (fun o c => f7 _)
    (fun o => f2 _) (fun o => f4 _) (fun o => f6 _) (fun o => f8 _) n o (posOf h w)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
